-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S2x4x128x32 : Shape := ⟨4, ![2, 4, 128, 32]⟩
abbrev S_ : Shape := ⟨0, ![]⟩
abbrev S10000 : Shape := ⟨1, ![10000]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S2x4x128x32 : S_.BroadcastsInDim S2x4x128x32 (![] : Fin 0 → Fin S2x4x128x32.rank)
  reducesTo_S2x4x128x32_S_d0_1_2_3 : S2x4x128x32.ReducesTo [0, 1, 2, 3] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg0 : FVec F S10000x10000 .f32) (main_v13 : IVec S_ 1) (main_v14 : IVec S10000x10000 32) (main_v15 : IVec S10000x10000 32) (main_v16 : IVec S10000x10000 32) : IVec S_ 1 :=
  let main_v17 : IVec S10000x10000 32 := addi main_v14 main_v16
  let main_v18 : IVec S10000x10000 1 := cmpi .eq main_v17 main_v15
  let main_v19 : FVec F S10000x10000 .f32 := uitofp .f32 main_v18
  let main_v20 : FVec F S10000x10000 .f32 := addf main_arg0 main_v19
  let main_cst_5 : FVec F S_ .f32 := constant S_ .f32 0x00000000#32
  let main_v21 : FVec F S10000 .f32 := (fun x v => Host.reduceAdd x v reducesTo_S10000x10000_S10000_d1 h_S_) main_v20 main_cst_5
  let main_cst_6 : FVec F S_ .f32 := constant S_ .f32 0x00000000#32
  let main_v22 : FVec F S10000 .f32 := broadcastInDim S10000 ![] bcast_S_S10000 main_cst_6
  let main_v23 : IVec S10000 1 := cmpf .ogt main_v21 main_v22
  let main_c_7 : IVec S_ 1 := constantI S_ 1 1#1
  let main_v24 : IVec S_ 1 := (fun x v => Host.reduce IntOp.andi x v reducesTo_S10000_S_d0 h_S_) main_v23 main_c_7
  let main_v25 : IVec S_ 1 := andi main_v13 main_v24
  main_v25

def fn {F : FTy → Type} [FloatOps F] (main_arg0 : FVec F S10000x10000 .f32) (main_arg1 : FVec F S10000x128 .f32) (main_arg2 : FVec F S2x4x128x32 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S2x4x128x32 .f32 := Host.absf main_arg2
  let main_cst_2 : FVec F S_ .f32 := constant S_ .f32 0x7F800000#32
  let main_v10 : FVec F S2x4x128x32 .f32 := broadcastInDim S2x4x128x32 ![] bcast_S_S2x4x128x32 main_cst_2
  let main_v11 : IVec S2x4x128x32 1 := cmpf .olt main_v9 main_v10
  let main_c_3 : IVec S_ 1 := constantI S_ 1 1#1
  let main_v12 : IVec S_ 1 := (fun x v => Host.reduce IntOp.andi x v reducesTo_S2x4x128x32_S_d0_1_2_3 h_S_) main_v11 main_c_3
  let main_v13 : IVec S_ 1 := andi main_v8 main_v12
  let main_v14 : IVec S10000x10000 32 := iotaInDim S10000x10000 32 0
  let main_v15 : IVec S10000x10000 32 := iotaInDim S10000x10000 32 1
  let main_c_4 : IVec S_ 32 := constantI S_ 32 0#32
  let main_v16 : IVec S10000x10000 32 := broadcastInDim S10000x10000 ![] bcast_S_S10000x10000 main_c_4
  fn_part1 (F := F) main_arg0 main_v13 main_v14 main_v15 main_v16
-- ==== Kernel.lean ====
abbrev S10000x10000 : Shape := ⟨2, ![10000, 10000]⟩
abbrev S10000x128 : Shape := ⟨2, ![10000, 128]⟩
abbrev S2x4x128x32 : Shape := ⟨4, ![2, 4, 128, 32]⟩
abbrev S10000x1 : Shape := ⟨2, ![10000, 1]⟩
abbrev S200x10000 : Shape := ⟨2, ![200, 10000]⟩
abbrev S200x128 : Shape := ⟨2, ![200, 128]⟩
abbrev S200x1 : Shape := ⟨2, ![200, 1]⟩
abbrev S200 : Shape := ⟨1, ![200]⟩
abbrev S1x4x128x32 : Shape := ⟨4, ![1, 4, 128, 32]⟩
abbrev S4x128x32 : Shape := ⟨3, ![4, 128, 32]⟩
abbrev S128x4x32 : Shape := ⟨3, ![128, 4, 32]⟩
abbrev S128x128 : Shape := ⟨2, ![128, 128]⟩
abbrev S400x10000 : Shape := ⟨2, ![400, 10000]⟩
abbrev S400x128 : Shape := ⟨2, ![400, 128]⟩
abbrev S400x1 : Shape := ⟨2, ![400, 1]⟩

abbrev nBuf : Space → Nat
  | .hbm => 16
  | .vmem => 30
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S2x4x128x32, .f32⟩
  | .hbm, ⟨3, _⟩ => ⟨S10000x1, .f32⟩
  | .hbm, ⟨4, _⟩ => ⟨S10000x128, .f32⟩
  | .hbm, ⟨5, _⟩ => ⟨S10000x10000, .bf16⟩
  | .hbm, ⟨6, _⟩ => ⟨S1x4x128x32, .f32⟩
  | .hbm, ⟨7, _⟩ => ⟨S4x128x32, .f32⟩
  | .hbm, ⟨8, _⟩ => ⟨S128x4x32, .f32⟩
  | .hbm, ⟨9, _⟩ => ⟨S128x128, .f32⟩
  | .hbm, ⟨10, _⟩ => ⟨S10000x128, .f32⟩
  | .hbm, ⟨11, _⟩ => ⟨S1x4x128x32, .f32⟩
  | .hbm, ⟨12, _⟩ => ⟨S4x128x32, .f32⟩
  | .hbm, ⟨13, _⟩ => ⟨S128x4x32, .f32⟩
  | .hbm, ⟨14, _⟩ => ⟨S128x128, .f32⟩
  | .hbm, ⟨15, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x128, .f32⟩
  | .local _ .vmem, ⟨3, _⟩ => ⟨S200x128, .f32⟩
  | .local _ .vmem, ⟨4, _⟩ => ⟨S200x1, .f32⟩
  | .local _ .vmem, ⟨5, _⟩ => ⟨S200x1, .f32⟩
  | .local _ .vmem, ⟨6, _⟩ => ⟨S200x128, .f32⟩
  | .local _ .vmem, ⟨7, _⟩ => ⟨S200x128, .f32⟩
  | .local _ .vmem, ⟨8, _⟩ => ⟨S200x10000, .bf16⟩
  | .local _ .vmem, ⟨9, _⟩ => ⟨S200x10000, .bf16⟩
  | .local _ .vmem, ⟨10, _⟩ => ⟨S400x10000, .bf16⟩
  | .local _ .vmem, ⟨11, _⟩ => ⟨S400x10000, .bf16⟩
  | .local _ .vmem, ⟨12, _⟩ => ⟨S10000x128, .f32⟩
  | .local _ .vmem, ⟨13, _⟩ => ⟨S400x128, .f32⟩
  | .local _ .vmem, ⟨14, _⟩ => ⟨S400x128, .f32⟩
  | .local _ .vmem, ⟨15, _⟩ => ⟨S400x1, .f32⟩
  | .local _ .vmem, ⟨16, _⟩ => ⟨S400x1, .f32⟩
  | .local _ .vmem, ⟨17, _⟩ => ⟨S128x128, .f32⟩
  | .local _ .vmem, ⟨18, _⟩ => ⟨S400x128, .f32⟩
  | .local _ .vmem, ⟨19, _⟩ => ⟨S400x128, .f32⟩
  | .local _ .vmem, ⟨20, _⟩ => ⟨S400x10000, .bf16⟩
  | .local _ .vmem, ⟨21, _⟩ => ⟨S400x10000, .bf16⟩
  | .local _ .vmem, ⟨22, _⟩ => ⟨S10000x128, .f32⟩
  | .local _ .vmem, ⟨23, _⟩ => ⟨S400x128, .f32⟩
  | .local _ .vmem, ⟨24, _⟩ => ⟨S400x128, .f32⟩
  | .local _ .vmem, ⟨25, _⟩ => ⟨S400x1, .f32⟩
  | .local _ .vmem, ⟨26, _⟩ => ⟨S400x1, .f32⟩
  | .local _ .vmem, ⟨27, _⟩ => ⟨S128x128, .f32⟩
  | .local _ .vmem, ⟨28, _⟩ => ⟨S400x128, .f32⟩
  | .local _ .vmem, ⟨29, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S200x1_S200x1_0_0 : ∀ a, (![0, 0] : Fin 2 → Nat) a + S200x1.size a ≤ S200x1.size a
  h_S200x1 : 0 < S200x1.numel
  inb_S200x128_S200x128_0_0 : ∀ a, (![0, 0] : Fin 2 → Nat) a + S200x128.size a ≤ S200x128.size a
  h_S200x128 : 0 < S200x128.numel
  broadcasts_S200x1_S200x128 : S200x1.Broadcasts S200x128
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  slices_S2x4x128x32_S1x4x128x32_0_0_0_0 : S2x4x128x32.Slices ![0, 0, 0, 0] S1x4x128x32
  shapeCasts_S1x4x128x32_S4x128x32 : S1x4x128x32.ShapeCasts S4x128x32
  transposes_S4x128x32_S128x4x32_1_0_2 : S4x128x32.Transposes [1, 0, 2] S128x4x32
  shapeCasts_S128x4x32_S128x128 : S128x4x32.ShapeCasts S128x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  shapeCasts_S400x128_S400x128 : S400x128.ShapeCasts S400x128
  broadcasts_S400x1_S400x128 : S400x1.Broadcasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x4x128x32_S1x4x128x32_1_0_0_0 : S2x4x128x32.Slices ![1, 0, 0, 0] S1x4x128x32
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S10000x128.size a
  hwx0_1 : ∀ i : grid0.Coords, EltTy.bits .f32 = 32 ∨ (Rect.block (s := S10000x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S10000x1.size a
  hwx0_2 : ∀ i : grid0.Coords, EltTy.bits .f32 = 32 ∨ (Rect.block (s := S10000x1) S200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .bf16 = 32 ∨ (Rect.block (s := S10000x10000) S200x10000.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S200x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S200x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S200x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S2x4x128x32 : Shape := ⟨4, ![2, 4, 128, 32]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x1x128x32 : Shape := ⟨4, ![1, 1, 128, 32]⟩
abbrev S128x32 : Shape := ⟨2, ![128, 32]⟩
abbrev S10000x32 : Shape := ⟨2, ![10000, 32]⟩

abbrev nBuf : Space → Nat
  | .hbm => 51
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S2x4x128x32, .f32⟩
  | .hbm, ⟨3, _⟩ => ⟨S10000x10000, .i32⟩
  | .hbm, ⟨4, _⟩ => ⟨S10000x10000, .i32⟩
  | .hbm, ⟨5, _⟩ => ⟨S_, .i32⟩
  | .hbm, ⟨6, _⟩ => ⟨S10000x10000, .i32⟩
  | .hbm, ⟨7, _⟩ => ⟨S10000x10000, .i32⟩
  | .hbm, ⟨8, _⟩ => ⟨S10000x10000, .i1⟩
  | .hbm, ⟨9, _⟩ => ⟨S10000x10000, .f32⟩
  | .hbm, ⟨10, _⟩ => ⟨S10000x10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x10000, .f32⟩
  | .hbm, ⟨16, _⟩ => ⟨S10000x10000, .f32⟩
  | .hbm, ⟨17, _⟩ => ⟨S1x10000, .f32⟩
  | .hbm, ⟨18, _⟩ => ⟨S10000x10000, .f32⟩
  | .hbm, ⟨19, _⟩ => ⟨S10000x10000, .f32⟩
  | .hbm, ⟨20, _⟩ => ⟨S10000x128, .f32⟩
  | .hbm, ⟨21, _⟩ => ⟨S1x1x128x32, .f32⟩
  | .hbm, ⟨22, _⟩ => ⟨S128x32, .f32⟩
  | .hbm, ⟨23, _⟩ => ⟨S10000x32, .f32⟩
  | .hbm, ⟨24, _⟩ => ⟨S1x1x128x32, .f32⟩
  | .hbm, ⟨25, _⟩ => ⟨S128x32, .f32⟩
  | .hbm, ⟨26, _⟩ => ⟨S10000x32, .f32⟩
  | .hbm, ⟨27, _⟩ => ⟨S1x1x128x32, .f32⟩
  | .hbm, ⟨28, _⟩ => ⟨S128x32, .f32⟩
  | .hbm, ⟨29, _⟩ => ⟨S10000x32, .f32⟩
  | .hbm, ⟨30, _⟩ => ⟨S1x1x128x32, .f32⟩
  | .hbm, ⟨31, _⟩ => ⟨S128x32, .f32⟩
  | .hbm, ⟨32, _⟩ => ⟨S10000x32, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x1x128x32, .f32⟩
  | .hbm, ⟨39, _⟩ => ⟨S128x32, .f32⟩
  | .hbm, ⟨40, _⟩ => ⟨S10000x32, .f32⟩
  | .hbm, ⟨41, _⟩ => ⟨S1x1x128x32, .f32⟩
  | .hbm, ⟨42, _⟩ => ⟨S128x32, .f32⟩
  | .hbm, ⟨43, _⟩ => ⟨S10000x32, .f32⟩
  | .hbm, ⟨44, _⟩ => ⟨S1x1x128x32, .f32⟩
  | .hbm, ⟨45, _⟩ => ⟨S128x32, .f32⟩
  | .hbm, ⟨46, _⟩ => ⟨S10000x32, .f32⟩
  | .hbm, ⟨47, _⟩ => ⟨S1x1x128x32, .f32⟩
  | .hbm, ⟨48, _⟩ => ⟨S128x32, .f32⟩
  | .hbm, ⟨49, _⟩ => ⟨S10000x32, .f32⟩
  | .hbm, ⟨50, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_cst : Ref sig .tc := ⟨.hbm, 34, rfl⟩
abbrev main_call0_v0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  slices_S2x4x128x32_S1x1x128x32_0_0_0_0 : S2x4x128x32.Slices ![0, 0, 0, 0] S1x1x128x32
  shapeCasts_S1x1x128x32_S128x32 : S1x1x128x32.ShapeCasts S128x32
  slices_S2x4x128x32_S1x1x128x32_0_1_0_0 : S2x4x128x32.Slices ![0, 1, 0, 0] S1x1x128x32
  slices_S2x4x128x32_S1x1x128x32_0_2_0_0 : S2x4x128x32.Slices ![0, 2, 0, 0] S1x1x128x32
  slices_S2x4x128x32_S1x1x128x32_0_3_0_0 : S2x4x128x32.Slices ![0, 3, 0, 0] S1x1x128x32
  concatenates_S10000x32_S10000x32_S10000x32_S10000x32_S10000x128_d1 : Shape.Concatenates [S10000x32, S10000x32, S10000x32, S10000x32] S10000x128 1
  bcast_S_S10000x128 : S_.BroadcastsInDim S10000x128 (![] : Fin 0 → Fin S10000x128.rank)
  slices_S2x4x128x32_S1x1x128x32_1_0_0_0 : S2x4x128x32.Slices ![1, 0, 0, 0] S1x1x128x32
  slices_S2x4x128x32_S1x1x128x32_1_1_0_0 : S2x4x128x32.Slices ![1, 1, 0, 0] S1x1x128x32
  slices_S2x4x128x32_S1x1x128x32_1_2_0_0 : S2x4x128x32.Slices ![1, 2, 0, 0] S1x1x128x32
  slices_S2x4x128x32_S1x1x128x32_1_3_0_0 : S2x4x128x32.Slices ![1, 3, 0, 0] S1x1x128x32
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

class Facts : Prop extends Facts₀ where

variable [Facts]
-- ==== Proof.KB.DegPass.lean ====
/-
  The first pass (degrees): on a block of 200 rows of the adjacency array and the matching 200 rows of the
  features, the body writes three blocks — the column d = (row sum + 1)^(-1/2), the scaled features d ⊙ x, and
  the adjacency block re-encoded in the narrow format. Here: what each output block holds after the body as a
  function of the two input blocks, the body's triple, and the pipeline's proof data at arbitrary entry contents V.
-/
import proofs.«132648_g48387101557188_cont_8to1_c_480_4_alg».proof.Proof.Gen.Kernel.Launch
import proofs.«132648_g48387101557188_cont_8to1_c_480_4_alg».proof.Proof.Gen.Kernel.Skeleton
import proofs.«132648_g48387101557188_cont_8to1_c_480_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.DegPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S200x10000 := Rect.unit (s := S200x10000) ![0, 0] S200x10000.size inb_S200x10000_S200x10000_0_0
abbrev rD : Rect S200x1 := Rect.unit (s := S200x1) ![0, 0] S200x1.size inb_S200x1_S200x1_0_0
abbrev rY : Rect S200x128 := Rect.unit (s := S200x128) ![0, 0] S200x128.size inb_S200x128_S200x128_0_0

/-- The column block after the body: (row sums + 1)^(-1/2) of the adjacency block. -/
def outD (x0 : Vec F S200x10000 .f32) : Vec F S200x1 .f32 :=
  View.canon [⟨rD, k0_pay1 (View.ld x0 rA)⟩]
/-- The scaled-feature block after the body. -/
def outY (x0 : Vec F S200x10000 .f32) (x1 : Vec F S200x128 .f32) : Vec F S200x128 .f32 :=
  View.canon [⟨rY, k0_pay2 (View.ld x0 rA) (View.ld x1 rY)⟩]
/-- The re-encoded adjacency block after the body. -/
def outB (x0 : Vec F S200x10000 .f32) : Vec F S200x10000 .bf16 :=
  View.canon [⟨rA, k0_pay3 (View.ld x0 rA)⟩]

theorem coverD (p0 : Vec F S200x1 .f32) (y : S200x1.Idx) :
    ∃ pc ∈ ([⟨rD, p0⟩] : List (View.Piece (Elt F) S200x1 .f32)), y ∈ pc.1.set :=
  View.cover_of_tiled [⟨rD, p0⟩] S200x1.size (by rfl) y
theorem coverY (p0 : Vec F S200x128 .f32) (y : S200x128.Idx) :
    ∃ pc ∈ ([⟨rY, p0⟩] : List (View.Piece (Elt F) S200x128 .f32)), y ∈ pc.1.set :=
  View.cover_of_tiled [⟨rY, p0⟩] S200x128.size (by rfl) y
theorem coverB (p0 : Vec F S200x10000 .bf16) (y : S200x10000.Idx) :
    ∃ pc ∈ ([⟨rA, p0⟩] : List (View.Piece (Elt F) S200x10000 .bf16)), y ∈ pc.1.set :=
  View.cover_of_tiled [⟨rA, p0⟩] S200x10000.size (by rfl) y

set_option maxHeartbeats 1000000 in
/-- The body on whole staging memrefs: the two inputs held at known contents come back unchanged, the three outputs
    held at anything end at the three functions above. -/
theorem sound_kernel (c : Dev nD) (E : Set ℕ) (i : grid0.Coords)
    (arg1 : Memref sig .tc .vmem S200x10000 .f32) (harg1 : arg1.IsWhole) (arg2 : Memref sig .tc .vmem S200x128 .f32) (harg2 : arg2.IsWhole)
    (arg3 : Memref sig .tc .vmem S200x1 .f32) (harg3 : arg3.IsWhole) (arg4 : Memref sig .tc .vmem S200x128 .f32) (harg4 : arg4.IsWhole)
    (arg5 : Memref sig .tc .vmem S200x10000 .bf16) (harg5 : arg5.IsWhole)
    (x0 : Vec F S200x10000 .f32) (x1 : Vec F S200x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outD x0) ∗ owns (c : Thread nD τ) arg4 fullShare (outY x0 x1)
            ∗ owns (c : Thread nD τ) arg5 fullShare (outB x0)) -∗ K ⟨⟩))
      ⊢ wp frame (wpE (defs₀ (F := F)) Variants.none c none) E (cc0__deg_kernel i arg1 harg1 arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverD _)
  isplitl [H3]
  · iexists _; isplitr
    swap; · iexact H3
    ipureintro
    exact View.read_writes_eq_canon _ _ _ (coverY _)
  iexists _; isplitr
  swap; · iexact H4
  ipureintro
  exact View.read_writes_eq_canon _ _ _ (coverB _)

/-- The proof data of the pass on core `c`: the arrays as found; after the body each input's buffer at its block,
    each output's at its function of the input blocks; nothing carried, nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outD (iblk V c 0 t)
    | ⟨3, _⟩ => outY (iblk V c 0 t) (iblk V c 1 t)
    | ⟨4, _⟩ => outB (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outD (iblk V c 0 t) := by dsimp only [dat]
theorem after_3 (c : Dev nD) (t : Fin cfg0.N) : (dat V c).after 3 t = outY (iblk V c 0 t) (iblk V c 1 t) := by dsimp only [dat]
theorem after_4 (c : Dev nD) (t : Fin cfg0.N) : (dat V c).after 4 t = outB (iblk V c 0 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W0, bigSep_W0]
  exact sound_body V c t

end Cert.Kernel.DegPass

end
-- ==== Proof.KB.Layer1.lean ====
/-
  The first layer pass: on a block of 400 rows the body reads the block's adjacency rows, ALL rows of the scaled features, the block's own scaled-feature rows, the block's column of factors d and the layer's weights, and writes d ⊙ max((d ⊙ (A·y + y_block))·W, 0). Here: the output block after the body as a function of the five input blocks, the body's triple, and the pipeline's proof data at arbitrary entry contents V.
-/
import proofs.«132648_g48387101557188_cont_8to1_c_480_4_alg».proof.Proof.Gen.Kernel.Launch
import proofs.«132648_g48387101557188_cont_8to1_c_480_4_alg».proof.Proof.Gen.Kernel.Skeleton
import proofs.«132648_g48387101557188_cont_8to1_c_480_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S400x10000 := Rect.unit (s := S400x10000) ![0, 0] S400x10000.size inb_S400x10000_S400x10000_0_0
abbrev rYall : Rect S10000x128 := Rect.unit (s := S10000x128) ![0, 0] S10000x128.size inb_S10000x128_S10000x128_0_0
abbrev rY : Rect S400x128 := Rect.unit (s := S400x128) ![0, 0] S400x128.size inb_S400x128_S400x128_0_0
abbrev rD : Rect S400x1 := Rect.unit (s := S400x1) ![0, 0] S400x1.size inb_S400x1_S400x1_0_0
abbrev rW : Rect S128x128 := Rect.unit (s := S128x128) ![0, 0] S128x128.size inb_S128x128_S128x128_0_0

/-- The output block after the body, from the five input blocks (adjacency rows, all scaled features, the block's
    own scaled features, the block's column of factors, the weights). -/
def outO (xA : Vec F S400x10000 .bf16) (xYall : Vec F S10000x128 .f32) (xY : Vec F S400x128 .f32) (xD : Vec F S400x1 .f32) (xW : Vec F S128x128 .f32) :
    Vec F S400x128 .f32 :=
  View.canon [⟨rY, k1_pay1 (View.ld xD rD) (View.ld xYall rYall) (View.ld xA rA) (View.ld xY rY) (View.ld xW rW)⟩]

theorem coverO (p0 : Vec F S400x128 .f32) (y : S400x128.Idx) :
    ∃ pc ∈ ([⟨rY, p0⟩] : List (View.Piece (Elt F) S400x128 .f32)), y ∈ pc.1.set :=
  View.cover_of_tiled [⟨rY, p0⟩] S400x128.size (by rfl) y

set_option maxHeartbeats 1000000 in
/-- The body on whole staging memrefs: the five inputs held at known contents (at any shares) come back unchanged, the
    output held at anything ends at `outO` of them. -/
theorem sound_kernel (c : Dev nD) (E : Set ℕ) (i : grid1.Coords)
    (arg1 : Memref sig .tc .vmem S400x10000 .bf16) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S400x128 .f32) (harg6 : arg6.IsWhole)
    (xA : Vec F S400x10000 .bf16) (xYall : Vec F S10000x128 .f32) (xY : Vec F S400x128 .f32) (xD : Vec F S400x1 .f32) (xW : Vec F S128x128 .f32)
    (K : PUnit → sProp 𝕄) :
    iprop(owns (c : Thread nD τ) arg1 fullShare xA ∗ owns (c : Thread nD τ) arg2 fullShare xYall
        ∗ owns (c : Thread nD τ) arg3 fullShare xY ∗ owns (c : Thread nD τ) arg4 fullShare xD ∗ owns (c : Thread nD τ) arg5 fullShare xW
        ∗ (∃ d, owns (c : Thread nD τ) arg6 fullShare d)
        ∗ (iprop(owns (c : Thread nD τ) arg1 fullShare xA ∗ owns (c : Thread nD τ) arg2 fullShare xYall
            ∗ owns (c : Thread nD τ) arg3 fullShare xY ∗ owns (c : Thread nD τ) arg4 fullShare xD ∗ owns (c : Thread nD τ) arg5 fullShare xW
            ∗ owns (c : Thread nD τ) arg6 fullShare (outO xA xYall xY xD xW)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-- The proof data of the pass on core `c`: the arrays as found; after the body each input's buffer at its block, the
    output's at `outO` of the input blocks; nothing carried, nothing owed; the scaled-feature array, which two windows read, is held half by each of them, every other array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO (iblk V c 0 t) (iblk V c 1 t) (iblk V c 2 t) (iblk V c 3 t) (iblk V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outO (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.Kernel.LayerOne

end
-- ==== Proof.KB.Layer2.lean ====
/-
  The second layer pass: as the first, on the first layer's output, without the clip at zero and the final scaling: the body writes (d ⊙ (A·y + y_block))·W. Here: the output block after the body as a function of the five input blocks, the body's triple, and the pipeline's proof data at arbitrary entry contents V.
-/
import proofs.«132648_g48387101557188_cont_8to1_c_480_4_alg».proof.Proof.Gen.Kernel.Launch
import proofs.«132648_g48387101557188_cont_8to1_c_480_4_alg».proof.Proof.Gen.Kernel.Skeleton
import proofs.«132648_g48387101557188_cont_8to1_c_480_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S400x10000 := Rect.unit (s := S400x10000) ![0, 0] S400x10000.size inb_S400x10000_S400x10000_0_0
abbrev rYall : Rect S10000x128 := Rect.unit (s := S10000x128) ![0, 0] S10000x128.size inb_S10000x128_S10000x128_0_0
abbrev rY : Rect S400x128 := Rect.unit (s := S400x128) ![0, 0] S400x128.size inb_S400x128_S400x128_0_0
abbrev rD : Rect S400x1 := Rect.unit (s := S400x1) ![0, 0] S400x1.size inb_S400x1_S400x1_0_0
abbrev rW : Rect S128x128 := Rect.unit (s := S128x128) ![0, 0] S128x128.size inb_S128x128_S128x128_0_0

/-- The output block after the body, from the five input blocks (adjacency rows, all scaled features, the block's
    own scaled features, the block's column of factors, the weights). -/
def outO (xA : Vec F S400x10000 .bf16) (xYall : Vec F S10000x128 .f32) (xY : Vec F S400x128 .f32) (xD : Vec F S400x1 .f32) (xW : Vec F S128x128 .f32) :
    Vec F S400x128 .f32 :=
  View.canon [⟨rY, k2_pay1 (View.ld xD rD) (View.ld xYall rYall) (View.ld xA rA) (View.ld xY rY) (View.ld xW rW)⟩]

theorem coverO (p0 : Vec F S400x128 .f32) (y : S400x128.Idx) :
    ∃ pc ∈ ([⟨rY, p0⟩] : List (View.Piece (Elt F) S400x128 .f32)), y ∈ pc.1.set :=
  View.cover_of_tiled [⟨rY, p0⟩] S400x128.size (by rfl) y

set_option maxHeartbeats 1000000 in
/-- The body on whole staging memrefs: the five inputs held at known contents (at any shares) come back unchanged, the
    output held at anything ends at `outO` of them. -/
theorem sound_kernel (c : Dev nD) (E : Set ℕ) (i : grid2.Coords)
    (arg1 : Memref sig .tc .vmem S400x10000 .bf16) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S400x128 .f32) (harg6 : arg6.IsWhole)
    (xA : Vec F S400x10000 .bf16) (xYall : Vec F S10000x128 .f32) (xY : Vec F S400x128 .f32) (xD : Vec F S400x1 .f32) (xW : Vec F S128x128 .f32)
    (K : PUnit → sProp 𝕄) :
    iprop(owns (c : Thread nD τ) arg1 fullShare xA ∗ owns (c : Thread nD τ) arg2 fullShare xYall
        ∗ owns (c : Thread nD τ) arg3 fullShare xY ∗ owns (c : Thread nD τ) arg4 fullShare xD ∗ owns (c : Thread nD τ) arg5 fullShare xW
        ∗ (∃ d, owns (c : Thread nD τ) arg6 fullShare d)
        ∗ (iprop(owns (c : Thread nD τ) arg1 fullShare xA ∗ owns (c : Thread nD τ) arg2 fullShare xYall
            ∗ owns (c : Thread nD τ) arg3 fullShare xY ∗ owns (c : Thread nD τ) arg4 fullShare xD ∗ owns (c : Thread nD τ) arg5 fullShare xW
            ∗ owns (c : Thread nD τ) arg6 fullShare (outO xA xYall xY xD xW)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-- The proof data of the pass on core `c`: the arrays as found; after the body each input's buffer at its block, the
    output's at `outO` of the input blocks; nothing carried, nothing owed; the scaled-feature array, which two windows read, is held half by each of them, every other array whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO (iblk V c 0 t) (iblk V c 1 t) (iblk V c 2 t) (iblk V c 3 t) (iblk V c 4 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = outO (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.Kernel.LayerTwo

end
-- ==== Proof.KB.Shared1.lean ====
/-
  The first layer pass's arrays among the core's unscoped buffers, when two windows read ONE array.

  The pass has six windows over FIVE arrays: the window that reads all rows of the scaled features and the window that
  reads the block's own rows of them read the same array, each holding half of it (the left and the right half of the
  full share), while every other array is held whole by its one window. So the pass's arrays are not one full points-to
  per window, and they are taken out of the core's unscoped buffers, and put back, in three steps:

    * the unscoped buffers are the five buffers behind the arrays, each whole at the full share, and the rest;
    * the shared array's full points-to splits along its share into the two halves (and the two halves, at the same
      contents, join back into the full points-to);
    * the rest reads a valuation only off the arrays, so it does not see a change of the output array.

  At the exit every input array holds what it held at the entry (an input array is never written), so the only buffer
  whose contents changed is the output array.
-/
import proofs.«132648_g48387101557188_cont_8to1_c_480_4_alg».proof.Proof.KB.Layer1

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers are the buffers behind the pass's arrays and the rest. -/
theorem bufs_split (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- The buffers behind the pass's arrays, one by one: five buffers for six windows. -/
theorem arrBufs_chain (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_2) ↦{fullShare} W main_v0_2) ∗ (((c : Thread nD τ).loc main_v0_1) ↦{fullShare} W main_v0_1)
          ∗ (((c : Thread nD τ).loc main_v0_0) ↦{fullShare} W main_v0_0) ∗ (((c : Thread nD τ).loc main_v4) ↦{fullShare} W main_v4)
          ∗ (((c : Thread nD τ).loc main_v5) ↦{fullShare} W main_v5)) := by
  unfold Pipeline.arrBufs
  exact bigSep_eq_bigSepL_of_eq [main_v0_2, main_v0_1, main_v0_0, main_v4, main_v5] (by decide) (by decide) _

/-- The pass's arrays are whole buffers: each window's part of its array is all of it. -/
theorem arrays_whole (c : Dev nD) (G : (w : Fin cfg1.W) → Buf (Elt F) ((cfg1.win w).arr.view.loc (c : Thread nD τ))) :
    ((dat V c).arrays G : sProp 𝕄)
      = bigSep Finset.univ fun w : Fin cfg1.W => ((cfg1.win w).arr.view.loc (c : Thread nD τ) ↦{(dat V c).share w} G w : sProp 𝕄) := by
  unfold Dat.arrays
  exact bigSep_congr fun w _ => by rw [(arr_whole1 w).set_eq_univ]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl
theorem share_5 (c : Dev nD) : (dat V c).share 5 = fullShare := rfl

/-- The pass's arrays window by window: the shared array half by each of its two windows. -/
theorem arrays_chain (c : Dev nD) (G : (w : Fin cfg1.W) → Buf (Elt F) ((cfg1.win w).arr.view.loc (c : Thread nD τ))) :
    ((dat V c).arrays G : sProp 𝕄)
      = iprop((((c : Thread nD τ).loc main_v0_2) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_v4) ↦{fullShare} G 4) ∗ (((c : Thread nD τ).loc main_v5) ↦{fullShare} G 5)) := by
  rw [arrays_whole, bigSep_W1, share_0, share_1, share_2, share_3, share_4, share_5]

/-- The buffers behind the arrays, each held whole, are the pass's arrays at contents read off the same valuation:
    the shared array's full points-to splits into the two halves its two windows hold. -/
theorem arrays_of_arrBufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat V c).arrays G := by
  rw [arrBufs_chain, arrays_chain, hG 0, hG 1, hG 2, hG 3, hG 4, hG 5]
  iintro ⟨H0, H1, H3, H4, H5⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  iexact H5

/-- And back: the two halves of the shared array, at the same contents, join into its full points-to. -/
theorem arrBufs_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat V c).arrays G : sProp 𝕄) ⊢ Pipeline.arrBufs (Ix := Unit) (Name := ℕ) (U := UR sig nD τ) (Lvl := ℕ) spec1 c W := by
  rw [arrBufs_chain, arrays_chain, hG 0, hG 1, hG 2, hG 3, hG 4, hG 5]
  iintro ⟨H0, H1, H2, H3, H4, H5⟩
  ihave H1 := (pointsTo_share (PosShare.mem_left_op_right fullShare)).2 $$ [H1 H2]
  · isplitl [H1] <;> iassumption
  isplitl [H0]; · iexact H0
  isplitl [H1]; · iexact H1
  isplitl [H3]; · iexact H3
  isplitl [H4]; · iexact H4
  iexact H5

/-- The rest of the unscoped buffers reads a valuation only off the pass's arrays. -/
theorem rest_congr (c : Dev nD) (W W' : (b : Ref sig .tc) → Buf (Elt F) ((c : Thread nD τ).loc b))
    (h : ∀ b, b ∉ Finset.univ.image (Pipeline.arrRef spec1) → W' b = W b) :
    (Pipeline.unscopedRest (Ix := Unit) (Name := ℕ) (U := UR sig nD τ) (Lvl := ℕ) spec1 c W' : sProp 𝕄)
      = Pipeline.unscopedRest (Ix := Unit) (Name := ℕ) (U := UR sig nD τ) (Lvl := ℕ) spec1 c W := by
  unfold Pipeline.unscopedRest
  exact bigSep_congr fun b hb => by rw [h b (Finset.mem_sdiff.mp hb).2]

/-- ENTRY: the core's unscoped buffers at `V c` are the pass's arrays at their entry contents and the rest. -/
theorem entry_split (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec1 c (V c)) := by
  rw [bufs_split]
  exact sep_mono (arrays_of_arrBufs V c (V c) _ fun w => rfl) .rfl

/-- EXIT: the pass's arrays at their exit contents and the rest at `V c` are the core's unscoped buffers at any
    valuation that has the output array at its exit contents and agrees with `V c` elsewhere: an input array is never
    written, so it ends as it began. -/
theorem exit_join (c : Dev nD) (V' : (b : Ref sig .tc) → Buf (Elt F) ((c : Thread nD τ).loc b))
    (hout : V' main_v5 = (dat V c).arrAt 5 cfg1.N) (hrest : ∀ b, b ≠ main_v5 → V' b = V c b) :
    iprop((dat V c).arrays ((dat V c).arrAt · cfg1.N)
        ∗ Pipeline.unscopedRest (Ix := Unit) (Name := ℕ) (U := UR sig nD τ) (Lvl := ℕ) spec1 c (V c))
      ⊢ (unscopedBufs c V' : sProp 𝕄) := by
  have hmem : main_v5 ∈ Finset.univ.image (Pipeline.arrRef spec1) := Finset.mem_image.mpr ⟨5, Finset.mem_univ _, rfl⟩
  rw [bufs_split c V', rest_congr c (V c) V' fun b hb => hrest b fun h => hb (h ▸ hmem)]
  refine sep_mono (arrBufs_of_arrays V c V' _ fun w => ?_) .rfl
  match w with
  | ⟨0, _⟩ => exact ((dat V c).arrAt_in 0 rfl _).trans (hrest main_v0_2 (by decide)).symm
  | ⟨1, _⟩ => exact ((dat V c).arrAt_in 1 rfl _).trans (hrest main_v0_1 (by decide)).symm
  | ⟨2, _⟩ => exact ((dat V c).arrAt_in 2 rfl _).trans (hrest main_v0_1 (by decide)).symm
  | ⟨3, _⟩ => exact ((dat V c).arrAt_in 3 rfl _).trans (hrest main_v0_0 (by decide)).symm
  | ⟨4, _⟩ => exact ((dat V c).arrAt_in 4 rfl _).trans (hrest main_v4 (by decide)).symm
  | ⟨5, _⟩ => exact hout.symm

end Cert.Kernel.LayerOne

end
-- ==== Proof.KB.Shared2.lean ====
/-
  The second layer pass's arrays among the core's unscoped buffers, when two windows read ONE array.

  The pass has six windows over FIVE arrays: the window that reads all rows of the scaled features and the window that
  reads the block's own rows of them read the same array, each holding half of it (the left and the right half of the
  full share), while every other array is held whole by its one window. So the pass's arrays are not one full points-to
  per window, and they are taken out of the core's unscoped buffers, and put back, in three steps:

    * the unscoped buffers are the five buffers behind the arrays, each whole at the full share, and the rest;
    * the shared array's full points-to splits along its share into the two halves (and the two halves, at the same
      contents, join back into the full points-to);
    * the rest reads a valuation only off the arrays, so it does not see a change of the output array.

  At the exit every input array holds what it held at the entry (an input array is never written), so the only buffer
  whose contents changed is the output array.
-/
import proofs.«132648_g48387101557188_cont_8to1_c_480_4_alg».proof.Proof.KB.Layer2

set_option maxRecDepth 16384

noncomputable section

namespace Cert.Kernel.LayerTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers are the buffers behind the pass's arrays and the rest. -/
theorem bufs_split (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec2 c W
          ∗ Pipeline.unscopedRest (Ix := Unit) (Name := ℕ) (U := UR sig nD τ) (Lvl := ℕ) spec2 c W) :=
  Pipeline.unscopedBufs_split₀ cfgs 2 winFacts₀2.arr_unscoped c W

/-- The buffers behind the pass's arrays, one by one: five buffers for six windows. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v0_2) ↦{fullShare} W main_v0_2) ∗ (((c : Thread nD τ).loc main_v5) ↦{fullShare} W main_v5)
          ∗ (((c : Thread nD τ).loc main_v0_0) ↦{fullShare} W main_v0_0) ∗ (((c : Thread nD τ).loc main_v9) ↦{fullShare} W main_v9)
          ∗ (((c : Thread nD τ).loc main_v10) ↦{fullShare} W main_v10)) := by
  unfold Pipeline.arrBufs
  exact bigSep_eq_bigSepL_of_eq [main_v0_2, main_v5, main_v0_0, main_v9, main_v10] (by decide) (by decide) _

/-- The pass's arrays are whole buffers: each window's part of its array is all of it. -/
theorem arrays_whole (c : Dev nD) (G : (w : Fin cfg2.W) → Buf (Elt F) ((cfg2.win w).arr.view.loc (c : Thread nD τ))) :
    ((dat V c).arrays G : sProp 𝕄)
      = bigSep Finset.univ fun w : Fin cfg2.W => ((cfg2.win w).arr.view.loc (c : Thread nD τ) ↦{(dat V c).share w} G w : sProp 𝕄) := by
  unfold Dat.arrays
  exact bigSep_congr fun w _ => by rw [(arr_whole2 w).set_eq_univ]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl
theorem share_5 (c : Dev nD) : (dat V c).share 5 = fullShare := rfl

/-- The pass's arrays window by window: the shared array half by each of its two windows. -/
theorem arrays_chain (c : Dev nD) (G : (w : Fin cfg2.W) → Buf (Elt F) ((cfg2.win w).arr.view.loc (c : Thread nD τ))) :
    ((dat V c).arrays G : sProp 𝕄)
      = iprop((((c : Thread nD τ).loc main_v0_2) ↦{fullShare} G 0) ∗ (((c : Thread nD τ).loc main_v5) ↦{fullShare.left} G 1)
          ∗ (((c : Thread nD τ).loc main_v5) ↦{fullShare.right} G 2) ∗ (((c : Thread nD τ).loc main_v0_0) ↦{fullShare} G 3)
          ∗ (((c : Thread nD τ).loc main_v9) ↦{fullShare} G 4) ∗ (((c : Thread nD τ).loc main_v10) ↦{fullShare} G 5)) := by
  rw [arrays_whole, bigSep_W2, share_0, share_1, share_2, share_3, share_4, share_5]

/-- The buffers behind the arrays, each held whole, are the pass's arrays at contents read off the same valuation:
    the shared array's full points-to splits into the two halves its two windows hold. -/
theorem arrays_of_arrBufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat V c).arrays G := by
  rw [arrBufs_chain, arrays_chain, hG 0, hG 1, hG 2, hG 3, hG 4, hG 5]
  iintro ⟨H0, H1, H3, H4, H5⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  iexact H5

/-- And back: the two halves of the shared array, at the same contents, join into its full points-to. -/
theorem arrBufs_of_arrays (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat V c).arrays G : sProp 𝕄) ⊢ Pipeline.arrBufs (Ix := Unit) (Name := ℕ) (U := UR sig nD τ) (Lvl := ℕ) spec2 c W := by
  rw [arrBufs_chain, arrays_chain, hG 0, hG 1, hG 2, hG 3, hG 4, hG 5]
  iintro ⟨H0, H1, H2, H3, H4, H5⟩
  ihave H1 := (pointsTo_share (PosShare.mem_left_op_right fullShare)).2 $$ [H1 H2]
  · isplitl [H1] <;> iassumption
  isplitl [H0]; · iexact H0
  isplitl [H1]; · iexact H1
  isplitl [H3]; · iexact H3
  isplitl [H4]; · iexact H4
  iexact H5

/-- The rest of the unscoped buffers reads a valuation only off the pass's arrays. -/
theorem rest_congr (c : Dev nD) (W W' : (b : Ref sig .tc) → Buf (Elt F) ((c : Thread nD τ).loc b))
    (h : ∀ b, b ∉ Finset.univ.image (Pipeline.arrRef spec2) → W' b = W b) :
    (Pipeline.unscopedRest (Ix := Unit) (Name := ℕ) (U := UR sig nD τ) (Lvl := ℕ) spec2 c W' : sProp 𝕄)
      = Pipeline.unscopedRest (Ix := Unit) (Name := ℕ) (U := UR sig nD τ) (Lvl := ℕ) spec2 c W := by
  unfold Pipeline.unscopedRest
  exact bigSep_congr fun b hb => by rw [h b (Finset.mem_sdiff.mp hb).2]

/-- ENTRY: the core's unscoped buffers at `V c` are the pass's arrays at their entry contents and the rest. -/
theorem entry_split (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec2 c (V c)) := by
  rw [bufs_split]
  exact sep_mono (arrays_of_arrBufs V c (V c) _ fun w => rfl) .rfl

/-- EXIT: the pass's arrays at their exit contents and the rest at `V c` are the core's unscoped buffers at any
    valuation that has the output array at its exit contents and agrees with `V c` elsewhere: an input array is never
    written, so it ends as it began. -/
theorem exit_join (c : Dev nD) (V' : (b : Ref sig .tc) → Buf (Elt F) ((c : Thread nD τ).loc b))
    (hout : V' main_v10 = (dat V c).arrAt 5 cfg2.N) (hrest : ∀ b, b ≠ main_v10 → V' b = V c b) :
    iprop((dat V c).arrays ((dat V c).arrAt · cfg2.N)
        ∗ Pipeline.unscopedRest (Ix := Unit) (Name := ℕ) (U := UR sig nD τ) (Lvl := ℕ) spec2 c (V c))
      ⊢ (unscopedBufs c V' : sProp 𝕄) := by
  have hmem : main_v10 ∈ Finset.univ.image (Pipeline.arrRef spec2) := Finset.mem_image.mpr ⟨5, Finset.mem_univ _, rfl⟩
  rw [bufs_split c V', rest_congr c (V c) V' fun b hb => hrest b fun h => hb (h ▸ hmem)]
  refine sep_mono (arrBufs_of_arrays V c V' _ fun w => ?_) .rfl
  match w with
  | ⟨0, _⟩ => exact ((dat V c).arrAt_in 0 rfl _).trans (hrest main_v0_2 (by decide)).symm
  | ⟨1, _⟩ => exact ((dat V c).arrAt_in 1 rfl _).trans (hrest main_v5 (by decide)).symm
  | ⟨2, _⟩ => exact ((dat V c).arrAt_in 2 rfl _).trans (hrest main_v5 (by decide)).symm
  | ⟨3, _⟩ => exact ((dat V c).arrAt_in 3 rfl _).trans (hrest main_v0_0 (by decide)).symm
  | ⟨4, _⟩ => exact ((dat V c).arrAt_in 4 rfl _).trans (hrest main_v9 (by decide)).symm
  | ⟨5, _⟩ => exact hout.symm

end Cert.Kernel.LayerTwo

end
-- ==== Proof.KB.Run.lean ====
/-
  The whole run: the three passes and the two short host stretches between them (each builds a layer's
  128×128 weight matrix out of the per-head weights), from the launch to the return. The buffers' contents are
  followed from boundary to boundary: a pass leaves each of its output arrays at what its blocks' write-backs
  fold to and every other buffer as it found it; a host stretch leaves what its operations compute. At the end the
  three argument arrays hold their launch contents and the result array holds what the last pass wrote.
-/
import proofs.«132648_g48387101557188_cont_8to1_c_480_4_alg».proof.Proof.KB.DegPass
import proofs.«132648_g48387101557188_cont_8to1_c_480_4_alg».proof.Proof.KB.Layer1
import proofs.«132648_g48387101557188_cont_8to1_c_480_4_alg».proof.Proof.KB.Layer2
import proofs.«132648_g48387101557188_cont_8to1_c_480_4_alg».proof.Proof.KB.Shared1
import proofs.«132648_g48387101557188_cont_8to1_c_480_4_alg».proof.Proof.KB.Shared2
import proofs.«132648_g48387101557188_cont_8to1_c_480_4_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its three output arrays at what the write-backs leave. -/
def W1 (c : Dev nD) : Valuation τ sig (Elt F) :=
  Pipeline.withArrays spec0 c (W0 m ρ c) fun w => (DegPass.dat (V0 m ρ) c).arrAt w cfg0.N
theorem W1_arr (c : Dev nD) (w : Fin cfg0.W) :
    W1 m ρ c (Proc.devRef .tc (Pipeline.arrRef spec0 w)) = (DegPass.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (DegPass.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the first host stretch (the first layer's weights stacked). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the first layer pass: its output array at what the write-backs leave. -/
def W3 (c : Dev nD) : Valuation τ sig (Elt F) :=
  Function.update (W2 m ρ c) (Proc.devRef .tc main_v5) ((LayerOne.dat (V2 m ρ) c).arrAt 5 cfg1.N)
abbrev V3 : (c : Dev nD) → (b : Ref sig .tc) → Buf (Elt F) ((c : Thread nD τ).loc b) := fun c b => W3 m ρ c b
theorem W3_out (c : Dev nD) : V3 m ρ c main_v5 = (LayerOne.dat (V2 m ρ) c).arrAt 5 cfg1.N := by
  unfold V3 W3; exact Function.update_self ..
theorem W3_of_ne (c : Dev nD) (b : Ref sig .tc) (hb : b ≠ main_v5) : V3 m ρ c b = V2 m ρ c b := by
  unfold V3 W3; exact Function.update_of_ne (StableHlo.devRef_ne_of_ne hb) ..
/-- After the second host stretch (the second layer's weights stacked). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the second layer pass. -/
def W5 (c : Dev nD) : Valuation τ sig (Elt F) :=
  Function.update (W4 m ρ c) (Proc.devRef .tc main_v10) ((LayerTwo.dat (V4 m ρ) c).arrAt 5 cfg2.N)
abbrev V5 : (c : Dev nD) → (b : Ref sig .tc) → Buf (Elt F) ((c : Thread nD τ).loc b) := fun c b => W5 m ρ c b
theorem W5_out (c : Dev nD) : V5 m ρ c main_v10 = (LayerTwo.dat (V4 m ρ) c).arrAt 5 cfg2.N := by
  unfold V5 W5; exact Function.update_self ..
theorem W5_of_ne (c : Dev nD) (b : Ref sig .tc) (hb : b ≠ main_v10) : V5 m ρ c b = V4 m ρ c b := by
  unfold V5 W5; exact Function.update_of_ne (StableHlo.devRef_ne_of_ne hb) ..

/-- What a buffer no item writes holds at the end: its contents after the degree pass. -/
theorem W5_through (c : Dev nD) (b : Ref sig .tc) (h10 : b ≠ main_v10) (h2 : b ∉ hostOps2_W) (h5 : b ≠ main_v5) (h1 : b ∉ hostOps1_W) :
    V5 m ρ c b = V1 m ρ c b :=
  (W5_of_ne m ρ c b h10).trans <| (StableHlo.after_of_writes_sub hostOps2 _ hostOps2_writes h2).trans <|
    (W3_of_ne m ρ c b h5).trans <| StableHlo.after_of_writes_sub hostOps1 _ hostOps1_writes h1

theorem W5_main_arg0 (c : Dev nD) : V5 m ρ c main_arg0 = m ((c : Thread nD τ).loc main_arg0) :=
  (W5_through m ρ c main_arg0 (by decide) (by decide) (by decide) (by decide)).trans <|
    (W1_arr m ρ c 0).trans (((DegPass.dat (V0 m ρ) c).arrAt_in 0 rfl _).trans (DegPass.A_eq (V0 m ρ) c 0))
theorem W5_main_arg1 (c : Dev nD) : V5 m ρ c main_arg1 = m ((c : Thread nD τ).loc main_arg1) :=
  (W5_through m ρ c main_arg1 (by decide) (by decide) (by decide) (by decide)).trans <|
    (W1_arr m ρ c 1).trans (((DegPass.dat (V0 m ρ) c).arrAt_in 1 rfl _).trans (DegPass.A_eq (V0 m ρ) c 1))
theorem W5_main_arg2 (c : Dev nD) : V5 m ρ c main_arg2 = m ((c : Thread nD τ).loc main_arg2) :=
  (W5_through m ρ c main_arg2 (by decide) (by decide) (by decide) (by decide)).trans <|
    W1_of_ne m ρ c main_arg2 (by decide)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => DegPass.dat (V0 m ρ) c
  | ⟨1, _⟩ => fun c => LayerOne.dat (V2 m ρ) c
  | ⟨2, _⟩ => fun c => LayerTwo.dat (V4 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The passes as segments -/

set_option backward.isDefEq.respectTransparency.types false in
/-- The degree pass: entered from every unscoped buffer at its launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (DegPass.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first layer pass: entered from `W2`, left at `W3`. The scaled-feature array, read through two windows, is held
    half by each inside the pass and whole again outside. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (LayerOne.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := LayerOne.entry_split (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c)) ⊢ (unscopedBufs c (V3 m ρ c) : sProp 𝕄) :=
      LayerOne.exit_join (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer pass: entered from `W4`, left at `W5` (what the launch reads at the end). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (LayerTwo.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := LayerTwo.entry_split (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (V4 m ρ c)) ⊢ (unscopedBufs c (V5 m ρ c) : sProp 𝕄) :=
      LayerTwo.exit_join (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result array at what the second layer pass's write-backs fold to and the three argument arrays as launched. -/
theorem run : θ_run defs (onTc (τ := τ) (main (F := F))) ⟨m, fun _ => 0, ρ⟩ (fun r => ∀ c : Dev nD,
      r.2.mem ((c.tc : Thread nD τ).loc main_v10) = (LayerTwo.dat (V4 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v10 (by decide))).trans (W5_out m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Kernel.Run

end
-- ==== Proof.KI.DegPass.lean ====
/-
  The first pass (degrees): on a block of 200 rows of the adjacency array and the matching 200 rows of the
  features, the body writes three blocks — the column d = (row sum + 1)^(-1/2), the scaled features d ⊙ x, and
  the adjacency block re-encoded in the narrow format. Here: what each output block holds after the body as a
  function of the two input blocks, the body's triple, and the pipeline's proof data at arbitrary entry contents V.
-/
import proofs.«132648_g48387101557188_cont_8to1_c_480_4_alg».proof.Proof.Gen.KernelIdeal.Launch
import proofs.«132648_g48387101557188_cont_8to1_c_480_4_alg».proof.Proof.Gen.KernelIdeal.Skeleton
import proofs.«132648_g48387101557188_cont_8to1_c_480_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.DegPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S200x10000 := Rect.unit (s := S200x10000) ![0, 0] S200x10000.size inb_S200x10000_S200x10000_0_0
abbrev rD : Rect S200x1 := Rect.unit (s := S200x1) ![0, 0] S200x1.size inb_S200x1_S200x1_0_0
abbrev rY : Rect S200x128 := Rect.unit (s := S200x128) ![0, 0] S200x128.size inb_S200x128_S200x128_0_0

/-- The column block after the body: (row sums + 1)^(-1/2) of the adjacency block. -/
def outD (x0 : Vec F S200x10000 .f32) : Vec F S200x1 .f32 :=
  View.canon [⟨rD, k0_pay1 (View.ld x0 rA)⟩]
/-- The scaled-feature block after the body. -/
def outY (x0 : Vec F S200x10000 .f32) (x1 : Vec F S200x128 .f32) : Vec F S200x128 .f32 :=
  View.canon [⟨rY, k0_pay2 (View.ld x0 rA) (View.ld x1 rY)⟩]
/-- The re-encoded adjacency block after the body. -/
def outB (x0 : Vec F S200x10000 .f32) : Vec F S200x10000 .bf16 :=
  View.canon [⟨rA, k0_pay3 (View.ld x0 rA)⟩]

theorem coverD (p0 : Vec F S200x1 .f32) (y : S200x1.Idx) :
    ∃ pc ∈ ([⟨rD, p0⟩] : List (View.Piece (Elt F) S200x1 .f32)), y ∈ pc.1.set :=
  View.cover_of_tiled [⟨rD, p0⟩] S200x1.size (by rfl) y
theorem coverY (p0 : Vec F S200x128 .f32) (y : S200x128.Idx) :
    ∃ pc ∈ ([⟨rY, p0⟩] : List (View.Piece (Elt F) S200x128 .f32)), y ∈ pc.1.set :=
  View.cover_of_tiled [⟨rY, p0⟩] S200x128.size (by rfl) y
theorem coverB (p0 : Vec F S200x10000 .bf16) (y : S200x10000.Idx) :
    ∃ pc ∈ ([⟨rA, p0⟩] : List (View.Piece (Elt F) S200x10000 .bf16)), y ∈ pc.1.set :=
  View.cover_of_tiled [⟨rA, p0⟩] S200x10000.size (by rfl) y

set_option maxHeartbeats 1000000 in
/-- The body on whole staging memrefs: the two inputs held at known contents come back unchanged, the three outputs
    held at anything end at the three functions above. -/
theorem sound_kernel (c : Dev nD) (E : Set ℕ) (i : grid0.Coords)
    (arg1 : Memref sig .tc .vmem S200x10000 .f32) (harg1 : arg1.IsWhole) (arg2 : Memref sig .tc .vmem S200x128 .f32) (harg2 : arg2.IsWhole)
    (arg3 : Memref sig .tc .vmem S200x1 .f32) (harg3 : arg3.IsWhole) (arg4 : Memref sig .tc .vmem S200x128 .f32) (harg4 : arg4.IsWhole)
    (arg5 : Memref sig .tc .vmem S200x10000 .bf16) (harg5 : arg5.IsWhole)
    (x0 : Vec F S200x10000 .f32) (x1 : Vec F S200x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outD x0) ∗ owns (c : Thread nD τ) arg4 fullShare (outY x0 x1)
            ∗ owns (c : Thread nD τ) arg5 fullShare (outB x0)) -∗ K ⟨⟩))
      ⊢ wp frame (wpE (defs₀ (F := F)) Variants.none c none) E (cc0__deg_kernel i arg1 harg1 arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverD _)
  isplitl [H3]
  · iexists _; isplitr
    swap; · iexact H3
    ipureintro
    exact View.read_writes_eq_canon _ _ _ (coverY _)
  iexists _; isplitr
  swap; · iexact H4
  ipureintro
  exact View.read_writes_eq_canon _ _ _ (coverB _)

/-- The proof data of the pass on core `c`: the arrays as found; after the body each input's buffer at its block,
    each output's at its function of the input blocks; nothing carried, nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outD (iblk V c 0 t)
    | ⟨3, _⟩ => outY (iblk V c 0 t) (iblk V c 1 t)
    | ⟨4, _⟩ => outB (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outD (iblk V c 0 t) := by dsimp only [dat]
theorem after_3 (c : Dev nD) (t : Fin cfg0.N) : (dat V c).after 3 t = outY (iblk V c 0 t) (iblk V c 1 t) := by dsimp only [dat]
theorem after_4 (c : Dev nD) (t : Fin cfg0.N) : (dat V c).after 4 t = outB (iblk V c 0 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W0, bigSep_W0]
  exact sound_body V c t

end Cert.KernelIdeal.DegPass

end
-- ==== Proof.KI.Layer1.lean ====
/-
  The first layer pass: on a block of 400 rows the body reads the block's adjacency rows, ALL rows of the scaled features, the block's own scaled-feature rows, the block's column of factors d and the layer's weights, and writes d ⊙ max((d ⊙ (A·y + y_block))·W, 0). Here: the output block after the body as a function of the five input blocks, the body's triple, and the pipeline's proof data at arbitrary entry contents V.
-/
import proofs.«132648_g48387101557188_cont_8to1_c_480_4_alg».proof.Proof.Gen.KernelIdeal.Launch
import proofs.«132648_g48387101557188_cont_8to1_c_480_4_alg».proof.Proof.Gen.KernelIdeal.Skeleton
import proofs.«132648_g48387101557188_cont_8to1_c_480_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S400x10000 := Rect.unit (s := S400x10000) ![0, 0] S400x10000.size inb_S400x10000_S400x10000_0_0
abbrev rYall : Rect S10000x128 := Rect.unit (s := S10000x128) ![0, 0] S10000x128.size inb_S10000x128_S10000x128_0_0
abbrev rY : Rect S400x128 := Rect.unit (s := S400x128) ![0, 0] S400x128.size inb_S400x128_S400x128_0_0
abbrev rD : Rect S400x1 := Rect.unit (s := S400x1) ![0, 0] S400x1.size inb_S400x1_S400x1_0_0
abbrev rW : Rect S128x128 := Rect.unit (s := S128x128) ![0, 0] S128x128.size inb_S128x128_S128x128_0_0

/-- The output block after the body, from the five input blocks (adjacency rows, all scaled features, the block's
    own scaled features, the block's column of factors, the weights). -/
def outO (xA : Vec F S400x10000 .bf16) (xYall : Vec F S10000x128 .f32) (xY : Vec F S400x128 .f32) (xD : Vec F S400x1 .f32) (xW : Vec F S128x128 .f32) :
    Vec F S400x128 .f32 :=
  View.canon [⟨rY, k1_pay1 (View.ld xD rD) (View.ld xYall rYall) (View.ld xA rA) (View.ld xY rY) (View.ld xW rW)⟩]

theorem coverO (p0 : Vec F S400x128 .f32) (y : S400x128.Idx) :
    ∃ pc ∈ ([⟨rY, p0⟩] : List (View.Piece (Elt F) S400x128 .f32)), y ∈ pc.1.set :=
  View.cover_of_tiled [⟨rY, p0⟩] S400x128.size (by rfl) y

set_option maxHeartbeats 1000000 in
/-- The body on whole staging memrefs: the five inputs held at known contents (at any shares) come back unchanged, the
    output held at anything ends at `outO` of them. -/
theorem sound_kernel (c : Dev nD) (E : Set ℕ) (i : grid1.Coords)
    (arg1 : Memref sig .tc .vmem S400x10000 .bf16) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S400x128 .f32) (harg6 : arg6.IsWhole)
    (xA : Vec F S400x10000 .bf16) (xYall : Vec F S10000x128 .f32) (xY : Vec F S400x128 .f32) (xD : Vec F S400x1 .f32) (xW : Vec F S128x128 .f32)
    (K : PUnit → sProp 𝕄) :
    iprop(owns (c : Thread nD τ) arg1 fullShare xA ∗ owns (c : Thread nD τ) arg2 fullShare xYall
        ∗ owns (c : Thread nD τ) arg3 fullShare xY ∗ owns (c : Thread nD τ) arg4 fullShare xD ∗ owns (c : Thread nD τ) arg5 fullShare xW
        ∗ (∃ d, owns (c : Thread nD τ) arg6 fullShare d)
        ∗ (iprop(owns (c : Thread nD τ) arg1 fullShare xA ∗ owns (c : Thread nD τ) arg2 fullShare xYall
            ∗ owns (c : Thread nD τ) arg3 fullShare xY ∗ owns (c : Thread nD τ) arg4 fullShare xD ∗ owns (c : Thread nD τ) arg5 fullShare xW
            ∗ owns (c : Thread nD τ) arg6 fullShare (outO xA xYall xY xD xW)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-- The proof data of the pass on core `c`: the arrays as found; after the body each input's buffer at its block, the
    output's at `outO` of the input blocks; nothing carried, nothing owed; the scaled-feature array, which two windows read, is held half by each of them, every other array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO (iblk V c 0 t) (iblk V c 1 t) (iblk V c 2 t) (iblk V c 3 t) (iblk V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outO (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.KernelIdeal.LayerOne

end
-- ==== Proof.KI.Layer2.lean ====
/-
  The second layer pass: as the first, on the first layer's output, without the clip at zero and the final scaling: the body writes (d ⊙ (A·y + y_block))·W. Here: the output block after the body as a function of the five input blocks, the body's triple, and the pipeline's proof data at arbitrary entry contents V.
-/
import proofs.«132648_g48387101557188_cont_8to1_c_480_4_alg».proof.Proof.Gen.KernelIdeal.Launch
import proofs.«132648_g48387101557188_cont_8to1_c_480_4_alg».proof.Proof.Gen.KernelIdeal.Skeleton
import proofs.«132648_g48387101557188_cont_8to1_c_480_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the pass finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rA : Rect S400x10000 := Rect.unit (s := S400x10000) ![0, 0] S400x10000.size inb_S400x10000_S400x10000_0_0
abbrev rYall : Rect S10000x128 := Rect.unit (s := S10000x128) ![0, 0] S10000x128.size inb_S10000x128_S10000x128_0_0
abbrev rY : Rect S400x128 := Rect.unit (s := S400x128) ![0, 0] S400x128.size inb_S400x128_S400x128_0_0
abbrev rD : Rect S400x1 := Rect.unit (s := S400x1) ![0, 0] S400x1.size inb_S400x1_S400x1_0_0
abbrev rW : Rect S128x128 := Rect.unit (s := S128x128) ![0, 0] S128x128.size inb_S128x128_S128x128_0_0

/-- The output block after the body, from the five input blocks (adjacency rows, all scaled features, the block's
    own scaled features, the block's column of factors, the weights). -/
def outO (xA : Vec F S400x10000 .bf16) (xYall : Vec F S10000x128 .f32) (xY : Vec F S400x128 .f32) (xD : Vec F S400x1 .f32) (xW : Vec F S128x128 .f32) :
    Vec F S400x128 .f32 :=
  View.canon [⟨rY, k2_pay1 (View.ld xD rD) (View.ld xYall rYall) (View.ld xA rA) (View.ld xY rY) (View.ld xW rW)⟩]

theorem coverO (p0 : Vec F S400x128 .f32) (y : S400x128.Idx) :
    ∃ pc ∈ ([⟨rY, p0⟩] : List (View.Piece (Elt F) S400x128 .f32)), y ∈ pc.1.set :=
  View.cover_of_tiled [⟨rY, p0⟩] S400x128.size (by rfl) y

set_option maxHeartbeats 1000000 in
/-- The body on whole staging memrefs: the five inputs held at known contents (at any shares) come back unchanged, the
    output held at anything ends at `outO` of them. -/
theorem sound_kernel (c : Dev nD) (E : Set ℕ) (i : grid2.Coords)
    (arg1 : Memref sig .tc .vmem S400x10000 .bf16) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S400x128 .f32) (harg6 : arg6.IsWhole)
    (xA : Vec F S400x10000 .bf16) (xYall : Vec F S10000x128 .f32) (xY : Vec F S400x128 .f32) (xD : Vec F S400x1 .f32) (xW : Vec F S128x128 .f32)
    (K : PUnit → sProp 𝕄) :
    iprop(owns (c : Thread nD τ) arg1 fullShare xA ∗ owns (c : Thread nD τ) arg2 fullShare xYall
        ∗ owns (c : Thread nD τ) arg3 fullShare xY ∗ owns (c : Thread nD τ) arg4 fullShare xD ∗ owns (c : Thread nD τ) arg5 fullShare xW
        ∗ (∃ d, owns (c : Thread nD τ) arg6 fullShare d)
        ∗ (iprop(owns (c : Thread nD τ) arg1 fullShare xA ∗ owns (c : Thread nD τ) arg2 fullShare xYall
            ∗ owns (c : Thread nD τ) arg3 fullShare xY ∗ owns (c : Thread nD τ) arg4 fullShare xD ∗ owns (c : Thread nD τ) arg5 fullShare xW
            ∗ owns (c : Thread nD τ) arg6 fullShare (outO xA xYall xY xD xW)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-- The proof data of the pass on core `c`: the arrays as found; after the body each input's buffer at its block, the
    output's at `outO` of the input blocks; nothing carried, nothing owed; the scaled-feature array, which two windows read, is held half by each of them, every other array whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO (iblk V c 0 t) (iblk V c 1 t) (iblk V c 2 t) (iblk V c 3 t) (iblk V c 4 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = outO (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.KernelIdeal.LayerTwo

end
-- ==== Proof.KI.Shared1.lean ====
/-
  The first layer pass's arrays among the core's unscoped buffers, when two windows read ONE array.

  The pass has six windows over FIVE arrays: the window that reads all rows of the scaled features and the window that
  reads the block's own rows of them read the same array, each holding half of it (the left and the right half of the
  full share), while every other array is held whole by its one window. So the pass's arrays are not one full points-to
  per window, and they are taken out of the core's unscoped buffers, and put back, in three steps:

    * the unscoped buffers are the five buffers behind the arrays, each whole at the full share, and the rest;
    * the shared array's full points-to splits along its share into the two halves (and the two halves, at the same
      contents, join back into the full points-to);
    * the rest reads a valuation only off the arrays, so it does not see a change of the output array.

  At the exit every input array holds what it held at the entry (an input array is never written), so the only buffer
  whose contents changed is the output array.
-/
import proofs.«132648_g48387101557188_cont_8to1_c_480_4_alg».proof.Proof.KI.Layer1

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers are the buffers behind the pass's arrays and the rest. -/
theorem bufs_split (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- The buffers behind the pass's arrays, one by one: five buffers for six windows. -/
theorem arrBufs_chain (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_2) ↦{fullShare} W main_v0_2) ∗ (((c : Thread nD τ).loc main_v0_1) ↦{fullShare} W main_v0_1)
          ∗ (((c : Thread nD τ).loc main_v0_0) ↦{fullShare} W main_v0_0) ∗ (((c : Thread nD τ).loc main_v4) ↦{fullShare} W main_v4)
          ∗ (((c : Thread nD τ).loc main_v5) ↦{fullShare} W main_v5)) := by
  unfold Pipeline.arrBufs
  exact bigSep_eq_bigSepL_of_eq [main_v0_2, main_v0_1, main_v0_0, main_v4, main_v5] (by decide) (by decide) _

/-- The pass's arrays are whole buffers: each window's part of its array is all of it. -/
theorem arrays_whole (c : Dev nD) (G : (w : Fin cfg1.W) → Buf (Elt F) ((cfg1.win w).arr.view.loc (c : Thread nD τ))) :
    ((dat V c).arrays G : sProp 𝕄)
      = bigSep Finset.univ fun w : Fin cfg1.W => ((cfg1.win w).arr.view.loc (c : Thread nD τ) ↦{(dat V c).share w} G w : sProp 𝕄) := by
  unfold Dat.arrays
  exact bigSep_congr fun w _ => by rw [(arr_whole1 w).set_eq_univ]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl
theorem share_5 (c : Dev nD) : (dat V c).share 5 = fullShare := rfl

/-- The pass's arrays window by window: the shared array half by each of its two windows. -/
theorem arrays_chain (c : Dev nD) (G : (w : Fin cfg1.W) → Buf (Elt F) ((cfg1.win w).arr.view.loc (c : Thread nD τ))) :
    ((dat V c).arrays G : sProp 𝕄)
      = iprop((((c : Thread nD τ).loc main_v0_2) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_v4) ↦{fullShare} G 4) ∗ (((c : Thread nD τ).loc main_v5) ↦{fullShare} G 5)) := by
  rw [arrays_whole, bigSep_W1, share_0, share_1, share_2, share_3, share_4, share_5]

/-- The buffers behind the arrays, each held whole, are the pass's arrays at contents read off the same valuation:
    the shared array's full points-to splits into the two halves its two windows hold. -/
theorem arrays_of_arrBufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat V c).arrays G := by
  rw [arrBufs_chain, arrays_chain, hG 0, hG 1, hG 2, hG 3, hG 4, hG 5]
  iintro ⟨H0, H1, H3, H4, H5⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  iexact H5

/-- And back: the two halves of the shared array, at the same contents, join into its full points-to. -/
theorem arrBufs_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat V c).arrays G : sProp 𝕄) ⊢ Pipeline.arrBufs (Ix := Unit) (Name := ℕ) (U := UR sig nD τ) (Lvl := ℕ) spec1 c W := by
  rw [arrBufs_chain, arrays_chain, hG 0, hG 1, hG 2, hG 3, hG 4, hG 5]
  iintro ⟨H0, H1, H2, H3, H4, H5⟩
  ihave H1 := (pointsTo_share (PosShare.mem_left_op_right fullShare)).2 $$ [H1 H2]
  · isplitl [H1] <;> iassumption
  isplitl [H0]; · iexact H0
  isplitl [H1]; · iexact H1
  isplitl [H3]; · iexact H3
  isplitl [H4]; · iexact H4
  iexact H5

/-- The rest of the unscoped buffers reads a valuation only off the pass's arrays. -/
theorem rest_congr (c : Dev nD) (W W' : (b : Ref sig .tc) → Buf (Elt F) ((c : Thread nD τ).loc b))
    (h : ∀ b, b ∉ Finset.univ.image (Pipeline.arrRef spec1) → W' b = W b) :
    (Pipeline.unscopedRest (Ix := Unit) (Name := ℕ) (U := UR sig nD τ) (Lvl := ℕ) spec1 c W' : sProp 𝕄)
      = Pipeline.unscopedRest (Ix := Unit) (Name := ℕ) (U := UR sig nD τ) (Lvl := ℕ) spec1 c W := by
  unfold Pipeline.unscopedRest
  exact bigSep_congr fun b hb => by rw [h b (Finset.mem_sdiff.mp hb).2]

/-- ENTRY: the core's unscoped buffers at `V c` are the pass's arrays at their entry contents and the rest. -/
theorem entry_split (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec1 c (V c)) := by
  rw [bufs_split]
  exact sep_mono (arrays_of_arrBufs V c (V c) _ fun w => rfl) .rfl

/-- EXIT: the pass's arrays at their exit contents and the rest at `V c` are the core's unscoped buffers at any
    valuation that has the output array at its exit contents and agrees with `V c` elsewhere: an input array is never
    written, so it ends as it began. -/
theorem exit_join (c : Dev nD) (V' : (b : Ref sig .tc) → Buf (Elt F) ((c : Thread nD τ).loc b))
    (hout : V' main_v5 = (dat V c).arrAt 5 cfg1.N) (hrest : ∀ b, b ≠ main_v5 → V' b = V c b) :
    iprop((dat V c).arrays ((dat V c).arrAt · cfg1.N)
        ∗ Pipeline.unscopedRest (Ix := Unit) (Name := ℕ) (U := UR sig nD τ) (Lvl := ℕ) spec1 c (V c))
      ⊢ (unscopedBufs c V' : sProp 𝕄) := by
  have hmem : main_v5 ∈ Finset.univ.image (Pipeline.arrRef spec1) := Finset.mem_image.mpr ⟨5, Finset.mem_univ _, rfl⟩
  rw [bufs_split c V', rest_congr c (V c) V' fun b hb => hrest b fun h => hb (h ▸ hmem)]
  refine sep_mono (arrBufs_of_arrays V c V' _ fun w => ?_) .rfl
  match w with
  | ⟨0, _⟩ => exact ((dat V c).arrAt_in 0 rfl _).trans (hrest main_v0_2 (by decide)).symm
  | ⟨1, _⟩ => exact ((dat V c).arrAt_in 1 rfl _).trans (hrest main_v0_1 (by decide)).symm
  | ⟨2, _⟩ => exact ((dat V c).arrAt_in 2 rfl _).trans (hrest main_v0_1 (by decide)).symm
  | ⟨3, _⟩ => exact ((dat V c).arrAt_in 3 rfl _).trans (hrest main_v0_0 (by decide)).symm
  | ⟨4, _⟩ => exact ((dat V c).arrAt_in 4 rfl _).trans (hrest main_v4 (by decide)).symm
  | ⟨5, _⟩ => exact hout.symm

end Cert.KernelIdeal.LayerOne

end
-- ==== Proof.KI.Shared2.lean ====
/-
  The second layer pass's arrays among the core's unscoped buffers, when two windows read ONE array.

  The pass has six windows over FIVE arrays: the window that reads all rows of the scaled features and the window that
  reads the block's own rows of them read the same array, each holding half of it (the left and the right half of the
  full share), while every other array is held whole by its one window. So the pass's arrays are not one full points-to
  per window, and they are taken out of the core's unscoped buffers, and put back, in three steps:

    * the unscoped buffers are the five buffers behind the arrays, each whole at the full share, and the rest;
    * the shared array's full points-to splits along its share into the two halves (and the two halves, at the same
      contents, join back into the full points-to);
    * the rest reads a valuation only off the arrays, so it does not see a change of the output array.

  At the exit every input array holds what it held at the entry (an input array is never written), so the only buffer
  whose contents changed is the output array.
-/
import proofs.«132648_g48387101557188_cont_8to1_c_480_4_alg».proof.Proof.KI.Layer2

set_option maxRecDepth 16384

noncomputable section

namespace Cert.KernelIdeal.LayerTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers are the buffers behind the pass's arrays and the rest. -/
theorem bufs_split (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec2 c W
          ∗ Pipeline.unscopedRest (Ix := Unit) (Name := ℕ) (U := UR sig nD τ) (Lvl := ℕ) spec2 c W) :=
  Pipeline.unscopedBufs_split₀ cfgs 2 winFacts₀2.arr_unscoped c W

/-- The buffers behind the pass's arrays, one by one: five buffers for six windows. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v0_2) ↦{fullShare} W main_v0_2) ∗ (((c : Thread nD τ).loc main_v5) ↦{fullShare} W main_v5)
          ∗ (((c : Thread nD τ).loc main_v0_0) ↦{fullShare} W main_v0_0) ∗ (((c : Thread nD τ).loc main_v9) ↦{fullShare} W main_v9)
          ∗ (((c : Thread nD τ).loc main_v10) ↦{fullShare} W main_v10)) := by
  unfold Pipeline.arrBufs
  exact bigSep_eq_bigSepL_of_eq [main_v0_2, main_v5, main_v0_0, main_v9, main_v10] (by decide) (by decide) _

/-- The pass's arrays are whole buffers: each window's part of its array is all of it. -/
theorem arrays_whole (c : Dev nD) (G : (w : Fin cfg2.W) → Buf (Elt F) ((cfg2.win w).arr.view.loc (c : Thread nD τ))) :
    ((dat V c).arrays G : sProp 𝕄)
      = bigSep Finset.univ fun w : Fin cfg2.W => ((cfg2.win w).arr.view.loc (c : Thread nD τ) ↦{(dat V c).share w} G w : sProp 𝕄) := by
  unfold Dat.arrays
  exact bigSep_congr fun w _ => by rw [(arr_whole2 w).set_eq_univ]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl
theorem share_5 (c : Dev nD) : (dat V c).share 5 = fullShare := rfl

/-- The pass's arrays window by window: the shared array half by each of its two windows. -/
theorem arrays_chain (c : Dev nD) (G : (w : Fin cfg2.W) → Buf (Elt F) ((cfg2.win w).arr.view.loc (c : Thread nD τ))) :
    ((dat V c).arrays G : sProp 𝕄)
      = iprop((((c : Thread nD τ).loc main_v0_2) ↦{fullShare} G 0) ∗ (((c : Thread nD τ).loc main_v5) ↦{fullShare.left} G 1)
          ∗ (((c : Thread nD τ).loc main_v5) ↦{fullShare.right} G 2) ∗ (((c : Thread nD τ).loc main_v0_0) ↦{fullShare} G 3)
          ∗ (((c : Thread nD τ).loc main_v9) ↦{fullShare} G 4) ∗ (((c : Thread nD τ).loc main_v10) ↦{fullShare} G 5)) := by
  rw [arrays_whole, bigSep_W2, share_0, share_1, share_2, share_3, share_4, share_5]

/-- The buffers behind the arrays, each held whole, are the pass's arrays at contents read off the same valuation:
    the shared array's full points-to splits into the two halves its two windows hold. -/
theorem arrays_of_arrBufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat V c).arrays G := by
  rw [arrBufs_chain, arrays_chain, hG 0, hG 1, hG 2, hG 3, hG 4, hG 5]
  iintro ⟨H0, H1, H3, H4, H5⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  iexact H5

/-- And back: the two halves of the shared array, at the same contents, join into its full points-to. -/
theorem arrBufs_of_arrays (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat V c).arrays G : sProp 𝕄) ⊢ Pipeline.arrBufs (Ix := Unit) (Name := ℕ) (U := UR sig nD τ) (Lvl := ℕ) spec2 c W := by
  rw [arrBufs_chain, arrays_chain, hG 0, hG 1, hG 2, hG 3, hG 4, hG 5]
  iintro ⟨H0, H1, H2, H3, H4, H5⟩
  ihave H1 := (pointsTo_share (PosShare.mem_left_op_right fullShare)).2 $$ [H1 H2]
  · isplitl [H1] <;> iassumption
  isplitl [H0]; · iexact H0
  isplitl [H1]; · iexact H1
  isplitl [H3]; · iexact H3
  isplitl [H4]; · iexact H4
  iexact H5

/-- The rest of the unscoped buffers reads a valuation only off the pass's arrays. -/
theorem rest_congr (c : Dev nD) (W W' : (b : Ref sig .tc) → Buf (Elt F) ((c : Thread nD τ).loc b))
    (h : ∀ b, b ∉ Finset.univ.image (Pipeline.arrRef spec2) → W' b = W b) :
    (Pipeline.unscopedRest (Ix := Unit) (Name := ℕ) (U := UR sig nD τ) (Lvl := ℕ) spec2 c W' : sProp 𝕄)
      = Pipeline.unscopedRest (Ix := Unit) (Name := ℕ) (U := UR sig nD τ) (Lvl := ℕ) spec2 c W := by
  unfold Pipeline.unscopedRest
  exact bigSep_congr fun b hb => by rw [h b (Finset.mem_sdiff.mp hb).2]

/-- ENTRY: the core's unscoped buffers at `V c` are the pass's arrays at their entry contents and the rest. -/
theorem entry_split (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec2 c (V c)) := by
  rw [bufs_split]
  exact sep_mono (arrays_of_arrBufs V c (V c) _ fun w => rfl) .rfl

/-- EXIT: the pass's arrays at their exit contents and the rest at `V c` are the core's unscoped buffers at any
    valuation that has the output array at its exit contents and agrees with `V c` elsewhere: an input array is never
    written, so it ends as it began. -/
theorem exit_join (c : Dev nD) (V' : (b : Ref sig .tc) → Buf (Elt F) ((c : Thread nD τ).loc b))
    (hout : V' main_v10 = (dat V c).arrAt 5 cfg2.N) (hrest : ∀ b, b ≠ main_v10 → V' b = V c b) :
    iprop((dat V c).arrays ((dat V c).arrAt · cfg2.N)
        ∗ Pipeline.unscopedRest (Ix := Unit) (Name := ℕ) (U := UR sig nD τ) (Lvl := ℕ) spec2 c (V c))
      ⊢ (unscopedBufs c V' : sProp 𝕄) := by
  have hmem : main_v10 ∈ Finset.univ.image (Pipeline.arrRef spec2) := Finset.mem_image.mpr ⟨5, Finset.mem_univ _, rfl⟩
  rw [bufs_split c V', rest_congr c (V c) V' fun b hb => hrest b fun h => hb (h ▸ hmem)]
  refine sep_mono (arrBufs_of_arrays V c V' _ fun w => ?_) .rfl
  match w with
  | ⟨0, _⟩ => exact ((dat V c).arrAt_in 0 rfl _).trans (hrest main_v0_2 (by decide)).symm
  | ⟨1, _⟩ => exact ((dat V c).arrAt_in 1 rfl _).trans (hrest main_v5 (by decide)).symm
  | ⟨2, _⟩ => exact ((dat V c).arrAt_in 2 rfl _).trans (hrest main_v5 (by decide)).symm
  | ⟨3, _⟩ => exact ((dat V c).arrAt_in 3 rfl _).trans (hrest main_v0_0 (by decide)).symm
  | ⟨4, _⟩ => exact ((dat V c).arrAt_in 4 rfl _).trans (hrest main_v9 (by decide)).symm
  | ⟨5, _⟩ => exact hout.symm

end Cert.KernelIdeal.LayerTwo

end
-- ==== Proof.KI.Run.lean ====
/-
  The whole run: the three passes and the two short host stretches between them (each builds a layer's
  128×128 weight matrix out of the per-head weights), from the launch to the return. The buffers' contents are
  followed from boundary to boundary: a pass leaves each of its output arrays at what its blocks' write-backs
  fold to and every other buffer as it found it; a host stretch leaves what its operations compute. At the end the
  three argument arrays hold their launch contents and the result array holds what the last pass wrote.
-/
import proofs.«132648_g48387101557188_cont_8to1_c_480_4_alg».proof.Proof.KI.DegPass
import proofs.«132648_g48387101557188_cont_8to1_c_480_4_alg».proof.Proof.KI.Layer1
import proofs.«132648_g48387101557188_cont_8to1_c_480_4_alg».proof.Proof.KI.Layer2
import proofs.«132648_g48387101557188_cont_8to1_c_480_4_alg».proof.Proof.KI.Shared1
import proofs.«132648_g48387101557188_cont_8to1_c_480_4_alg».proof.Proof.KI.Shared2
import proofs.«132648_g48387101557188_cont_8to1_c_480_4_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its three output arrays at what the write-backs leave. -/
def W1 (c : Dev nD) : Valuation τ sig (Elt F) :=
  Pipeline.withArrays spec0 c (W0 m ρ c) fun w => (DegPass.dat (V0 m ρ) c).arrAt w cfg0.N
theorem W1_arr (c : Dev nD) (w : Fin cfg0.W) :
    W1 m ρ c (Proc.devRef .tc (Pipeline.arrRef spec0 w)) = (DegPass.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (DegPass.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the first host stretch (the first layer's weights stacked). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the first layer pass: its output array at what the write-backs leave. -/
def W3 (c : Dev nD) : Valuation τ sig (Elt F) :=
  Function.update (W2 m ρ c) (Proc.devRef .tc main_v5) ((LayerOne.dat (V2 m ρ) c).arrAt 5 cfg1.N)
abbrev V3 : (c : Dev nD) → (b : Ref sig .tc) → Buf (Elt F) ((c : Thread nD τ).loc b) := fun c b => W3 m ρ c b
theorem W3_out (c : Dev nD) : V3 m ρ c main_v5 = (LayerOne.dat (V2 m ρ) c).arrAt 5 cfg1.N := by
  unfold V3 W3; exact Function.update_self ..
theorem W3_of_ne (c : Dev nD) (b : Ref sig .tc) (hb : b ≠ main_v5) : V3 m ρ c b = V2 m ρ c b := by
  unfold V3 W3; exact Function.update_of_ne (StableHlo.devRef_ne_of_ne hb) ..
/-- After the second host stretch (the second layer's weights stacked). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the second layer pass. -/
def W5 (c : Dev nD) : Valuation τ sig (Elt F) :=
  Function.update (W4 m ρ c) (Proc.devRef .tc main_v10) ((LayerTwo.dat (V4 m ρ) c).arrAt 5 cfg2.N)
abbrev V5 : (c : Dev nD) → (b : Ref sig .tc) → Buf (Elt F) ((c : Thread nD τ).loc b) := fun c b => W5 m ρ c b
theorem W5_out (c : Dev nD) : V5 m ρ c main_v10 = (LayerTwo.dat (V4 m ρ) c).arrAt 5 cfg2.N := by
  unfold V5 W5; exact Function.update_self ..
theorem W5_of_ne (c : Dev nD) (b : Ref sig .tc) (hb : b ≠ main_v10) : V5 m ρ c b = V4 m ρ c b := by
  unfold V5 W5; exact Function.update_of_ne (StableHlo.devRef_ne_of_ne hb) ..

/-- What a buffer no item writes holds at the end: its contents after the degree pass. -/
theorem W5_through (c : Dev nD) (b : Ref sig .tc) (h10 : b ≠ main_v10) (h2 : b ∉ hostOps2_W) (h5 : b ≠ main_v5) (h1 : b ∉ hostOps1_W) :
    V5 m ρ c b = V1 m ρ c b :=
  (W5_of_ne m ρ c b h10).trans <| (StableHlo.after_of_writes_sub hostOps2 _ hostOps2_writes h2).trans <|
    (W3_of_ne m ρ c b h5).trans <| StableHlo.after_of_writes_sub hostOps1 _ hostOps1_writes h1

theorem W5_main_arg0 (c : Dev nD) : V5 m ρ c main_arg0 = m ((c : Thread nD τ).loc main_arg0) :=
  (W5_through m ρ c main_arg0 (by decide) (by decide) (by decide) (by decide)).trans <|
    (W1_arr m ρ c 0).trans (((DegPass.dat (V0 m ρ) c).arrAt_in 0 rfl _).trans (DegPass.A_eq (V0 m ρ) c 0))
theorem W5_main_arg1 (c : Dev nD) : V5 m ρ c main_arg1 = m ((c : Thread nD τ).loc main_arg1) :=
  (W5_through m ρ c main_arg1 (by decide) (by decide) (by decide) (by decide)).trans <|
    (W1_arr m ρ c 1).trans (((DegPass.dat (V0 m ρ) c).arrAt_in 1 rfl _).trans (DegPass.A_eq (V0 m ρ) c 1))
theorem W5_main_arg2 (c : Dev nD) : V5 m ρ c main_arg2 = m ((c : Thread nD τ).loc main_arg2) :=
  (W5_through m ρ c main_arg2 (by decide) (by decide) (by decide) (by decide)).trans <|
    W1_of_ne m ρ c main_arg2 (by decide)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => DegPass.dat (V0 m ρ) c
  | ⟨1, _⟩ => fun c => LayerOne.dat (V2 m ρ) c
  | ⟨2, _⟩ => fun c => LayerTwo.dat (V4 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The passes as segments -/

set_option backward.isDefEq.respectTransparency.types false in
/-- The degree pass: entered from every unscoped buffer at its launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (DegPass.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first layer pass: entered from `W2`, left at `W3`. The scaled-feature array, read through two windows, is held
    half by each inside the pass and whole again outside. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (LayerOne.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := LayerOne.entry_split (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c)) ⊢ (unscopedBufs c (V3 m ρ c) : sProp 𝕄) :=
      LayerOne.exit_join (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer pass: entered from `W4`, left at `W5` (what the launch reads at the end). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (LayerTwo.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := LayerTwo.entry_split (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (V4 m ρ c)) ⊢ (unscopedBufs c (V5 m ρ c) : sProp 𝕄) :=
      LayerTwo.exit_join (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result array at what the second layer pass's write-backs fold to and the three argument arrays as launched. -/
theorem run : θ_run defs (onTc (τ := τ) (main (F := F))) ⟨m, fun _ => 0, ρ⟩ (fun r => ∀ c : Dev nD,
      r.2.mem ((c.tc : Thread nD τ).loc main_v10) = (LayerTwo.dat (V4 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v10 (by decide))).trans (W5_out m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end
-- ==== Proof.KI.BodyValue0.lean ====
/-
  The first pass's three output blocks, read at an index over the extended reals.

  On a block of 200 rows the body takes each row's sum over its 10000 lanes, adds one and takes the reciprocal
  square root: the column `d p = (Σ_j A p j + 1)^(-1/2)`. The scaled features are that column spread over the 128
  feature lanes times the features, `d p · x p k`. The re-encoded adjacency block is the block itself: a change of
  float format is the identity on the extended reals. Each output block is one whole-block store, so it is the
  stored payload.
-/
import proofs.«132648_g48387101557188_cont_8to1_c_480_4_alg».proof.Proof.KI.DegPass
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.BodyValue

open Cert.KernelIdeal
open Idealize.ShloMosaic Idealize.ShloMosaic.ValueIdx

/-- The zero offsets of a whole-block rectangle, as the constant function. -/
theorem hz2 : (![0, 0] : Fin 2 → Nat) = fun _ => 0 := funext fun a => by fin_cases a <;> rfl

/-- Inserting the lane coordinate `j` into the rank-1 index `p` on axis 1 gives `(p, j)`. -/
theorem lift200 (hR : S200x10000.Reduces [1] S200) (p : Fin 200) (j : Fin 10000) :
    hR.lift (ix1 p) j = ix2 p j := by
  funext d
  match d with
  | ⟨0, _⟩ => exact Fin.ext rfl
  | ⟨1, _⟩ => exact Fin.ext rfl

/-- The lane sum of a `[200, 10000]` block at row `p` is the sum over the row. -/
theorem rowsum_apply (v0 : FVec Ideal S200x10000 .f32) (hR : S200x10000.Reduces [1] S200) (hφ : FKind.Formats FTy.f32)
    (hacc : (0x00000000#32 : BitVec FTy.f32.bits) = FKind.add.neutral .f32 hφ) (p : Fin 200) :
    multiReduction (F := Ideal) .add [1] S200 v0 0x00000000#32 hR hφ hacc (ix1 p) = ∑ j : Fin 10000, v0 (ix2 p j) :=
  (Ideal.multiReduction_add_single v0 _ hR hφ hacc (ix1 p)).trans
    (Finset.sum_congr rfl fun j _ => congrArg v0 (lift200 hR p j))

/-- A `[200]` array cast to `[200, 1]` reads, at `(p, z)`, the operand at `p`. -/
theorem castCol_apply {α : Type} (v : S200.Idx → α) (h : S200.ShapeCasts S200x1) (p : Fin 200) (z : Fin 1) :
    shapeCast S200x1 v h (ix2 p z) = v (ix1 p) :=
  shapeCast_apply v h _ _ (by
    have hz : z.val = 0 := by omega
    rw [Shape.rowMajor_val_two, Shape.rowMajor_val_one]
    show p.val = p.val * 1 + z.val
    omega)

/-- A `[a, 1]` column broadcast to `[a, b]` reads, at `(p, k)`, the column at `p`. -/
theorem broadcastCol_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The payload of the column store at `(p, z)`: `(row sum + 1)^(-1/2)`. -/
theorem pay1_apply (v0 : FVec Ideal S200x10000 .f32) (p : Fin 200) (z : Fin 1) :
    Gen.k0_pay1 (F := Ideal) v0 (ix2 p z) = Ideal.rsqrt ((∑ j : Fin 10000, v0 (ix2 p j)) + 1) := by
  show Ideal.rsqrt (shapeCast S200x1 (multiReduction (F := Ideal) .add [1] S200 v0 0x00000000#32
      Gen.reduces_S200x10000_S200 (.inl rfl) rfl) Gen.shapeCasts_S200_S200x1 (ix2 p z)
      + Ideal.ofBits .f32 0x3F800000#32) = _
  rw [castCol_apply, Ideal.ofBits_one_f32]
  exact congrArg (fun t => Ideal.rsqrt (t + 1)) (rowsum_apply v0 Gen.reduces_S200x10000_S200 (.inl rfl) rfl p)

/-- The column block at `(p, z)`: `(Σ_j x0 p j + 1)^(-1/2)`. -/
theorem outD_apply (x0 : Vec Ideal S200x10000 .f32) (p : Fin 200) (z : Fin 1) :
    DegPass.outD x0 (ix2 p z) = Ideal.rsqrt ((∑ j : Fin 10000, x0 (ix2 p j)) + 1) := by
  unfold DegPass.outD
  rw [View.canon_unit_zero hz2, View.ld_unit_zero (S := S200x10000) hz2]
  exact pay1_apply x0 p z

/-- The scaled-feature block at `(p, k)`: the column entry of row `p` times the feature. -/
theorem outY_apply (x0 : Vec Ideal S200x10000 .f32) (x1 : Vec Ideal S200x128 .f32) (p : Fin 200) (k : Fin 128) :
    DegPass.outY x0 x1 (ix2 p k) = Ideal.rsqrt ((∑ j : Fin 10000, x0 (ix2 p j)) + 1) * x1 (ix2 p k) := by
  unfold DegPass.outY
  rw [View.canon_unit_zero hz2, View.ld_unit_zero (S := S200x10000) hz2, View.ld_unit_zero (S := S200x128) hz2]
  show broadcastTo S200x128 (Gen.k0_pay1 (F := Ideal) x0) Gen.broadcasts_S200x1_S200x128 (ix2 p k) * x1 (ix2 p k) = _
  rw [broadcastCol_apply, pay1_apply]

/-- The re-encoded adjacency block at `(p, j)` is the adjacency block there. -/
theorem outB_apply (x0 : Vec Ideal S200x10000 .f32) (p : Fin 200) (j : Fin 10000) :
    DegPass.outB x0 (ix2 p j) = x0 (ix2 p j) := by
  unfold DegPass.outB
  rw [View.canon_unit_zero hz2, View.ld_unit_zero (S := S200x10000) hz2]
  rfl

end Cert.KernelIdeal.BodyValue

end
-- ==== Proof.KI.DegValue.lean ====
/-
  What the degree pass leaves in its three output arrays, as whole-array functions of the two arrays it reads: the
  column d i = (Σ_j A i j + 1)^(-1/2), the scaled features d i · X i k, and the adjacency array itself (the narrow format
  is the same number at the ideal instance). Each grid point t writes rows 200·t … 200·t+199; the fifty blocks tile
  the arrays, so the arrays end at these functions everywhere.
-/
import proofs.«132648_g48387101557188_cont_8to1_c_480_4_alg».proof.Proof.KI.DegPass
import proofs.«132648_g48387101557188_cont_8to1_c_480_4_alg».proof.Proof.KI.BodyValue0
import Idealize.ShloMosaic.Lib.Pipeline.Value
import Idealize.ShloMosaic.Lib.ValueIdx

set_option maxRecDepth 16384

noncomputable section

namespace Cert.KernelIdeal.DegValue

open Cert.KernelIdeal Cert.KernelIdeal.Gen Cert.KernelIdeal.DegPass
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- d as a column array. -/
def GD (a : S10000x10000.Idx → EReal) : S10000x1.Idx → EReal :=
  fun i => Ideal.rsqrt ((∑ j : Fin 10000, a (ix2 (i 0) j)) + 1)
/-- The scaled features. -/
def GY (a : S10000x10000.Idx → EReal) (x : S10000x128.Idx → EReal) : S10000x128.Idx → EReal :=
  fun i => Ideal.rsqrt ((∑ j : Fin 10000, a (ix2 (i 0) j)) + 1) * x (ix2 (i 0) (i 1))

/-- Every window of the pass sits, at grid point t, on block row t and block column 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back into the column array is block t of `GD`. -/
theorem flushedD_eq (c : Dev nD) (t : Fin cfg0.N) :
    (dat V c).flushed 2 t = ((cfg0.win 2).blk t).view.read (Elt Ideal) (GD (V c main_arg0)) := by
  show (cfg0.win 2).cut (grid0.coords t) ((dat V c).after 2 t) = _
  rw [after_2]
  obtain ⟨a0, a1, b0, b1, d0, d1, y0, y1, z0, z1⟩ := idx0 t
  funext j
  show outD (iblk V c 0 t) j = GD (V c main_arg0) (((cfg0.win 2).blk t).view.emb j)
  refine ((congrArg (outD (iblk V c 0 t)) (eq_ix2 j)).trans (BodyValue.outD_apply (iblk V c 0 t) (j 0) (j 1))).trans ?_
  unfold GD
  refine congrArg (fun s => Ideal.rsqrt (s + 1)) (Finset.sum_congr rfl fun k _ => ?_)
  show V c main_arg0 (((cfg0.win 0).blk t).view.emb (ix2 (j 0) k)) = V c main_arg0 (ix2 ((((cfg0.win 2).blk t).view.emb j) 0) k)
  refine congrArg (V c main_arg0) (funext fun a => Fin.ext ?_)
  match a with
  | ⟨0, _⟩ => show win0_0.index t (0 : Fin 2) * 200 + 1 * (j 0).val = win0_2.index t (0 : Fin 2) * 200 + 1 * (j 0).val; omega
  | ⟨1, _⟩ => show win0_0.index t (1 : Fin 2) * 10000 + 1 * k.val = k.val; omega

/-- What point t writes back into the scaled-feature array is block t of `GY`. -/
theorem flushedY_eq (c : Dev nD) (t : Fin cfg0.N) :
    (dat V c).flushed 3 t = ((cfg0.win 3).blk t).view.read (Elt Ideal) (GY (V c main_arg0) (V c main_arg1)) := by
  show (cfg0.win 3).cut (grid0.coords t) ((dat V c).after 3 t) = _
  rw [after_3]
  obtain ⟨a0, a1, b0, b1, d0, d1, y0, y1, z0, z1⟩ := idx0 t
  funext j
  have hj0 : (j 0).val < 200 := (j 0).isLt
  have hj1 : (j 1).val < 128 := (j 1).isLt
  show outY (iblk V c 0 t) (iblk V c 1 t) j = GY (V c main_arg0) (V c main_arg1) (((cfg0.win 3).blk t).view.emb j)
  refine ((congrArg (outY (iblk V c 0 t) (iblk V c 1 t)) (eq_ix2 j)).trans (BodyValue.outY_apply (iblk V c 0 t) (iblk V c 1 t) (j 0) (j 1))).trans ?_
  unfold GY
  refine congrArg₂ (· * ·) (congrArg (fun s => Ideal.rsqrt (s + 1)) (Finset.sum_congr rfl fun k _ => ?_)) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 200 + 1 * (j 0).val = win0_3.index t (0 : Fin 2) * 200 + 1 * (j 0).val; omega
    | ⟨1, _⟩ => show win0_0.index t (1 : Fin 2) * 10000 + 1 * k.val = k.val; omega
  · show V c main_arg1 (((cfg0.win 1).blk t).view.emb (ix2 (j 0) (j 1))) = V c main_arg1 (ix2 ((((cfg0.win 3).blk t).view.emb j) 0) ((((cfg0.win 3).blk t).view.emb j) 1))
    refine congrArg (V c main_arg1) (funext fun a => Fin.ext ?_)
    match a with
    | ⟨0, _⟩ => show win0_1.index t (0 : Fin 2) * 200 + 1 * (j 0).val = win0_3.index t (0 : Fin 2) * 200 + 1 * (j 0).val; omega
    | ⟨1, _⟩ => show win0_1.index t (1 : Fin 2) * 128 + 1 * (j 1).val = win0_3.index t (1 : Fin 2) * 128 + 1 * (j 1).val; omega

/-- What point t writes back into the re-encoded adjacency array is block t of the adjacency array. -/
theorem flushedB_eq (c : Dev nD) (t : Fin cfg0.N) :
    (dat V c).flushed 4 t = ((cfg0.win 4).blk t).view.read (Elt Ideal) (V c main_arg0 : S10000x10000.Idx → EReal) := by
  show (cfg0.win 4).cut (grid0.coords t) ((dat V c).after 4 t) = _
  rw [after_4]
  obtain ⟨a0, a1, b0, b1, d0, d1, y0, y1, z0, z1⟩ := idx0 t
  funext j
  show outB (iblk V c 0 t) j = V c main_arg0 (((cfg0.win 4).blk t).view.emb j)
  refine ((congrArg (outB (iblk V c 0 t)) (eq_ix2 j)).trans (BodyValue.outB_apply (iblk V c 0 t) (j 0) (j 1))).trans ?_
  show V c main_arg0 (((cfg0.win 0).blk t).view.emb (ix2 (j 0) (j 1))) = V c main_arg0 (((cfg0.win 4).blk t).view.emb j)
  refine congrArg (V c main_arg0) (funext fun a => Fin.ext ?_)
  match a with
  | ⟨0, _⟩ => show win0_0.index t (0 : Fin 2) * 200 + 1 * (j 0).val = win0_4.index t (0 : Fin 2) * 200 + 1 * (j 0).val; omega
  | ⟨1, _⟩ => show win0_0.index t (1 : Fin 2) * 10000 + 1 * (j 1).val = win0_4.index t (1 : Fin 2) * 10000 + 1 * (j 1).val; omega

theorem mem_blkD (t : Fin cfg0.N) (i : S10000x1.Idx) :
    i ∈ ((cfg0.win 2).blk t).view.set ↔ ∀ a : Fin 2, win0_2.index t a * S200x1.size a ≤ (i a).val ∧ (i a).val < win0_2.index t a * S200x1.size a + S200x1.size a := by
  show i ∈ ((View.whole main_v0_0).slice (win0_2.rect t)).set ↔ _
  rw [View.set_slice_whole, Rect.mem_set_unit]
  exact Iff.rfl
theorem mem_blkY (t : Fin cfg0.N) (i : S10000x128.Idx) :
    i ∈ ((cfg0.win 3).blk t).view.set ↔ ∀ a : Fin 2, win0_3.index t a * S200x128.size a ≤ (i a).val ∧ (i a).val < win0_3.index t a * S200x128.size a + S200x128.size a := by
  show i ∈ ((View.whole main_v0_1).slice (win0_3.rect t)).set ↔ _
  rw [View.set_slice_whole, Rect.mem_set_unit]
  exact Iff.rfl
theorem mem_blkB (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v0_2).slice (win0_4.rect t)).set ↔ _
  rw [View.set_slice_whole, Rect.mem_set_unit]
  exact Iff.rfl

/-- The point whose block holds row r: r / 200. -/
def pt (r : Nat) (h : r < 10000) : Fin cfg0.N := ⟨r / 200, by show r / 200 < grid0.N; rw [N_0]; omega⟩

theorem coverD (i : S10000x1.Idx) : ∃ t : Fin cfg0.N, (cfg0.win 2).flush t = true ∧ i ∈ ((cfg0.win 2).blk t).view.set := by
  have h0 : (i 0).val < 10000 := (i 0).isLt
  have h1 : (i 1).val < 1 := (i 1).isLt
  refine ⟨pt (i 0).val h0, flush0_2 _, ?_⟩
  rw [mem_blkD]
  obtain ⟨-, -, -, -, d0, d1, -⟩ := idx0 (pt (i 0).val h0)
  have d0' : win0_2.index (pt (i 0).val h0) (0 : Fin 2) = (i 0).val / 200 := d0
  intro a
  match a with
  | ⟨0, _⟩ => show win0_2.index (pt (i 0).val h0) (0 : Fin 2) * 200 ≤ (i 0).val ∧ (i 0).val < win0_2.index (pt (i 0).val h0) (0 : Fin 2) * 200 + 200; omega
  | ⟨1, _⟩ => show win0_2.index (pt (i 0).val h0) (1 : Fin 2) * 1 ≤ (i 1).val ∧ (i 1).val < win0_2.index (pt (i 0).val h0) (1 : Fin 2) * 1 + 1; omega
theorem coverY (i : S10000x128.Idx) : ∃ t : Fin cfg0.N, (cfg0.win 3).flush t = true ∧ i ∈ ((cfg0.win 3).blk t).view.set := by
  have h0 : (i 0).val < 10000 := (i 0).isLt
  have h1 : (i 1).val < 128 := (i 1).isLt
  refine ⟨pt (i 0).val h0, flush0_3 _, ?_⟩
  rw [mem_blkY]
  obtain ⟨-, -, -, -, -, -, y0, y1, -⟩ := idx0 (pt (i 0).val h0)
  have y0' : win0_3.index (pt (i 0).val h0) (0 : Fin 2) = (i 0).val / 200 := y0
  intro a
  match a with
  | ⟨0, _⟩ => show win0_3.index (pt (i 0).val h0) (0 : Fin 2) * 200 ≤ (i 0).val ∧ (i 0).val < win0_3.index (pt (i 0).val h0) (0 : Fin 2) * 200 + 200; omega
  | ⟨1, _⟩ => show win0_3.index (pt (i 0).val h0) (1 : Fin 2) * 128 ≤ (i 1).val ∧ (i 1).val < win0_3.index (pt (i 0).val h0) (1 : Fin 2) * 128 + 128; omega
theorem coverB (i : S10000x10000.Idx) : ∃ t : Fin cfg0.N, (cfg0.win 4).flush t = true ∧ i ∈ ((cfg0.win 4).blk t).view.set := by
  have h0 : (i 0).val < 10000 := (i 0).isLt
  have h1 : (i 1).val < 10000 := (i 1).isLt
  refine ⟨pt (i 0).val h0, flush0_4 _, ?_⟩
  rw [mem_blkB]
  obtain ⟨-, -, -, -, -, -, -, -, z0, z1⟩ := idx0 (pt (i 0).val h0)
  have z0' : win0_4.index (pt (i 0).val h0) (0 : Fin 2) = (i 0).val / 200 := z0
  intro a
  match a with
  | ⟨0, _⟩ => show win0_4.index (pt (i 0).val h0) (0 : Fin 2) * 200 ≤ (i 0).val ∧ (i 0).val < win0_4.index (pt (i 0).val h0) (0 : Fin 2) * 200 + 200; omega
  | ⟨1, _⟩ => show win0_4.index (pt (i 0).val h0) (1 : Fin 2) * 10000 ≤ (i 1).val ∧ (i 1).val < win0_4.index (pt (i 0).val h0) (1 : Fin 2) * 10000 + 10000; omega

/-- The three output arrays after the pass. -/
theorem finalD (c : Dev nD) : (dat V c).arrAt 2 cfg0.N = GD (V c main_arg0) :=
  (dat V c).arrAt_eq_of_cover 2 (GD (V c main_arg0)) (fun t _ => flushedD_eq V c t) coverD
theorem finalY (c : Dev nD) : (dat V c).arrAt 3 cfg0.N = GY (V c main_arg0) (V c main_arg1) :=
  (dat V c).arrAt_eq_of_cover 3 (GY (V c main_arg0) (V c main_arg1)) (fun t _ => flushedY_eq V c t) coverY
theorem finalB (c : Dev nD) : (dat V c).arrAt 4 cfg0.N = (V c main_arg0 : S10000x10000.Idx → EReal) :=
  (dat V c).arrAt_eq_of_cover 4 (V c main_arg0 : S10000x10000.Idx → EReal) (fun t _ => flushedB_eq V c t) coverB

end Cert.KernelIdeal.DegValue

end
-- ==== Proof.KI.BodyValue12.lean ====
/-
  The two layer bodies' output blocks, read at an index over the extended reals.

  On a block of 400 rows each layer body multiplies the block's adjacency rows `A p ·` against all the pre-scaled
  features `y`, adds the block's own pre-scaled features, scales row `p` by the column entry `d p`, and applies the
  weights: `Σ_k (d p · (Σ_j A p j · y j k + y p k)) · W k c`. The first layer then clips at zero and scales by `d p`
  again, which is the pre-scaling the second layer's input needs. The changes of float format on the way are the
  identity on the extended reals, each product is into the zero block (so it is the bare sum over the one contracted
  axis), and the output block is one whole-block store, so it is the stored payload.
-/
import proofs.«132648_g48387101557188_cont_8to1_c_480_4_alg».proof.Proof.KI.Layer1
import proofs.«132648_g48387101557188_cont_8to1_c_480_4_alg».proof.Proof.KI.Layer2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue.Layers

open Cert.KernelIdeal
open Idealize.ShloMosaic Idealize.ShloMosaic.ValueIdx

/-- The zero offsets of a whole-block rectangle, as the constant function. -/
theorem hz : (![0, 0] : Fin 2 → Nat) = fun _ => 0 := funext fun a => by fin_cases a <;> rfl

/-- A `[a, 1]` column broadcast to `[a, b]` reads, at `(p, k)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The two contractions' dimension records. -/
abbrev DA : DotDims S400x10000 S10000x128 S400x128 := dot_S400x10000_S10000x128_S400x128_1_0_0_1_n_n
abbrev DW : DotDims S400x128 S128x128 S400x128 := dot_S400x128_S128x128_S400x128_1_0_0_1_n_n

/-- The operand indices of the aggregation product at output index `i` and contraction index `q`: coordinate by coordinate. -/
theorem lhsA_0 (i : S400x128.Idx) (q : DA.contr.Idx) : (DA.lhsIdx i q 0).val = (i 0).val := by
  unfold DotDims.lhsIdx
  rw [dif_neg (show ¬(0 : Fin S400x10000.rank) ∈ DA.lhsBatch by decide), dif_pos (show (0 : Fin S400x10000.rank) ∈ DA.lhsNonContracting by decide)]
  rfl
theorem lhsA_1 (i : S400x128.Idx) (q : DA.contr.Idx) : (DA.lhsIdx i q 1).val = (q ⟨0, by decide⟩).val :=
  DA.lhsIdx_val_of_single rfl i q
theorem rhsA_0 (i : S400x128.Idx) (q : DA.contr.Idx) : (DA.rhsIdx i q 0).val = (q ⟨0, by decide⟩).val :=
  DA.rhsIdx_val_of_single rfl i q
theorem rhsA_1 (i : S400x128.Idx) (q : DA.contr.Idx) : (DA.rhsIdx i q 1).val = (i 1).val := by
  unfold DotDims.rhsIdx
  rw [dif_neg (show ¬(1 : Fin S10000x128.rank) ∈ DA.rhsBatch by decide), dif_pos (show (1 : Fin S10000x128.rank) ∈ DA.rhsNonContracting by decide)]
  rfl

/-- The aggregation product into the zero block, at `(p, k)`: `Σ_j L p j · R j k`. -/
theorem matmulA_apply (L : FVec Ideal S400x10000 .bf16) (R : FVec Ideal S10000x128 .bf16) (p : Fin 400) (k : Fin 128) :
    matmul (F := Ideal) DA none L R (constant (F := Ideal) S400x128 .f32 0x00000000#32) (ix2 p k)
      = ∑ j : Fin 10000, L (ix2 p j) * R (ix2 j k) := by
  show FloatOps.matmul DA none L R (constant (F := Ideal) S400x128 .f32 0x00000000#32) (ix2 p k) = _
  rw [Ideal.matmul_constant_zero_apply, ← Equiv.sum_comp (contrEquiv1 DA 10000 rfl rfl).symm]
  refine Finset.sum_congr rfl fun j _ => ?_
  have hk := contrEquiv1_symm_val DA 10000 rfl rfl j
  have el : DA.lhsIdx (ix2 p k) ((contrEquiv1 DA 10000 rfl rfl).symm j) = ix2 p j := funext fun a => Fin.ext (by
    match a with
    | ⟨0, _⟩ => exact lhsA_0 _ _
    | ⟨1, _⟩ => exact (lhsA_1 _ _).trans hk)
  have er : DA.rhsIdx (ix2 p k) ((contrEquiv1 DA 10000 rfl rfl).symm j) = ix2 j k := funext fun a => Fin.ext (by
    match a with
    | ⟨0, _⟩ => exact (rhsA_0 _ _).trans hk
    | ⟨1, _⟩ => exact rhsA_1 _ _)
  rw [el, er]

/-- The operand indices of the weight product, coordinate by coordinate. -/
theorem lhsW_0 (i : S400x128.Idx) (q : DW.contr.Idx) : (DW.lhsIdx i q 0).val = (i 0).val := by
  unfold DotDims.lhsIdx
  rw [dif_neg (show ¬(0 : Fin S400x128.rank) ∈ DW.lhsBatch by decide), dif_pos (show (0 : Fin S400x128.rank) ∈ DW.lhsNonContracting by decide)]
  rfl
theorem lhsW_1 (i : S400x128.Idx) (q : DW.contr.Idx) : (DW.lhsIdx i q 1).val = (q ⟨0, by decide⟩).val :=
  DW.lhsIdx_val_of_single rfl i q
theorem rhsW_0 (i : S400x128.Idx) (q : DW.contr.Idx) : (DW.rhsIdx i q 0).val = (q ⟨0, by decide⟩).val :=
  DW.rhsIdx_val_of_single rfl i q
theorem rhsW_1 (i : S400x128.Idx) (q : DW.contr.Idx) : (DW.rhsIdx i q 1).val = (i 1).val := by
  unfold DotDims.rhsIdx
  rw [dif_neg (show ¬(1 : Fin S128x128.rank) ∈ DW.rhsBatch by decide), dif_pos (show (1 : Fin S128x128.rank) ∈ DW.rhsNonContracting by decide)]
  rfl

/-- The weight product into the zero block, at `(p, c)`: `Σ_k M p k · W k c`. -/
theorem matmulW_apply (M : FVec Ideal S400x128 .f32) (W : FVec Ideal S128x128 .f32) (p : Fin 400) (c : Fin 128) :
    matmul (F := Ideal) DW none M W (constant (F := Ideal) S400x128 .f32 0x00000000#32) (ix2 p c)
      = ∑ k : Fin 128, M (ix2 p k) * W (ix2 k c) := by
  show FloatOps.matmul DW none M W (constant (F := Ideal) S400x128 .f32 0x00000000#32) (ix2 p c) = _
  rw [Ideal.matmul_constant_zero_apply, ← Equiv.sum_comp (contrEquiv1 DW 128 rfl rfl).symm]
  refine Finset.sum_congr rfl fun k _ => ?_
  have hk := contrEquiv1_symm_val DW 128 rfl rfl k
  have el : DW.lhsIdx (ix2 p c) ((contrEquiv1 DW 128 rfl rfl).symm k) = ix2 p k := funext fun a => Fin.ext (by
    match a with
    | ⟨0, _⟩ => exact lhsW_0 _ _
    | ⟨1, _⟩ => exact (lhsW_1 _ _).trans hk)
  have er : DW.rhsIdx (ix2 p c) ((contrEquiv1 DW 128 rfl rfl).symm k) = ix2 k c := funext fun a => Fin.ext (by
    match a with
    | ⟨0, _⟩ => exact (rhsW_0 _ _).trans hk
    | ⟨1, _⟩ => exact rhsW_1 _ _)
  rw [el, er]

/-- One aggregation at `(p, k)`: the column entry of row `p` times (the adjacency row against column `k` of all the
    scaled features, plus the block's own scaled feature). -/
theorem agg_apply (vD : FVec Ideal S400x1 .f32) (vYall : FVec Ideal S10000x128 .f32) (vA : FVec Ideal S400x10000 .bf16)
    (vY : FVec Ideal S400x128 .f32) (hb : S400x1.Broadcasts S400x128) (hlt : FTy.bits .bf16 < FTy.bits .f32) (p : Fin 400) (k : Fin 128) :
    mulf (broadcastTo S400x128 vD hb)
        (addf (matmul (F := Ideal) DA none vA (truncf .bf16 vYall hlt) (constant (F := Ideal) S400x128 .f32 0x00000000#32)) vY) (ix2 p k)
      = vD (ix2 p (0 : Fin 1)) * ((∑ j : Fin 10000, vA (ix2 p j) * vYall (ix2 j k)) + vY (ix2 p k)) := by
  show broadcastTo S400x128 vD hb (ix2 p k)
      * (matmul (F := Ideal) DA none vA (truncf .bf16 vYall hlt) (constant (F := Ideal) S400x128 .f32 0x00000000#32) (ix2 p k) + vY (ix2 p k)) = _
  rw [bcastCol_apply, matmulA_apply]
  rfl

/-- The second layer's payload at `(p, c)`: the aggregation against the weights. -/
theorem pay2_apply (v0 : FVec Ideal S400x1 .f32) (v2 : FVec Ideal S10000x128 .f32) (v5 : FVec Ideal S400x10000 .bf16)
    (v8 : FVec Ideal S400x128 .f32) (v13 : FVec Ideal S128x128 .f32) (p : Fin 400) (c : Fin 128) :
    Gen.k2_pay1 (F := Ideal) v0 v2 v5 v8 v13 (ix2 p c)
      = ∑ k : Fin 128, (v0 (ix2 p (0 : Fin 1)) * ((∑ j : Fin 10000, v5 (ix2 p j) * v2 (ix2 j k)) + v8 (ix2 p k))) * v13 (ix2 k c) := by
  unfold Gen.k2_pay1
  simp only [shapeCast_self]
  refine (matmulW_apply _ _ p c).trans (Finset.sum_congr rfl fun k _ => ?_)
  rw [agg_apply]

/-- The first layer's payload at `(p, c)`: the same, clipped at zero and scaled by the column entry of row `p` for the
    next layer. -/
theorem pay1_apply (v0 : FVec Ideal S400x1 .f32) (v2 : FVec Ideal S10000x128 .f32) (v5 : FVec Ideal S400x10000 .bf16)
    (v8 : FVec Ideal S400x128 .f32) (v13 : FVec Ideal S128x128 .f32) (p : Fin 400) (c : Fin 128) :
    Gen.k1_pay1 (F := Ideal) v0 v2 v5 v8 v13 (ix2 p c)
      = v0 (ix2 p (0 : Fin 1))
        * max (∑ k : Fin 128, (v0 (ix2 p (0 : Fin 1)) * ((∑ j : Fin 10000, v5 (ix2 p j) * v2 (ix2 j k)) + v8 (ix2 p k))) * v13 (ix2 k c)) 0 := by
  unfold Gen.k1_pay1
  simp only [shapeCast_self]
  show broadcastTo S400x128 v0 Gen.broadcasts_S400x1_S400x128 (ix2 p c)
      * max (matmul (F := Ideal) DW none _ v13 (constant (F := Ideal) S400x128 .f32 0x00000000#32) (ix2 p c))
          (Ideal.ofBits .f32 0x00000000#32) = _
  rw [bcastCol_apply, Ideal.ofBits_zero_f32]
  refine congrArg (fun t => v0 (ix2 p (0 : Fin 1)) * max t 0)
    ((matmulW_apply _ _ p c).trans (Finset.sum_congr rfl fun k _ => ?_))
  rw [agg_apply]

end Cert.KernelIdeal.BodyValue.Layers

namespace Cert.KernelIdeal.BodyValue

open Cert.KernelIdeal
open Idealize.ShloMosaic Idealize.ShloMosaic.ValueIdx

/-- The first layer's output block at `(p, c)`. -/
theorem outO1_apply (xA : Vec Ideal S400x10000 .bf16) (xYall : Vec Ideal S10000x128 .f32) (xY : Vec Ideal S400x128 .f32)
    (xD : Vec Ideal S400x1 .f32) (xW : Vec Ideal S128x128 .f32) (p : Fin 400) (c : Fin 128) :
    LayerOne.outO xA xYall xY xD xW (ix2 p c)
      = xD (ix2 p 0) * max (∑ k : Fin 128, (xD (ix2 p 0) * ((∑ j : Fin 10000, xA (ix2 p j) * xYall (ix2 j k)) + xY (ix2 p k))) * xW (ix2 k c)) 0 := by
  unfold LayerOne.outO
  rw [View.canon_unit_zero Layers.hz, View.ld_unit_zero (S := S400x1) Layers.hz, View.ld_unit_zero (S := S10000x128) Layers.hz,
    View.ld_unit_zero (S := S400x10000) Layers.hz, View.ld_unit_zero (S := S400x128) Layers.hz, View.ld_unit_zero (S := S128x128) Layers.hz]
  exact Layers.pay1_apply xD xYall xA xY xW p c

/-- The second layer's output block at `(p, c)`. -/
theorem outO2_apply (xA : Vec Ideal S400x10000 .bf16) (xYall : Vec Ideal S10000x128 .f32) (xY : Vec Ideal S400x128 .f32)
    (xD : Vec Ideal S400x1 .f32) (xW : Vec Ideal S128x128 .f32) (p : Fin 400) (c : Fin 128) :
    LayerTwo.outO xA xYall xY xD xW (ix2 p c)
      = ∑ k : Fin 128, (xD (ix2 p 0) * ((∑ j : Fin 10000, xA (ix2 p j) * xYall (ix2 j k)) + xY (ix2 p k))) * xW (ix2 k c) := by
  unfold LayerTwo.outO
  rw [View.canon_unit_zero Layers.hz, View.ld_unit_zero (S := S400x1) Layers.hz, View.ld_unit_zero (S := S10000x128) Layers.hz,
    View.ld_unit_zero (S := S400x10000) Layers.hz, View.ld_unit_zero (S := S400x128) Layers.hz, View.ld_unit_zero (S := S128x128) Layers.hz]
  exact Layers.pay2_apply xD xYall xA xY xW p c

end Cert.KernelIdeal.BodyValue

end
-- ==== Proof.KI.Layer1Value.lean ====
/-
  What the first layer pass leaves in its output array, as a whole-array function of the four arrays it reads
  (adjacency, scaled features, the column of factors d, the layer's weights): at row r and column c,
  d r · max(Σ_k (d r · (Σ_j A r j · y j k + y r k)) · W k c, 0).
  Grid point t writes rows 400·t … 400·t+399; the twenty-five blocks tile the array.
-/
import proofs.«132648_g48387101557188_cont_8to1_c_480_4_alg».proof.Proof.KI.Layer1
import proofs.«132648_g48387101557188_cont_8to1_c_480_4_alg».proof.Proof.KI.BodyValue12
import Idealize.ShloMosaic.Lib.Pipeline.Value
import Idealize.ShloMosaic.Lib.ValueIdx

set_option maxRecDepth 16384

noncomputable section

namespace Cert.KernelIdeal.LayerOneValue

open Cert.KernelIdeal Cert.KernelIdeal.Gen Cert.KernelIdeal.LayerOne
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The output entry at row r, column cc. -/
def GOf (ab : S10000x10000.Idx → EReal) (y : S10000x128.Idx → EReal) (d : S10000x1.Idx → EReal) (wl : S128x128.Idx → EReal)
    (r : Fin 10000) (cc : Fin 128) : EReal :=
  d (ix2 r 0) * max (∑ k : Fin 128, (d (ix2 r 0) * ((∑ j : Fin 10000, ab (ix2 r j) * y (ix2 j k)) + y (ix2 r k))) * wl (ix2 k cc)) 0
/-- The output array. -/
def GO (ab : S10000x10000.Idx → EReal) (y : S10000x128.Idx → EReal) (d : S10000x1.Idx → EReal) (wl : S128x128.Idx → EReal) :
    S10000x128.Idx → EReal := fun i => GOf ab y d wl (i 0) (i 1)

/-- At grid point t the row-blocked windows sit on block row t, the two resident windows (all scaled features; the weights)
    on block (0, 0). -/
theorem idxs : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of `GO` of the arrays as the pass finds them. -/
theorem flushed_eq (c : Dev nD) (t : Fin cfg1.N) :
    (dat V c).flushed 5 t = ((cfg1.win 5).blk t).view.read (Elt Ideal)
      (GO (V c main_v0_2) (V c main_v0_1) (V c main_v0_0) (V c main_v4)) := by
  show (cfg1.win 5).cut (grid1.coords t) ((dat V c).after 5 t) = _
  rw [after_5]
  obtain ⟨a0, a1, b0, b1, c0, c1, d0, d1, e0, e1, f0, f1⟩ := idxs t
  funext j
  have hj0 : (j 0).val < 400 := (j 0).isLt
  have hj1 : (j 1).val < 128 := (j 1).isLt
  show outO (iblk V c 0 t) (iblk V c 1 t) (iblk V c 2 t) (iblk V c 3 t) (iblk V c 4 t) j
    = GOf (V c main_v0_2) (V c main_v0_1) (V c main_v0_0) (V c main_v4) ((((cfg1.win 5).blk t).view.emb j) 0) ((((cfg1.win 5).blk t).view.emb j) 1)
  refine ((congrArg (outO (iblk V c 0 t) (iblk V c 1 t) (iblk V c 2 t) (iblk V c 3 t) (iblk V c 4 t)) (eq_ix2 j)).trans
    (BodyValue.outO1_apply (iblk V c 0 t) (iblk V c 1 t) (iblk V c 2 t) (iblk V c 3 t) (iblk V c 4 t) (j 0) (j 1))).trans ?_
  obtain ⟨r, hr⟩ : ∃ r : Fin 10000, r = (((cfg1.win 5).blk t).view.emb j) 0 := ⟨_, rfl⟩
  obtain ⟨cc, hc⟩ : ∃ cc : Fin 128, cc = (((cfg1.win 5).blk t).view.emb j) 1 := ⟨_, rfl⟩
  have hr' : r.val = win1_5.index t (0 : Fin 2) * 400 + 1 * (j 0).val := congrArg Fin.val hr
  have hc' : cc.val = win1_5.index t (1 : Fin 2) * 128 + 1 * (j 1).val := congrArg Fin.val hc
  rw [← hr, ← hc]
  have hD : iblk V c 3 t (ix2 (j 0) 0) = V c main_v0_0 (ix2 r 0) :=
    congrArg (V c main_v0_0) (funext fun a => Fin.ext (by
      match a with
      | ⟨0, _⟩ => show win1_3.index t (0 : Fin 2) * 400 + 1 * (j 0).val = r.val; omega
      | ⟨1, _⟩ => show win1_3.index t (1 : Fin 2) * 1 + 1 * 0 = 0; omega))
  have hA : ∀ jj : Fin 10000, iblk V c 0 t (ix2 (j 0) jj) = V c main_v0_2 (ix2 r jj) := fun jj =>
    congrArg (V c main_v0_2) (funext fun a => Fin.ext (by
      match a with
      | ⟨0, _⟩ => show win1_0.index t (0 : Fin 2) * 400 + 1 * (j 0).val = r.val; omega
      | ⟨1, _⟩ => show win1_0.index t (1 : Fin 2) * 10000 + 1 * jj.val = jj.val; omega))
  have hYall : ∀ (jj : Fin 10000) (k : Fin 128), iblk V c 1 t (ix2 jj k) = V c main_v0_1 (ix2 jj k) := fun jj k =>
    congrArg (V c main_v0_1) (funext fun a => Fin.ext (by
      match a with
      | ⟨0, _⟩ => show win1_1.index t (0 : Fin 2) * 10000 + 1 * jj.val = jj.val; omega
      | ⟨1, _⟩ => show win1_1.index t (1 : Fin 2) * 128 + 1 * k.val = k.val; omega))
  have hY : ∀ k : Fin 128, iblk V c 2 t (ix2 (j 0) k) = V c main_v0_1 (ix2 r k) := fun k =>
    congrArg (V c main_v0_1) (funext fun a => Fin.ext (by
      match a with
      | ⟨0, _⟩ => show win1_2.index t (0 : Fin 2) * 400 + 1 * (j 0).val = r.val; omega
      | ⟨1, _⟩ => show win1_2.index t (1 : Fin 2) * 128 + 1 * k.val = k.val; omega))
  have hW : ∀ k : Fin 128, iblk V c 4 t (ix2 k (j 1)) = V c main_v4 (ix2 k cc) := fun k =>
    congrArg (V c main_v4) (funext fun a => Fin.ext (by
      match a with
      | ⟨0, _⟩ => show win1_4.index t (0 : Fin 2) * 128 + 1 * k.val = k.val; omega
      | ⟨1, _⟩ => show win1_4.index t (1 : Fin 2) * 128 + 1 * (j 1).val = cc.val; omega))
  unfold GOf
  simp only [hD, hA, hYall, hY, hW]

theorem mem_blk (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v5).slice (win1_5.rect t)).set ↔ _
  rw [View.set_slice_whole, Rect.mem_set_unit]
  exact Iff.rfl

/-- The point whose block holds row r: r / 400. -/
def pt (r : Nat) (h : r < 10000) : Fin cfg1.N := ⟨r / 400, by show r / 400 < grid1.N; rw [N_1]; omega⟩

theorem cover (i : S10000x128.Idx) : ∃ t : Fin cfg1.N, (cfg1.win 5).flush t = true ∧ i ∈ ((cfg1.win 5).blk t).view.set := by
  have h0 : (i 0).val < 10000 := (i 0).isLt
  have h1 : (i 1).val < 128 := (i 1).isLt
  refine ⟨pt (i 0).val h0, flush1_5 _, ?_⟩
  rw [mem_blk]
  obtain ⟨-, -, -, -, -, -, -, -, -, -, f0, f1⟩ := idxs (pt (i 0).val h0)
  have f0' : win1_5.index (pt (i 0).val h0) (0 : Fin 2) = (i 0).val / 400 := f0
  intro a
  match a with
  | ⟨0, _⟩ => show win1_5.index (pt (i 0).val h0) (0 : Fin 2) * 400 ≤ (i 0).val ∧ (i 0).val < win1_5.index (pt (i 0).val h0) (0 : Fin 2) * 400 + 400; omega
  | ⟨1, _⟩ => show win1_5.index (pt (i 0).val h0) (1 : Fin 2) * 128 ≤ (i 1).val ∧ (i 1).val < win1_5.index (pt (i 0).val h0) (1 : Fin 2) * 128 + 128; omega

/-- The output array after the pass. -/
theorem final (c : Dev nD) : (dat V c).arrAt 5 cfg1.N = GO (V c main_v0_2) (V c main_v0_1) (V c main_v0_0) (V c main_v4) :=
  (dat V c).arrAt_eq_of_cover 5 (GO (V c main_v0_2) (V c main_v0_1) (V c main_v0_0) (V c main_v4)) (fun t _ => flushed_eq V c t) cover

end Cert.KernelIdeal.LayerOneValue

end
-- ==== Proof.KI.Layer2Value.lean ====
/-
  What the second layer pass leaves in its output array, as a whole-array function of the four arrays it reads
  (adjacency, scaled features, the column of factors d, the layer's weights): at row r and column c,
  Σ_k (d r · (Σ_j A r j · y j k + y r k)) · W k c.
  Grid point t writes rows 400·t … 400·t+399; the twenty-five blocks tile the array.
-/
import proofs.«132648_g48387101557188_cont_8to1_c_480_4_alg».proof.Proof.KI.Layer2
import proofs.«132648_g48387101557188_cont_8to1_c_480_4_alg».proof.Proof.KI.BodyValue12
import Idealize.ShloMosaic.Lib.Pipeline.Value
import Idealize.ShloMosaic.Lib.ValueIdx

set_option maxRecDepth 16384

noncomputable section

namespace Cert.KernelIdeal.LayerTwoValue

open Cert.KernelIdeal Cert.KernelIdeal.Gen Cert.KernelIdeal.LayerTwo
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The output entry at row r, column cc. -/
def GOf (ab : S10000x10000.Idx → EReal) (y : S10000x128.Idx → EReal) (d : S10000x1.Idx → EReal) (wl : S128x128.Idx → EReal)
    (r : Fin 10000) (cc : Fin 128) : EReal :=
  ∑ k : Fin 128, (d (ix2 r 0) * ((∑ j : Fin 10000, ab (ix2 r j) * y (ix2 j k)) + y (ix2 r k))) * wl (ix2 k cc)
/-- The output array. -/
def GO (ab : S10000x10000.Idx → EReal) (y : S10000x128.Idx → EReal) (d : S10000x1.Idx → EReal) (wl : S128x128.Idx → EReal) :
    S10000x128.Idx → EReal := fun i => GOf ab y d wl (i 0) (i 1)

/-- At grid point t the row-blocked windows sit on block row t, the two resident windows (all scaled features; the weights)
    on block (0, 0). -/
theorem idxs : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of `GO` of the arrays as the pass finds them. -/
theorem flushed_eq (c : Dev nD) (t : Fin cfg2.N) :
    (dat V c).flushed 5 t = ((cfg2.win 5).blk t).view.read (Elt Ideal)
      (GO (V c main_v0_2) (V c main_v5) (V c main_v0_0) (V c main_v9)) := by
  show (cfg2.win 5).cut (grid2.coords t) ((dat V c).after 5 t) = _
  rw [after_5]
  obtain ⟨a0, a1, b0, b1, c0, c1, d0, d1, e0, e1, f0, f1⟩ := idxs t
  funext j
  have hj0 : (j 0).val < 400 := (j 0).isLt
  have hj1 : (j 1).val < 128 := (j 1).isLt
  show outO (iblk V c 0 t) (iblk V c 1 t) (iblk V c 2 t) (iblk V c 3 t) (iblk V c 4 t) j
    = GOf (V c main_v0_2) (V c main_v5) (V c main_v0_0) (V c main_v9) ((((cfg2.win 5).blk t).view.emb j) 0) ((((cfg2.win 5).blk t).view.emb j) 1)
  refine ((congrArg (outO (iblk V c 0 t) (iblk V c 1 t) (iblk V c 2 t) (iblk V c 3 t) (iblk V c 4 t)) (eq_ix2 j)).trans
    (BodyValue.outO2_apply (iblk V c 0 t) (iblk V c 1 t) (iblk V c 2 t) (iblk V c 3 t) (iblk V c 4 t) (j 0) (j 1))).trans ?_
  obtain ⟨r, hr⟩ : ∃ r : Fin 10000, r = (((cfg2.win 5).blk t).view.emb j) 0 := ⟨_, rfl⟩
  obtain ⟨cc, hc⟩ : ∃ cc : Fin 128, cc = (((cfg2.win 5).blk t).view.emb j) 1 := ⟨_, rfl⟩
  have hr' : r.val = win2_5.index t (0 : Fin 2) * 400 + 1 * (j 0).val := congrArg Fin.val hr
  have hc' : cc.val = win2_5.index t (1 : Fin 2) * 128 + 1 * (j 1).val := congrArg Fin.val hc
  rw [← hr, ← hc]
  have hD : iblk V c 3 t (ix2 (j 0) 0) = V c main_v0_0 (ix2 r 0) :=
    congrArg (V c main_v0_0) (funext fun a => Fin.ext (by
      match a with
      | ⟨0, _⟩ => show win2_3.index t (0 : Fin 2) * 400 + 1 * (j 0).val = r.val; omega
      | ⟨1, _⟩ => show win2_3.index t (1 : Fin 2) * 1 + 1 * 0 = 0; omega))
  have hA : ∀ jj : Fin 10000, iblk V c 0 t (ix2 (j 0) jj) = V c main_v0_2 (ix2 r jj) := fun jj =>
    congrArg (V c main_v0_2) (funext fun a => Fin.ext (by
      match a with
      | ⟨0, _⟩ => show win2_0.index t (0 : Fin 2) * 400 + 1 * (j 0).val = r.val; omega
      | ⟨1, _⟩ => show win2_0.index t (1 : Fin 2) * 10000 + 1 * jj.val = jj.val; omega))
  have hYall : ∀ (jj : Fin 10000) (k : Fin 128), iblk V c 1 t (ix2 jj k) = V c main_v5 (ix2 jj k) := fun jj k =>
    congrArg (V c main_v5) (funext fun a => Fin.ext (by
      match a with
      | ⟨0, _⟩ => show win2_1.index t (0 : Fin 2) * 10000 + 1 * jj.val = jj.val; omega
      | ⟨1, _⟩ => show win2_1.index t (1 : Fin 2) * 128 + 1 * k.val = k.val; omega))
  have hY : ∀ k : Fin 128, iblk V c 2 t (ix2 (j 0) k) = V c main_v5 (ix2 r k) := fun k =>
    congrArg (V c main_v5) (funext fun a => Fin.ext (by
      match a with
      | ⟨0, _⟩ => show win2_2.index t (0 : Fin 2) * 400 + 1 * (j 0).val = r.val; omega
      | ⟨1, _⟩ => show win2_2.index t (1 : Fin 2) * 128 + 1 * k.val = k.val; omega))
  have hW : ∀ k : Fin 128, iblk V c 4 t (ix2 k (j 1)) = V c main_v9 (ix2 k cc) := fun k =>
    congrArg (V c main_v9) (funext fun a => Fin.ext (by
      match a with
      | ⟨0, _⟩ => show win2_4.index t (0 : Fin 2) * 128 + 1 * k.val = k.val; omega
      | ⟨1, _⟩ => show win2_4.index t (1 : Fin 2) * 128 + 1 * (j 1).val = cc.val; omega))
  unfold GOf
  simp only [hD, hA, hYall, hY, hW]

theorem mem_blk (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v10).slice (win2_5.rect t)).set ↔ _
  rw [View.set_slice_whole, Rect.mem_set_unit]
  exact Iff.rfl

/-- The point whose block holds row r: r / 400. -/
def pt (r : Nat) (h : r < 10000) : Fin cfg2.N := ⟨r / 400, by show r / 400 < grid2.N; rw [N_2]; omega⟩

theorem cover (i : S10000x128.Idx) : ∃ t : Fin cfg2.N, (cfg2.win 5).flush t = true ∧ i ∈ ((cfg2.win 5).blk t).view.set := by
  have h0 : (i 0).val < 10000 := (i 0).isLt
  have h1 : (i 1).val < 128 := (i 1).isLt
  refine ⟨pt (i 0).val h0, flush2_5 _, ?_⟩
  rw [mem_blk]
  obtain ⟨-, -, -, -, -, -, -, -, -, -, f0, f1⟩ := idxs (pt (i 0).val h0)
  have f0' : win2_5.index (pt (i 0).val h0) (0 : Fin 2) = (i 0).val / 400 := f0
  intro a
  match a with
  | ⟨0, _⟩ => show win2_5.index (pt (i 0).val h0) (0 : Fin 2) * 400 ≤ (i 0).val ∧ (i 0).val < win2_5.index (pt (i 0).val h0) (0 : Fin 2) * 400 + 400; omega
  | ⟨1, _⟩ => show win2_5.index (pt (i 0).val h0) (1 : Fin 2) * 128 ≤ (i 1).val ∧ (i 1).val < win2_5.index (pt (i 0).val h0) (1 : Fin 2) * 128 + 128; omega

/-- The output array after the pass. -/
theorem final (c : Dev nD) : (dat V c).arrAt 5 cfg2.N = GO (V c main_v0_2) (V c main_v5) (V c main_v0_0) (V c main_v9) :=
  (dat V c).arrAt_eq_of_cover 5 (GO (V c main_v0_2) (V c main_v5) (V c main_v0_0) (V c main_v9)) (fun t _ => flushed_eq V c t) cover

end Cert.KernelIdeal.LayerTwoValue

end
-- ==== Proof.GcnSpec.lean ====
/-
  The mathematics of the claim, with no program in sight: a two-layer dense graph convolution with symmetric
  normalisation, written the two ways the two programs compute it, over the extended reals.

  Notation: `A` the N×N adjacency weights, `X` the N×D node features, `W0 W1` the two D×D weight matrices
  (each the four per-head D×(D/4) matrices side by side).

  * THE NORMALISED FORM materialises `Â = A + I`, the degrees `deg i = Σ_j Â i j`, `r = deg^(-1/2)` and the
    normalised matrix `(Â i j · r i) · r j`, then per layer multiplies it by the features, applies the weights,
    and (first layer only) clips at zero.
  * THE ROW-SCALED FORM never forms that matrix: with `d i = (Σ_j A i j + 1)^(-1/2)` it carries the features
    pre-scaled, `y = d ⊙ x`, and per layer computes `d i · (Σ_j A i j · y j + y i)`, applies the weights, and hands
    the next layer `d i · max(·, 0)`.

  For real entries and positive degrees the two agree entry by entry: `Σ_j (A i j + δ i j) = Σ_j A i j + 1`, and
  `d i · (Σ_j A i j · (d j · x j) + d i · x i) = Σ_j ((A i j + δ i j) · d i) · d j · x j` by distributing the real
  factor `d i` over the finite sum and splitting off the diagonal term. Both steps need every quantity finite: on
  the extended reals a product does not distribute over a sum at an infinity, which is why the degrees must be
  positive (at `deg i = 0` the factor is `+∞`).
-/
import Idealize.ShloMosaic.PureOps.Ideal
import Idealize.ShloMosaic.Lib.ValueIdx

noncomputable section

namespace Cert.Gcn

open Idealize.ShloMosaic

variable {N D : ℕ}

/-! ## The row-scaled form -/

/-- `d i = (Σ_j A i j + 1)^(-1/2)`. -/
def dK (A : Fin N → Fin N → EReal) (i : Fin N) : EReal := Ideal.rsqrt ((∑ j, A i j) + 1)

/-- One aggregation on pre-scaled features `y`: `d i · (Σ_j A i j · y j k + y i k)`. -/
def aggK (A : Fin N → Fin N → EReal) (d : Fin N → EReal) (y : Fin N → Fin D → EReal) (i : Fin N) (k : Fin D) : EReal :=
  d i * ((∑ j, A i j * y j k) + y i k)

/-- The weights applied: `Σ_k g i k · Wl k c`. -/
def lin (g : Fin N → Fin D → EReal) (Wl : Fin D → Fin D → EReal) (i : Fin N) (c : Fin D) : EReal :=
  ∑ k, g i k * Wl k c

/-- Both layers, row-scaled. -/
def kernelNet (A : Fin N → Fin N → EReal) (X : Fin N → Fin D → EReal) (W0 W1 : Fin D → Fin D → EReal) :
    Fin N → Fin D → EReal :=
  lin (aggK A (dK A) (fun i c => dK A i * max (lin (aggK A (dK A) (fun i k => dK A i * X i k)) W0 i c) 0)) W1

/-! ## The normalised form -/

/-- `Â = A + I`. -/
def hat (A : Fin N → Fin N → EReal) (i j : Fin N) : EReal := A i j + (if i = j then 1 else 0)

/-- `r i = (Σ_j Â i j)^(-1/2)`. -/
def dR (A : Fin N → Fin N → EReal) (i : Fin N) : EReal := Ideal.rsqrt (∑ j, hat A i j)

/-- One aggregation: `Σ_j ((Â i j · r i) · r j) · x j k`. -/
def aggR (A : Fin N → Fin N → EReal) (x : Fin N → Fin D → EReal) (i : Fin N) (k : Fin D) : EReal :=
  ∑ j, (hat A i j * dR A i * dR A j) * x j k

/-- Both layers, normalised. -/
def refNet (A : Fin N → Fin N → EReal) (X : Fin N → Fin D → EReal) (W0 W1 : Fin D → Fin D → EReal) :
    Fin N → Fin D → EReal :=
  lin (aggR A (fun i c => max (lin (aggR A X) W0 i c) 0)) W1

/-! ## The two programs' arrays as these functions -/

/-- A rank-2 array as a function of its two coordinates. -/
def mat {a b : ℕ} (v : (⟨2, ![a, b]⟩ : Shape).Idx → EReal) (i : Fin a) (j : Fin b) : EReal := v (ValueIdx.ix2 i j)

/-- The per-head weights `[layer, head, in, out]` side by side: column `c` of layer `l` is column `c % 32` of head `c / 32`. -/
def stack (w : (⟨4, ![2, 4, 128, 32]⟩ : Shape).Idx → EReal) (l : Fin 2) (k c : Fin 128) : EReal :=
  w (ValueIdx.ix4 l (⟨c.val / 32, by omega⟩ : Fin 4) k (⟨c.val % 32, Nat.mod_lt _ (by norm_num)⟩ : Fin 32))

/-- The row-scaled network of the three argument arrays, as an array. -/
def kernelOut (a : (⟨2, ![10000, 10000]⟩ : Shape).Idx → EReal) (x : (⟨2, ![10000, 128]⟩ : Shape).Idx → EReal)
    (w : (⟨4, ![2, 4, 128, 32]⟩ : Shape).Idx → EReal) : (⟨2, ![10000, 128]⟩ : Shape).Idx → EReal :=
  fun o => kernelNet (mat a) (mat x) (stack w 0) (stack w 1) (o 0) (o 1)

/-- The normalised network of the three argument arrays, as an array. -/
def refOut (a : (⟨2, ![10000, 10000]⟩ : Shape).Idx → EReal) (x : (⟨2, ![10000, 128]⟩ : Shape).Idx → EReal)
    (w : (⟨4, ![2, 4, 128, 32]⟩ : Shape).Idx → EReal) : (⟨2, ![10000, 128]⟩ : Shape).Idx → EReal :=
  fun o => refNet (mat a) (mat x) (stack w 0) (stack w 1) (o 0) (o 1)

end Cert.Gcn

end
-- ==== Proof.WeightLayout.lean ====
/-
  The layout of a layer's weight matrix. Each layer's 128×128 matrix is assembled from the four-dimensional argument
  `w[layer, head, in, out]` (sizes 2, 4, 128, 32) by four layout operations: take layer `l` (a slice keeping a unit
  leading axis), drop the unit axis, exchange the head and input axes, and merge head and output axes into one column
  axis of size 4 · 32 = 128. None of them computes anything: the matrix's entry at `(k, c)` is one entry of `w`.

  Which one is row-major arithmetic, followed outermost operation first:
    * the merged matrix at `(k, c)` is the three-axis array `[128, 4, 32]` at `(k, c / 32, c % 32)`
      (both sit at position `k · 128 + c = (k · 4 + c / 32) · 32 + c % 32`);
    * that is the exchanged array `[4, 128, 32]` at `(c / 32, k, c % 32)`;
    * that is the sliced array `[1, 4, 128, 32]` at `(0, c / 32, k, c % 32)` (same position);
    * that is `w` at `(l, c / 32, k, c % 32)`.
  So column `c` of layer `l` is column `c % 32` of head `c / 32`: the four per-head matrices side by side.
-/
import proofs.«132648_g48387101557188_cont_8to1_c_480_4_alg».proof.KernelIdeal
import proofs.«132648_g48387101557188_cont_8to1_c_480_4_alg».proof.Proof.GcnSpec
import Idealize.ShloMosaic.Lib.Pipeline.Value
import Idealize.ShloMosaic.Lib.ValueIdx
import Idealize.ShloMosaic.Lib.ValueLayout

noncomputable section

namespace Cert.KernelIdeal.WeightLayout

open Cert.KernelIdeal Cert.KernelIdeal.Facts₀ Idealize.ShloMosaic

variable [Cert.KernelIdeal.Facts]
variable {α : Type}

/-- The four layout operations applied to layer `l` of `w`, read at `(k, c)`: `w` at `(l, c / 32, k, c % 32)`.
    Stated for any slice fact at offsets `(l, 0, 0, 0)`, so that both layers are instances. -/
theorem stackedAt (w : S2x4x128x32.Idx → α) (l : Fin 2) (hs : S2x4x128x32.Slices ![l.val, 0, 0, 0] S1x4x128x32)
    (k c : Fin 128) :
    shapeCast S128x128 (transpose S128x4x32 [1, 0, 2] (shapeCast S4x128x32
        (extractStridedSlice S1x4x128x32 ![l.val, 0, 0, 0] w hs)
        shapeCasts_S1x4x128x32_S4x128x32) transposes_S4x128x32_S128x4x32_1_0_2) shapeCasts_S128x4x32_S128x128
        (ValueIdx.ix2 k c)
      = w (ValueIdx.ix4 l (⟨c.val / 32, by omega⟩ : Fin 4) k (⟨c.val % 32, Nat.mod_lt _ (by norm_num)⟩ : Fin 32)) := by
  have hk : k.val < 128 := k.isLt
  have hc : c.val < 128 := c.isLt
  have hh : c.val / 32 < 4 := by omega
  have he : c.val % 32 < 32 := Nat.mod_lt _ (by norm_num)
  -- the merge of head and output axes: [128,128] at (k, c) reads [128,4,32] at (k, c / 32, c % 32)
  refine (shapeCast_apply _ _ (ValueIdx.ix2 k c)
    (ValueIdx.ix3 k (⟨c.val / 32, hh⟩ : Fin 4) (⟨c.val % 32, he⟩ : Fin 32))
    (by rw [Shape.rowMajor_val_three, Shape.rowMajor_val_two]
        show (k.val * 4 + c.val / 32) * 32 + c.val % 32 = k.val * 128 + c.val
        omega)).trans ?_
  -- the exchange of head and input axes: [128,4,32] at (k, h, e) reads [4,128,32] at (h, k, e)
  refine (transpose_apply _ _ _ _
    (ValueIdx.ix3 (⟨c.val / 32, hh⟩ : Fin 4) k (⟨c.val % 32, he⟩ : Fin 32))
    (fun b => match b with | ⟨0, _⟩ => rfl | ⟨1, _⟩ => rfl | ⟨2, _⟩ => rfl)).trans ?_
  -- dropping the unit axis: [4,128,32] at (h, k, e) reads [1,4,128,32] at (0, h, k, e)
  refine (shapeCast_apply _ _ _
    (ValueIdx.ix4 (⟨0, Nat.one_pos⟩ : Fin 1) (⟨c.val / 32, hh⟩ : Fin 4) k (⟨c.val % 32, he⟩ : Fin 32))
    (by rw [Shape.rowMajor_val_four, Shape.rowMajor_val_three]
        show ((0 * 4 + c.val / 32) * 128 + k.val) * 32 + c.val % 32 = (c.val / 32 * 128 + k.val) * 32 + c.val % 32
        omega)).trans ?_
  -- the slice at (l, 0, 0, 0): [1,4,128,32] at (0, h, k, e) reads w at (l, h, k, e)
  exact extractStridedSlice_apply _ _ _ _ _
    (fun a => match a with
      | ⟨0, _⟩ => by show l.val = l.val + 0; omega
      | ⟨1, _⟩ => by show c.val / 32 = 0 + c.val / 32; omega
      | ⟨2, _⟩ => by show k.val = 0 + k.val; omega
      | ⟨3, _⟩ => by show c.val % 32 = 0 + c.val % 32; omega)

/-- The first layer's matrix at `(k, c)`: `w` at `(0, c / 32, k, c % 32)`. -/
theorem stacked0 (w : S2x4x128x32.Idx → α) (k c : Fin 128) :
    shapeCast S128x128 (transpose S128x4x32 [1, 0, 2] (shapeCast S4x128x32
        (extractStridedSlice S1x4x128x32 ![0, 0, 0, 0] w slices_S2x4x128x32_S1x4x128x32_0_0_0_0)
        shapeCasts_S1x4x128x32_S4x128x32) transposes_S4x128x32_S128x4x32_1_0_2) shapeCasts_S128x4x32_S128x128
        (ValueIdx.ix2 k c)
      = w (ValueIdx.ix4 (0 : Fin 2) (⟨c.val / 32, by omega⟩ : Fin 4) k (⟨c.val % 32, Nat.mod_lt _ (by norm_num)⟩ : Fin 32)) :=
  stackedAt w 0 slices_S2x4x128x32_S1x4x128x32_0_0_0_0 k c

/-- The second layer's matrix at `(k, c)`: `w` at `(1, c / 32, k, c % 32)`. -/
theorem stacked1 (w : S2x4x128x32.Idx → α) (k c : Fin 128) :
    shapeCast S128x128 (transpose S128x4x32 [1, 0, 2] (shapeCast S4x128x32
        (extractStridedSlice S1x4x128x32 ![1, 0, 0, 0] w slices_S2x4x128x32_S1x4x128x32_1_0_0_0)
        shapeCasts_S1x4x128x32_S4x128x32) transposes_S4x128x32_S128x4x32_1_0_2) shapeCasts_S128x4x32_S128x128
        (ValueIdx.ix2 k c)
      = w (ValueIdx.ix4 (1 : Fin 2) (⟨c.val / 32, by omega⟩ : Fin 4) k (⟨c.val % 32, Nat.mod_lt _ (by norm_num)⟩ : Fin 32)) :=
  stackedAt w 1 slices_S2x4x128x32_S1x4x128x32_1_0_0_0 k c

/-- On the extended reals the first layer's matrix is the specification's stacked weights of layer 0. -/
theorem stacked0_eq_stack (w : S2x4x128x32.Idx → EReal) (k c : Fin 128) :
    shapeCast S128x128 (transpose S128x4x32 [1, 0, 2] (shapeCast S4x128x32
        (extractStridedSlice S1x4x128x32 ![0, 0, 0, 0] w slices_S2x4x128x32_S1x4x128x32_0_0_0_0)
        shapeCasts_S1x4x128x32_S4x128x32) transposes_S4x128x32_S128x4x32_1_0_2) shapeCasts_S128x4x32_S128x128
        (ValueIdx.ix2 k c)
      = Cert.Gcn.stack w 0 k c :=
  stacked0 w k c

/-- On the extended reals the second layer's matrix is the specification's stacked weights of layer 1. -/
theorem stacked1_eq_stack (w : S2x4x128x32.Idx → EReal) (k c : Fin 128) :
    shapeCast S128x128 (transpose S128x4x32 [1, 0, 2] (shapeCast S4x128x32
        (extractStridedSlice S1x4x128x32 ![1, 0, 0, 0] w slices_S2x4x128x32_S1x4x128x32_1_0_0_0)
        shapeCasts_S1x4x128x32_S4x128x32) transposes_S4x128x32_S128x4x32_1_0_2) shapeCasts_S128x4x32_S128x128
        (ValueIdx.ix2 k c)
      = Cert.Gcn.stack w 1 k c :=
  stacked1 w k c

end Cert.KernelIdeal.WeightLayout

end
-- ==== Proof.WeightHost.lean ====
/-
  What the host leaves in each layer's weight buffer. Before each layer's aggregation the program builds that layer's
  128×128 weight matrix from the four-dimensional weight argument by four layout operations in a row (slice, drop the
  unit axis, exchange two axes, merge two axes), each writing a fresh buffer. Running the four from any contents `V`
  leaves, in the last buffer, the four operations composed and applied to `V` at the weight argument; every operation
  writes only its own result buffer, so nothing else that the four read is disturbed on the way.

  Read at an entry `(k, c)`, that matrix is the weight argument at `(l, c / 32, k, c % 32)` (the layout lemma).
-/
import proofs.«132648_g48387101557188_cont_8to1_c_480_4_alg».proof.Proof.Gen.KernelIdeal.Launch
import proofs.«132648_g48387101557188_cont_8to1_c_480_4_alg».proof.Proof.WeightLayout
import Idealize.ShloMosaic.Lib.StableHlo.Run

noncomputable section

namespace Cert.KernelIdeal.WeightHost

open Cert.KernelIdeal Cert.KernelIdeal.Facts₀ Idealize.ShloMosaic

variable {F : FTy → Type} [FloatOps F]

/-- After the first stretch of host operations the first layer's weight buffer holds the four layout operations
    applied to the weight argument's contents. -/
theorem after_hostOps1_v4 (V : Valuation τ sig (Elt F)) :
    (StableHlo.after (Gen.hostOps1 (F := F)) V (Proc.devRef .tc main_v4) : S128x128.Idx → Elt F .f32)
      = shapeCast S128x128 (transpose S128x4x32 [1, 0, 2] (shapeCast S4x128x32
          (extractStridedSlice S1x4x128x32 ![0, 0, 0, 0]
            (V (Proc.devRef .tc main_arg2) : S2x4x128x32.Idx → Elt F .f32) slices_S2x4x128x32_S1x4x128x32_0_0_0_0)
          shapeCasts_S1x4x128x32_S4x128x32) transposes_S4x128x32_S128x4x32_1_0_2) shapeCasts_S128x4x32_S128x128 := by
  after_results
  rfl

/-- After the second stretch of host operations the second layer's weight buffer holds the four layout operations
    applied to the weight argument's contents. -/
theorem after_hostOps2_v9 (V : Valuation τ sig (Elt F)) :
    (StableHlo.after (Gen.hostOps2 (F := F)) V (Proc.devRef .tc main_v9) : S128x128.Idx → Elt F .f32)
      = shapeCast S128x128 (transpose S128x4x32 [1, 0, 2] (shapeCast S4x128x32
          (extractStridedSlice S1x4x128x32 ![1, 0, 0, 0]
            (V (Proc.devRef .tc main_arg2) : S2x4x128x32.Idx → Elt F .f32) slices_S2x4x128x32_S1x4x128x32_1_0_0_0)
          shapeCasts_S1x4x128x32_S4x128x32) transposes_S4x128x32_S128x4x32_1_0_2) shapeCasts_S128x4x32_S128x128 := by
  after_results
  rfl

/-- Entry `(k, c)` of the first layer's weight buffer after the first stretch: the weight argument at
    `(0, c / 32, k, c % 32)`. -/
theorem after_hostOps1_v4_apply (V : Valuation τ sig (Elt F)) (k c : Fin 128) :
    (StableHlo.after (Gen.hostOps1 (F := F)) V (Proc.devRef .tc main_v4) : S128x128.Idx → Elt F .f32) (ValueIdx.ix2 k c)
      = (V (Proc.devRef .tc main_arg2) : S2x4x128x32.Idx → Elt F .f32)
          (ValueIdx.ix4 (0 : Fin 2) (⟨c.val / 32, by omega⟩ : Fin 4) k (⟨c.val % 32, Nat.mod_lt _ (by norm_num)⟩ : Fin 32)) := by
  rw [after_hostOps1_v4]
  exact WeightLayout.stacked0 _ k c

/-- Entry `(k, c)` of the second layer's weight buffer after the second stretch: the weight argument at
    `(1, c / 32, k, c % 32)`. -/
theorem after_hostOps2_v9_apply (V : Valuation τ sig (Elt F)) (k c : Fin 128) :
    (StableHlo.after (Gen.hostOps2 (F := F)) V (Proc.devRef .tc main_v9) : S128x128.Idx → Elt F .f32) (ValueIdx.ix2 k c)
      = (V (Proc.devRef .tc main_arg2) : S2x4x128x32.Idx → Elt F .f32)
          (ValueIdx.ix4 (1 : Fin 2) (⟨c.val / 32, by omega⟩ : Fin 4) k (⟨c.val % 32, Nat.mod_lt _ (by norm_num)⟩ : Fin 32)) := by
  rw [after_hostOps2_v9]
  exact WeightLayout.stacked1 _ k c

end Cert.KernelIdeal.WeightHost

end
-- ==== Proof.KI.KernelValue.lean ====
/-
  The run's result as a function of the three argument arrays, at the ideal instance: following the buffers'
  contents from pass to pass — the degree pass leaves d, d ⊙ X and the adjacency array; the host stretches leave each
  layer's stacked weights; the first layer pass leaves y₂ = d ⊙ max((d ⊙ (A·y₁ + y₁))·W₀, 0); the second leaves
  (d ⊙ (A·y₂ + y₂))·W₁ — the result array ends at the row-scaled network of the specification.
-/
import proofs.«132648_g48387101557188_cont_8to1_c_480_4_alg».proof.Proof.KI.Run
import proofs.«132648_g48387101557188_cont_8to1_c_480_4_alg».proof.Proof.KI.DegValue
import proofs.«132648_g48387101557188_cont_8to1_c_480_4_alg».proof.Proof.KI.Layer1Value
import proofs.«132648_g48387101557188_cont_8to1_c_480_4_alg».proof.Proof.KI.Layer2Value
import proofs.«132648_g48387101557188_cont_8to1_c_480_4_alg».proof.Proof.WeightHost
import proofs.«132648_g48387101557188_cont_8to1_c_480_4_alg».proof.Proof.GcnSpec

set_option maxRecDepth 16384

noncomputable section

namespace Cert.KernelIdeal.KernelValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The three argument arrays. -/
abbrev A (c : Dev nD) : S10000x10000.Idx → EReal := m ((c : Thread nD τ).loc main_arg0)
abbrev X (c : Dev nD) : S10000x128.Idx → EReal := m ((c : Thread nD τ).loc main_arg1)
abbrev Wt (c : Dev nD) : S2x4x128x32.Idx → EReal := m ((c : Thread nD τ).loc main_arg2)

/-! ## After the degree pass -/
theorem v1_adj (c : Dev nD) : (V1 m ρ c main_v0_2 : S10000x10000.Idx → EReal) = A m c :=
  (W1_arr m ρ c 4).trans (DegValue.finalB (V0 m ρ) c)
theorem v1_d (c : Dev nD) : (V1 m ρ c main_v0_0 : S10000x1.Idx → EReal) = DegValue.GD (A m c) :=
  (W1_arr m ρ c 2).trans (DegValue.finalD (V0 m ρ) c)
theorem v1_y (c : Dev nD) : (V1 m ρ c main_v0_1 : S10000x128.Idx → EReal) = DegValue.GY (A m c) (X m c) :=
  (W1_arr m ρ c 3).trans (DegValue.finalY (V0 m ρ) c)
theorem v1_w (c : Dev nD) : (V1 m ρ c main_arg2 : S2x4x128x32.Idx → EReal) = Wt m c :=
  W1_of_ne m ρ c main_arg2 (by decide)

/-! ## After the first host stretch -/
theorem v2_of (c : Dev nD) (b : Ref sig .tc) (h : b ∉ hostOps1_W) : V2 m ρ c b = V1 m ρ c b :=
  StableHlo.after_of_writes_sub hostOps1 _ hostOps1_writes h
theorem v2_w (c : Dev nD) : (V2 m ρ c main_v4 : S128x128.Idx → EReal) = fun i => Cert.Gcn.stack (Wt m c) 0 (i 0) (i 1) := by
  funext i
  refine (congrArg (V2 m ρ c main_v4 : S128x128.Idx → EReal) (eq_ix2 i)).trans ?_
  refine (WeightHost.after_hostOps1_v4_apply (W1 m ρ c) (i 0) (i 1)).trans ?_
  exact congrFun (v1_w m ρ c) _

/-! ## After the first layer pass -/
/-- y₂ as an array. -/
def Y2 (c : Dev nD) : S10000x128.Idx → EReal :=
  LayerOneValue.GO (A m c) (DegValue.GY (A m c) (X m c)) (DegValue.GD (A m c)) (fun i => Cert.Gcn.stack (Wt m c) 0 (i 0) (i 1))
theorem v3_y2 (c : Dev nD) : (V3 m ρ c main_v5 : S10000x128.Idx → EReal) = Y2 m c := by
  rw [W3_out, LayerOneValue.final (V2 m ρ) c, v2_of m ρ c main_v0_2 (by decide), v2_of m ρ c main_v0_1 (by decide),
    v2_of m ρ c main_v0_0 (by decide), v1_adj, v1_y, v1_d, v2_w]
  rfl
theorem v3_of (c : Dev nD) (b : Ref sig .tc) (h5 : b ≠ main_v5) (h : b ∉ hostOps1_W) : V3 m ρ c b = V1 m ρ c b :=
  (W3_of_ne m ρ c b h5).trans (v2_of m ρ c b h)

/-! ## After the second host stretch -/
theorem v4_of (c : Dev nD) (b : Ref sig .tc) (h : b ∉ hostOps2_W) : V4 m ρ c b = V3 m ρ c b :=
  StableHlo.after_of_writes_sub hostOps2 _ hostOps2_writes h
theorem v4_w (c : Dev nD) : (V4 m ρ c main_v9 : S128x128.Idx → EReal) = fun i => Cert.Gcn.stack (Wt m c) 1 (i 0) (i 1) := by
  funext i
  refine (congrArg (V4 m ρ c main_v9 : S128x128.Idx → EReal) (eq_ix2 i)).trans ?_
  refine (WeightHost.after_hostOps2_v9_apply (W3 m ρ c) (i 0) (i 1)).trans ?_
  exact congrFun ((v3_of m ρ c main_arg2 (by decide) (by decide)).trans (v1_w m ρ c)) _

/-! ## The result -/
theorem result_eq (c : Dev nD) :
    ((LayerTwo.dat (V4 m ρ) c).arrAt 5 cfg2.N : S10000x128.Idx → EReal) = Cert.Gcn.kernelOut (A m c) (X m c) (Wt m c) := by
  rw [LayerTwoValue.final (V4 m ρ) c, v4_of m ρ c main_v0_2 (by decide), v4_of m ρ c main_v5 (by decide), v4_of m ρ c main_v0_0 (by decide),
    v3_of m ρ c main_v0_2 (by decide) (by decide), v3_of m ρ c main_v0_0 (by decide) (by decide), v3_y2, v1_adj, v1_d, v4_w]
  rfl

/-- THE KERNEL'S RUN, READ: the result array at the row-scaled network of the arguments, the arguments unchanged. -/
theorem run : θ_run defs (onTc (τ := τ) (main (F := Ideal))) ⟨m, fun _ => 0, ρ⟩ (fun r => ∀ c : Dev nD,
      r.2.mem ((c.tc : Thread nD τ).loc main_v10) = Cert.Gcn.kernelOut (A m c) (X m c) (Wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Run.run (F := Ideal) m ρ)

end Cert.KernelIdeal.KernelValue

end
-- ==== Proof.RefValue.lean ====
/-
  The reference program's result, entry by entry, is the normalised form of the two-layer graph convolution.

  Stage by stage, each read at an index built from its coordinates:
  * the identity matrix: a comparison of the two coordinates' 32-bit words, converted to a float, is `1` on the
    diagonal and `0` off it (two words of numbers below 10000 are equal exactly when the numbers are);
  * `Â = A + I`, its row sums (a sum from the zero initial value), their inverse square roots, and the normalised
    matrix `(Â i j · r i) · r j` through the two broadcasts (a column and a row of `r`);
  * one layer: the aggregation `Σ_j Ânorm i j · x j k`, then for each of the four heads the product with that head's
    [128, 32] slice of the weights, and the four [10000, 32] results joined along the second axis: column `c` of
    the joined array is column `c % 32` of head `c / 32`, which is how the stacked weights are indexed;
  * the clip at zero between the layers (a maximum with a broadcast zero).
-/
import proofs.«132648_g48387101557188_cont_8to1_c_480_4_alg».proof.Proof.RefReadP
import proofs.«132648_g48387101557188_cont_8to1_c_480_4_alg».proof.Proof.GcnSpec

noncomputable section

namespace Cert.ReferenceIdeal.RefValue

open Cert.ReferenceIdeal Cert.ReferenceIdeal.ReadP Cert.Gcn Idealize.ShloMosaic Idealize.ShloMosaic.ValueIdx

abbrev TA := (⟨S10000x10000, .f32⟩ : BufTy).Contents (Elt Ideal)
abbrev TX := (⟨S10000x128, .f32⟩ : BufTy).Contents (Elt Ideal)
abbrev TW := (⟨S2x4x128x32, .f32⟩ : BufTy).Contents (Elt Ideal)

/-- Two 32-bit words of numbers below 10000 are equal exactly when the numbers are. -/
theorem word_eq_iff (i j : Fin 10000) : (BitVec.ofNat 32 i.val = BitVec.ofNat 32 j.val) ↔ i = j := by
  constructor
  · intro h
    have := congrArg BitVec.toNat h
    simp only [BitVec.toNat_ofNat] at this
    have hi := i.isLt; have hj := j.isLt
    rw [Nat.mod_eq_of_lt (by omega), Nat.mod_eq_of_lt (by omega)] at this
    exact Fin.ext this
  · rintro rfl; rfl

/-- The identity matrix's entry. -/
theorem eye_apply (i j : Fin 10000) :
    val_main_v5 (F := Ideal) (ix2 i j) = (if i = j then 1 else 0 : EReal) := by
  rw [val_main_v5_apply, val_main_v4_apply, val_main_v3_apply, val_main_v0_apply, val_main_v2_apply, val_main_c_apply,
    val_main_v1_apply]
  show (((IntOp.cmpi .eq (IntOp.addi (BitVec.ofNat 32 i.val) 0#32) (BitVec.ofNat 32 j.val)).toNat : ℝ) : EReal) = _
  simp only [IntOp.cmpi, IntOp.addi, BitVec.add_zero]
  by_cases h : i = j
  · subst h; simp
  · have : ¬ (BitVec.ofNat 32 i.val = BitVec.ofNat 32 j.val) := fun e => h ((word_eq_iff i j).1 e)
    simp [h, this]

theorem hat_apply (a : TA) (i j : Fin 10000) :
    val_main_v6 (F := Ideal) a (ix2 i j) = hat (mat a) i j := by
  rw [val_main_v6_apply, eye_apply]; rfl

theorem deg_apply (a : TA) (i : Fin 10000) :
    val_main_v7 (F := Ideal) a (ix1 i) = ∑ j, hat (mat a) i j := by
  rw [val_main_v7_apply, val_main_cst_apply, Ideal.ofBits_def, Ideal.ofBits_zero_f32, zero_add]
  refine Finset.sum_congr rfl fun k _ => ?_
  have e : idx_main_v7 (ix1 i) k = ix2 i k := funext fun a => by
    match a with
    | ⟨0, _⟩ => rfl
    | ⟨1, _⟩ => rfl
  rw [e, hat_apply]

theorem r_apply (a : TA) (i : Fin 10000) :
    val_main_v8 (F := Ideal) a (ix1 i) = dR (mat a) i := by
  rw [val_main_v8_apply, deg_apply, Ideal.hostUnary_rsqrt_def]; rfl

theorem norm_apply (a : TA) (i j : Fin 10000) :
    val_main_v14 (F := Ideal) a (ix2 i j) = hat (mat a) i j * dR (mat a) i * dR (mat a) j := by
  have e1 : idx_main_v9 (idx_main_v10 (ix2 i j)) = ix1 i := funext fun a => by
    match a with
    | ⟨0, _⟩ => rfl
  have e2 : idx_main_v12 (idx_main_v13 (ix2 i j)) = ix1 j := funext fun a => by
    match a with
    | ⟨0, _⟩ => rfl
  rw [val_main_v14_apply, val_main_v11_apply, val_main_v10_apply, val_main_v9_apply, val_main_v13_apply,
    val_main_v12_apply, e1, e2, r_apply, r_apply, hat_apply, Ideal.mulf_def, Ideal.mulf_def]

/-- The first aggregation: the normalised matrix times the features. -/
theorem agg0_apply (a : TA) (x : TX) (i : Fin 10000) (k : Fin 128) :
    val_main_v15 (F := Ideal) a x (ix2 i k) = aggR (mat a) (mat x) i k := by
  rw [val_main_v15_apply]
  refine Finset.sum_congr rfl fun j _ => ?_
  have el : lidx_main_v15 (ix2 i k) j = ix2 i j := funext fun a => by
    match a with
    | ⟨0, _⟩ => rfl
    | ⟨1, _⟩ => rfl
  have er : ridx_main_v15 (ix2 i k) j = ix2 j k := funext fun a => by
    match a with
    | ⟨0, _⟩ => rfl
    | ⟨1, _⟩ => rfl
  rw [el, er, norm_apply]; rfl

theorem w_0_0_apply (w : TW) (k : Fin 128) (c : Fin 32) :
    val_main_v17 (F := Ideal) w (ix2 k c) = w (ix4 (0 : Fin 2) (0 : Fin 4) k c) := by
  have e : idx_main_v16 (idx_main_v17 (ix2 k c)) = ix4 (0 : Fin 2) (0 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v17_apply, val_main_v16_apply, e]

theorem head_0_0_apply (a : TA) (x : TX) (w : TW) (i : Fin 10000) (c : Fin 32) :
    val_main_v18 (F := Ideal) a x w (ix2 i c) = ∑ k : Fin 128, aggR (mat a) (mat x) i k * w (ix4 (0 : Fin 2) (0 : Fin 4) k c) := by
  rw [val_main_v18_apply]
  refine Finset.sum_congr rfl fun k _ => ?_
  have el : lidx_main_v18 (ix2 i c) k = ix2 i k := funext fun a => by
    match a with
    | ⟨0, _⟩ => rfl
    | ⟨1, _⟩ => rfl
  have er : ridx_main_v18 (ix2 i c) k = ix2 k c := funext fun a => by
    match a with
    | ⟨0, _⟩ => rfl
    | ⟨1, _⟩ => rfl
  rw [el, er, agg0_apply, w_0_0_apply]

theorem w_0_1_apply (w : TW) (k : Fin 128) (c : Fin 32) :
    val_main_v20 (F := Ideal) w (ix2 k c) = w (ix4 (0 : Fin 2) (1 : Fin 4) k c) := by
  have e : idx_main_v19 (idx_main_v20 (ix2 k c)) = ix4 (0 : Fin 2) (1 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v20_apply, val_main_v19_apply, e]

theorem head_0_1_apply (a : TA) (x : TX) (w : TW) (i : Fin 10000) (c : Fin 32) :
    val_main_v21 (F := Ideal) a x w (ix2 i c) = ∑ k : Fin 128, aggR (mat a) (mat x) i k * w (ix4 (0 : Fin 2) (1 : Fin 4) k c) := by
  rw [val_main_v21_apply]
  refine Finset.sum_congr rfl fun k _ => ?_
  have el : lidx_main_v21 (ix2 i c) k = ix2 i k := funext fun a => by
    match a with
    | ⟨0, _⟩ => rfl
    | ⟨1, _⟩ => rfl
  have er : ridx_main_v21 (ix2 i c) k = ix2 k c := funext fun a => by
    match a with
    | ⟨0, _⟩ => rfl
    | ⟨1, _⟩ => rfl
  rw [el, er, agg0_apply, w_0_1_apply]

theorem w_0_2_apply (w : TW) (k : Fin 128) (c : Fin 32) :
    val_main_v23 (F := Ideal) w (ix2 k c) = w (ix4 (0 : Fin 2) (2 : Fin 4) k c) := by
  have e : idx_main_v22 (idx_main_v23 (ix2 k c)) = ix4 (0 : Fin 2) (2 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v23_apply, val_main_v22_apply, e]

theorem head_0_2_apply (a : TA) (x : TX) (w : TW) (i : Fin 10000) (c : Fin 32) :
    val_main_v24 (F := Ideal) a x w (ix2 i c) = ∑ k : Fin 128, aggR (mat a) (mat x) i k * w (ix4 (0 : Fin 2) (2 : Fin 4) k c) := by
  rw [val_main_v24_apply]
  refine Finset.sum_congr rfl fun k _ => ?_
  have el : lidx_main_v24 (ix2 i c) k = ix2 i k := funext fun a => by
    match a with
    | ⟨0, _⟩ => rfl
    | ⟨1, _⟩ => rfl
  have er : ridx_main_v24 (ix2 i c) k = ix2 k c := funext fun a => by
    match a with
    | ⟨0, _⟩ => rfl
    | ⟨1, _⟩ => rfl
  rw [el, er, agg0_apply, w_0_2_apply]

theorem w_0_3_apply (w : TW) (k : Fin 128) (c : Fin 32) :
    val_main_v26 (F := Ideal) w (ix2 k c) = w (ix4 (0 : Fin 2) (3 : Fin 4) k c) := by
  have e : idx_main_v25 (idx_main_v26 (ix2 k c)) = ix4 (0 : Fin 2) (3 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v26_apply, val_main_v25_apply, e]

theorem head_0_3_apply (a : TA) (x : TX) (w : TW) (i : Fin 10000) (c : Fin 32) :
    val_main_v27 (F := Ideal) a x w (ix2 i c) = ∑ k : Fin 128, aggR (mat a) (mat x) i k * w (ix4 (0 : Fin 2) (3 : Fin 4) k c) := by
  rw [val_main_v27_apply]
  refine Finset.sum_congr rfl fun k _ => ?_
  have el : lidx_main_v27 (ix2 i c) k = ix2 i k := funext fun a => by
    match a with
    | ⟨0, _⟩ => rfl
    | ⟨1, _⟩ => rfl
  have er : ridx_main_v27 (ix2 i c) k = ix2 k c := funext fun a => by
    match a with
    | ⟨0, _⟩ => rfl
    | ⟨1, _⟩ => rfl
  rw [el, er, agg0_apply, w_0_3_apply]

/-- Four [10000,32] pieces joined along the second axis, read at (i, c): piece c / 32 at (i, c % 32). -/
theorem concat4_apply {α : Type} (f0 f1 f2 f3 : S10000x32.Idx → α)
    (h : Shape.Concatenates ([(⟨S10000x32, f0⟩ : (s : Shape) × (s.Idx → α)), ⟨S10000x32, f1⟩, ⟨S10000x32, f2⟩,
      ⟨S10000x32, f3⟩].map (·.1)) S10000x128 1)
    (g : Fin 4 → Fin 10000 → Fin 32 → α)
    (h0 : ∀ i c, f0 (ix2 i c) = g 0 i c) (h1 : ∀ i c, f1 (ix2 i c) = g 1 i c)
    (h2 : ∀ i c, f2 (ix2 i c) = g 2 i c) (h3 : ∀ i c, f3 (ix2 i c) = g 3 i c)
    (i : Fin 10000) (c : Fin 128) :
    concatenate S10000x128 1 [⟨S10000x32, f0⟩, ⟨S10000x32, f1⟩, ⟨S10000x32, f2⟩, ⟨S10000x32, f3⟩] h (ix2 i c)
      = g ⟨c.val / 32, by omega⟩ i ⟨c.val % 32, Nat.mod_lt _ (by norm_num)⟩ := by
  have hc := c.isLt
  have hq : ∀ n : Fin 4, c.val / 32 = n.val → (⟨c.val / 32, by omega⟩ : Fin 4) = n := fun n e => Fin.ext e
  have hi : ∀ b : Fin S10000x32.rank, b.cast (rfl : S10000x32.rank = S10000x128.rank) ≠ 1 →
      ((ix2 i (⟨c.val % 32, Nat.mod_lt _ (by norm_num)⟩ : Fin 32) : S10000x32.Idx) b).val
        = ((ix2 i c : S10000x128.Idx) (b.cast rfl)).val := fun b hb => by
    match b with
    | ⟨0, _⟩ => rfl
    | ⟨1, _⟩ => exact absurd rfl hb
  obtain e | e | e | e : c.val / 32 = 0 ∨ c.val / 32 = 1 ∨ c.val / 32 = 2 ∨ c.val / 32 = 3 := by omega
  · rw [hq 0 e, ← h0]
    exact concatenate_apply_piece _ _ h (ix2 i c) 0 (by simp) S10000x32 f0 rfl rfl 0 rfl _ hi
      (by show 0 + c.val % 32 = c.val; omega)
  · rw [hq 1 e, ← h1]
    exact concatenate_apply_piece _ _ h (ix2 i c) 1 (by simp) S10000x32 f1 rfl rfl 32 rfl _ hi
      (by show 32 + c.val % 32 = c.val; omega)
  · rw [hq 2 e, ← h2]
    exact concatenate_apply_piece _ _ h (ix2 i c) 2 (by simp) S10000x32 f2 rfl rfl 64 rfl _ hi
      (by show 64 + c.val % 32 = c.val; omega)
  · rw [hq 3 e, ← h3]
    exact concatenate_apply_piece _ _ h (ix2 i c) 3 (by simp) S10000x32 f3 rfl rfl 96 rfl _ hi
      (by show 96 + c.val % 32 = c.val; omega)

/-- The first layer before the clip: the aggregated features times the stacked first-layer weights. -/
theorem lin0_apply (a : TA) (x : TX) (w : TW) (i : Fin 10000) (c : Fin 128) :
    val_main_v28 (F := Ideal) a x w (ix2 i c) = lin (aggR (mat a) (mat x)) (stack w 0) i c := by
  unfold val_main_v28
  exact concat4_apply _ _ _ _ _
    (fun n i c' => ∑ k : Fin 128, aggR (mat a) (mat x) i k * w (ix4 (0 : Fin 2) n k c'))
    (head_0_0_apply a x w) (head_0_1_apply a x w) (head_0_2_apply a x w) (head_0_3_apply a x w) i c

/-- The hidden features: the first layer clipped at zero. -/
def hid (a : TA) (x : TX) (w : TW) (i : Fin 10000) (c : Fin 128) : EReal :=
  max (lin (aggR (mat a) (mat x)) (stack w 0) i c) 0

theorem relu_apply (a : TA) (x : TX) (w : TW) (i : Fin 10000) (c : Fin 128) :
    val_main_v29 (F := Ideal) a x w (ix2 i c) = hid a x w i c := by
  rw [val_main_v29_apply, lin0_apply, val_main_call0_v0_apply, val_main_call0_cst_apply, Ideal.maximumf_def,
    Ideal.ofBits_def, Ideal.ofBits_zero_f32]; rfl

/-- The second aggregation: the normalised matrix times the hidden features. -/
theorem agg1_apply (a : TA) (x : TX) (w : TW) (i : Fin 10000) (k : Fin 128) :
    val_main_v30 (F := Ideal) a x w (ix2 i k) = aggR (mat a) (hid a x w) i k := by
  rw [val_main_v30_apply]
  refine Finset.sum_congr rfl fun j _ => ?_
  have el : lidx_main_v30 (ix2 i k) j = ix2 i j := funext fun a => by
    match a with
    | ⟨0, _⟩ => rfl
    | ⟨1, _⟩ => rfl
  have er : ridx_main_v30 (ix2 i k) j = ix2 j k := funext fun a => by
    match a with
    | ⟨0, _⟩ => rfl
    | ⟨1, _⟩ => rfl
  rw [el, er, norm_apply, relu_apply]

theorem w_1_0_apply (w : TW) (k : Fin 128) (c : Fin 32) :
    val_main_v32 (F := Ideal) w (ix2 k c) = w (ix4 (1 : Fin 2) (0 : Fin 4) k c) := by
  have e : idx_main_v31 (idx_main_v32 (ix2 k c)) = ix4 (1 : Fin 2) (0 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v32_apply, val_main_v31_apply, e]

theorem head_1_0_apply (a : TA) (x : TX) (w : TW) (i : Fin 10000) (c : Fin 32) :
    val_main_v33 (F := Ideal) a x w (ix2 i c) = ∑ k : Fin 128, aggR (mat a) (hid a x w) i k * w (ix4 (1 : Fin 2) (0 : Fin 4) k c) := by
  rw [val_main_v33_apply]
  refine Finset.sum_congr rfl fun k _ => ?_
  have el : lidx_main_v33 (ix2 i c) k = ix2 i k := funext fun a => by
    match a with
    | ⟨0, _⟩ => rfl
    | ⟨1, _⟩ => rfl
  have er : ridx_main_v33 (ix2 i c) k = ix2 k c := funext fun a => by
    match a with
    | ⟨0, _⟩ => rfl
    | ⟨1, _⟩ => rfl
  rw [el, er, agg1_apply, w_1_0_apply]

theorem w_1_1_apply (w : TW) (k : Fin 128) (c : Fin 32) :
    val_main_v35 (F := Ideal) w (ix2 k c) = w (ix4 (1 : Fin 2) (1 : Fin 4) k c) := by
  have e : idx_main_v34 (idx_main_v35 (ix2 k c)) = ix4 (1 : Fin 2) (1 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v35_apply, val_main_v34_apply, e]

theorem head_1_1_apply (a : TA) (x : TX) (w : TW) (i : Fin 10000) (c : Fin 32) :
    val_main_v36 (F := Ideal) a x w (ix2 i c) = ∑ k : Fin 128, aggR (mat a) (hid a x w) i k * w (ix4 (1 : Fin 2) (1 : Fin 4) k c) := by
  rw [val_main_v36_apply]
  refine Finset.sum_congr rfl fun k _ => ?_
  have el : lidx_main_v36 (ix2 i c) k = ix2 i k := funext fun a => by
    match a with
    | ⟨0, _⟩ => rfl
    | ⟨1, _⟩ => rfl
  have er : ridx_main_v36 (ix2 i c) k = ix2 k c := funext fun a => by
    match a with
    | ⟨0, _⟩ => rfl
    | ⟨1, _⟩ => rfl
  rw [el, er, agg1_apply, w_1_1_apply]

theorem w_1_2_apply (w : TW) (k : Fin 128) (c : Fin 32) :
    val_main_v38 (F := Ideal) w (ix2 k c) = w (ix4 (1 : Fin 2) (2 : Fin 4) k c) := by
  have e : idx_main_v37 (idx_main_v38 (ix2 k c)) = ix4 (1 : Fin 2) (2 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v38_apply, val_main_v37_apply, e]

theorem head_1_2_apply (a : TA) (x : TX) (w : TW) (i : Fin 10000) (c : Fin 32) :
    val_main_v39 (F := Ideal) a x w (ix2 i c) = ∑ k : Fin 128, aggR (mat a) (hid a x w) i k * w (ix4 (1 : Fin 2) (2 : Fin 4) k c) := by
  rw [val_main_v39_apply]
  refine Finset.sum_congr rfl fun k _ => ?_
  have el : lidx_main_v39 (ix2 i c) k = ix2 i k := funext fun a => by
    match a with
    | ⟨0, _⟩ => rfl
    | ⟨1, _⟩ => rfl
  have er : ridx_main_v39 (ix2 i c) k = ix2 k c := funext fun a => by
    match a with
    | ⟨0, _⟩ => rfl
    | ⟨1, _⟩ => rfl
  rw [el, er, agg1_apply, w_1_2_apply]

theorem w_1_3_apply (w : TW) (k : Fin 128) (c : Fin 32) :
    val_main_v41 (F := Ideal) w (ix2 k c) = w (ix4 (1 : Fin 2) (3 : Fin 4) k c) := by
  have e : idx_main_v40 (idx_main_v41 (ix2 k c)) = ix4 (1 : Fin 2) (3 : Fin 4) k c := funext fun a => Fin.ext (by
    have hk := k.isLt; have hc := c.isLt
    match a with
    | ⟨0, _⟩ => rfl
    | ⟨1, _⟩ => rfl
    | ⟨2, _⟩ => show (k.val * 32 + c.val) / 32 % 128 = k.val; omega
    | ⟨3, _⟩ => show (k.val * 32 + c.val) % 32 = c.val; omega)
  rw [val_main_v41_apply, val_main_v40_apply, e]

theorem head_1_3_apply (a : TA) (x : TX) (w : TW) (i : Fin 10000) (c : Fin 32) :
    val_main_v42 (F := Ideal) a x w (ix2 i c) = ∑ k : Fin 128, aggR (mat a) (hid a x w) i k * w (ix4 (1 : Fin 2) (3 : Fin 4) k c) := by
  rw [val_main_v42_apply]
  refine Finset.sum_congr rfl fun k _ => ?_
  have el : lidx_main_v42 (ix2 i c) k = ix2 i k := funext fun a => by
    match a with
    | ⟨0, _⟩ => rfl
    | ⟨1, _⟩ => rfl
  have er : ridx_main_v42 (ix2 i c) k = ix2 k c := funext fun a => by
    match a with
    | ⟨0, _⟩ => rfl
    | ⟨1, _⟩ => rfl
  rw [el, er, agg1_apply, w_1_3_apply]

/-- The reference's result is the normalised two-layer network of its three arguments, entry by entry. -/
theorem ref_value (a : TA) (x : TX) (w : TW) : val_main_v43 (F := Ideal) a x w = refOut a x w := by
  funext o
  obtain ⟨i, c, rfl⟩ : ∃ (i : Fin 10000) (c : Fin 128), o = ix2 i c := ⟨o 0, o 1, eq_ix2 o⟩
  unfold val_main_v43
  exact concat4_apply _ _ _ _ _
    (fun n i c' => ∑ k : Fin 128, aggR (mat a) (hid a x w) i k * w (ix4 (1 : Fin 2) n k c'))
    (head_1_0_apply a x w) (head_1_1_apply a x w) (head_1_2_apply a x w) (head_1_3_apply a x w) i c

end Cert.ReferenceIdeal.RefValue

end
-- ==== Proof.RefRun.lean ====
/-
  The reference program's run, read back: every execution ends with the result buffer at the normalised two-layer
  network of the three arguments, and the arguments unchanged.

  A straight line of host operations ends with every buffer at the fold of the operations' results over the launch
  contents. The fold is read back in stretches, each over an ARBITRARY valuation of the buffers, so that no stretch
  carries the terms of the ones before it: the normalised matrix from the adjacency weights; the first layer's four
  per-head products, then their join along the second axis; the clip at zero; the second layer's four products, then
  their join. A join's operands are read at their own buffers (operand `k` of the literal family of four is buffer `k`).
  Each stretch also leaves the buffers it does not write as they were, which carries the normalised matrix and the
  three arguments across. The fold of a concatenation of lists is the fold of the second after the first, which
  chains the stretches; the stages' value is the specification's by the entry-by-entry theorem.
-/
import proofs.«132648_g48387101557188_cont_8to1_c_480_4_alg».proof.Proof.RefRunP
import proofs.«132648_g48387101557188_cont_8to1_c_480_4_alg».proof.Proof.RefReadP
import proofs.«132648_g48387101557188_cont_8to1_c_480_4_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lines of operations one after the other is running their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The operations that build the normalised matrix from the adjacency weights. -/
abbrev opsA : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg0 main_v5 main_v6 (addf : (⟨S10000x10000, .f32⟩ : BufTy).Contents (Elt F) → (⟨S10000x10000, .f32⟩ : BufTy).Contents (Elt F) → (⟨S10000x10000, .f32⟩ : BufTy).Contents (Elt F)),
    nullary main_cst (constant S_ .f32 0x00000000#32),
    binary main_v6 main_cst main_v7 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v7 main_v8 (Host.rsqrt : (⟨S10000, .f32⟩ : BufTy).Contents (Elt F) → (⟨S10000, .f32⟩ : BufTy).Contents (Elt F)),
    unary main_v8 main_v9 (broadcastInDim S10000x1 ![0] bcast_S10000_S10000x1_0 : (⟨S10000, .f32⟩ : BufTy).Contents (Elt F) → (⟨S10000x1, .f32⟩ : BufTy).Contents (Elt F)),
    unary main_v9 main_v10 (broadcastInDim S10000x10000 ![0, 1] bcast_S10000x1_S10000x10000_0_1 : (⟨S10000x1, .f32⟩ : BufTy).Contents (Elt F) → (⟨S10000x10000, .f32⟩ : BufTy).Contents (Elt F)),
    binary main_v6 main_v10 main_v11 (mulf : (⟨S10000x10000, .f32⟩ : BufTy).Contents (Elt F) → (⟨S10000x10000, .f32⟩ : BufTy).Contents (Elt F) → (⟨S10000x10000, .f32⟩ : BufTy).Contents (Elt F)),
    unary main_v8 main_v12 (broadcastInDim S1x10000 ![1] bcast_S10000_S1x10000_1 : (⟨S10000, .f32⟩ : BufTy).Contents (Elt F) → (⟨S1x10000, .f32⟩ : BufTy).Contents (Elt F)),
    unary main_v12 main_v13 (broadcastInDim S10000x10000 ![0, 1] bcast_S1x10000_S10000x10000_0_1 : (⟨S1x10000, .f32⟩ : BufTy).Contents (Elt F) → (⟨S10000x10000, .f32⟩ : BufTy).Contents (Elt F)),
    binary main_v11 main_v13 main_v14 (mulf : (⟨S10000x10000, .f32⟩ : BufTy).Contents (Elt F) → (⟨S10000x10000, .f32⟩ : BufTy).Contents (Elt F) → (⟨S10000x10000, .f32⟩ : BufTy).Contents (Elt F)) ]

/-- The first layer before the join: one aggregation and four per-head products. -/
abbrev opsB : List (HloOp τ sig (Elt F)) :=
  [ binary main_v14 main_arg1 main_v15 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v16 ((extractStridedSlice S1x1x128x32 ![0, 0, 0, 0] · slices_S2x4x128x32_S1x1x128x32_0_0_0_0) : (⟨S2x4x128x32, .f32⟩ : BufTy).Contents (Elt F) → (⟨S1x1x128x32, .f32⟩ : BufTy).Contents (Elt F)),
    reshape main_v16 main_v17 rfl shapeCasts_S1x1x128x32_S128x32,
    binary main_v15 main_v17 main_v18 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v19 ((extractStridedSlice S1x1x128x32 ![0, 1, 0, 0] · slices_S2x4x128x32_S1x1x128x32_0_1_0_0) : (⟨S2x4x128x32, .f32⟩ : BufTy).Contents (Elt F) → (⟨S1x1x128x32, .f32⟩ : BufTy).Contents (Elt F)),
    reshape main_v19 main_v20 rfl shapeCasts_S1x1x128x32_S128x32,
    binary main_v15 main_v20 main_v21 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v22 ((extractStridedSlice S1x1x128x32 ![0, 2, 0, 0] · slices_S2x4x128x32_S1x1x128x32_0_2_0_0) : (⟨S2x4x128x32, .f32⟩ : BufTy).Contents (Elt F) → (⟨S1x1x128x32, .f32⟩ : BufTy).Contents (Elt F)),
    reshape main_v22 main_v23 rfl shapeCasts_S1x1x128x32_S128x32,
    binary main_v15 main_v23 main_v24 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v25 ((extractStridedSlice S1x1x128x32 ![0, 3, 0, 0] · slices_S2x4x128x32_S1x1x128x32_0_3_0_0) : (⟨S2x4x128x32, .f32⟩ : BufTy).Contents (Elt F) → (⟨S1x1x128x32, .f32⟩ : BufTy).Contents (Elt F)),
    reshape main_v25 main_v26 rfl shapeCasts_S1x1x128x32_S128x32,
    binary main_v15 main_v26 main_v27 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)) ]

/-- The join of the first layer's four per-head results along the second axis. -/
abbrev catB : HloOp τ sig (Elt F) :=
  nary ![main_v18, main_v21, main_v24, main_v27] main_v28 (fun u => concatenate S10000x128 1 [⟨S10000x32, u 0⟩, ⟨S10000x32, u 1⟩, ⟨S10000x32, u 2⟩, ⟨S10000x32, u 3⟩] concatenates_S10000x32_S10000x32_S10000x32_S10000x32_S10000x128_d1)

/-- The clip at zero (the body of the outlined function, at its call). -/
abbrev opsC : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v28) (TRef.of (T := ⟨S10000x128, .f32⟩) main_call0_v0) (TRef.of (T := ⟨S10000x128, .f32⟩) main_v29) maximumf ]

/-- The second layer before the join: one aggregation and four per-head products. -/
abbrev opsD : List (HloOp τ sig (Elt F)) :=
  [ binary main_v14 main_v29 main_v30 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v31 ((extractStridedSlice S1x1x128x32 ![1, 0, 0, 0] · slices_S2x4x128x32_S1x1x128x32_1_0_0_0) : (⟨S2x4x128x32, .f32⟩ : BufTy).Contents (Elt F) → (⟨S1x1x128x32, .f32⟩ : BufTy).Contents (Elt F)),
    reshape main_v31 main_v32 rfl shapeCasts_S1x1x128x32_S128x32,
    binary main_v30 main_v32 main_v33 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v34 ((extractStridedSlice S1x1x128x32 ![1, 1, 0, 0] · slices_S2x4x128x32_S1x1x128x32_1_1_0_0) : (⟨S2x4x128x32, .f32⟩ : BufTy).Contents (Elt F) → (⟨S1x1x128x32, .f32⟩ : BufTy).Contents (Elt F)),
    reshape main_v34 main_v35 rfl shapeCasts_S1x1x128x32_S128x32,
    binary main_v30 main_v35 main_v36 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v37 ((extractStridedSlice S1x1x128x32 ![1, 2, 0, 0] · slices_S2x4x128x32_S1x1x128x32_1_2_0_0) : (⟨S2x4x128x32, .f32⟩ : BufTy).Contents (Elt F) → (⟨S1x1x128x32, .f32⟩ : BufTy).Contents (Elt F)),
    reshape main_v37 main_v38 rfl shapeCasts_S1x1x128x32_S128x32,
    binary main_v30 main_v38 main_v39 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg2 main_v40 ((extractStridedSlice S1x1x128x32 ![1, 3, 0, 0] · slices_S2x4x128x32_S1x1x128x32_1_3_0_0) : (⟨S2x4x128x32, .f32⟩ : BufTy).Contents (Elt F) → (⟨S1x1x128x32, .f32⟩ : BufTy).Contents (Elt F)),
    reshape main_v40 main_v41 rfl shapeCasts_S1x1x128x32_S128x32,
    binary main_v30 main_v41 main_v42 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)) ]

/-- The join of the second layer's four per-head results along the second axis. -/
abbrev catD : HloOp τ sig (Elt F) :=
  nary ![main_v33, main_v36, main_v39, main_v42] main_v43 (fun u => concatenate S10000x128 1 [⟨S10000x32, u 0⟩, ⟨S10000x32, u 1⟩, ⟨S10000x32, u 2⟩, ⟨S10000x32, u 3⟩] concatenates_S10000x32_S10000x32_S10000x32_S10000x32_S10000x128_d1)

set_option maxRecDepth 8192 in
/-- The whole program is these stretches in order. -/
theorem ops_split :
    (ops : List (HloOp τ sig (Elt F))) = opsA ++ ((opsB ++ [catB]) ++ (opsC ++ (opsD ++ [catD]))) := rfl

/-! ## Each stretch over an arbitrary valuation: its result from its inputs, and what it leaves alone -/

set_option maxRecDepth 8192 in
theorem A_v14 (X : Valuation τ sig (Elt F)) :
    after opsA X (Proc.devRef .tc main_v14) = val_main_v14 (F := F) (X (Proc.devRef .tc main_arg0)) := by
  after_results_simp
  rfl

theorem A_arg0 (X : Valuation τ sig (Elt F)) :
    after opsA X (Proc.devRef .tc main_arg0) = X (Proc.devRef .tc main_arg0) := by
  after_results_simp

theorem A_arg1 (X : Valuation τ sig (Elt F)) :
    after opsA X (Proc.devRef .tc main_arg1) = X (Proc.devRef .tc main_arg1) := by
  after_results_simp

theorem A_arg2 (X : Valuation τ sig (Elt F)) :
    after opsA X (Proc.devRef .tc main_arg2) = X (Proc.devRef .tc main_arg2) := by
  after_results_simp

set_option maxRecDepth 8192 in
theorem B_v18 (X : Valuation τ sig (Elt F)) (a : (⟨S10000x10000, .f32⟩ : BufTy).Contents (Elt F))
    (hn : X (Proc.devRef .tc main_v14) = val_main_v14 (F := F) a) :
    after opsB X (Proc.devRef .tc main_v18)
      = val_main_v18 (F := F) a (X (Proc.devRef .tc main_arg1)) (X (Proc.devRef .tc main_arg2)) := by
  after_results_simp
  rw [hn]
  rfl

set_option maxRecDepth 8192 in
theorem B_v21 (X : Valuation τ sig (Elt F)) (a : (⟨S10000x10000, .f32⟩ : BufTy).Contents (Elt F))
    (hn : X (Proc.devRef .tc main_v14) = val_main_v14 (F := F) a) :
    after opsB X (Proc.devRef .tc main_v21)
      = val_main_v21 (F := F) a (X (Proc.devRef .tc main_arg1)) (X (Proc.devRef .tc main_arg2)) := by
  after_results_simp
  rw [hn]
  rfl

set_option maxRecDepth 8192 in
theorem B_v24 (X : Valuation τ sig (Elt F)) (a : (⟨S10000x10000, .f32⟩ : BufTy).Contents (Elt F))
    (hn : X (Proc.devRef .tc main_v14) = val_main_v14 (F := F) a) :
    after opsB X (Proc.devRef .tc main_v24)
      = val_main_v24 (F := F) a (X (Proc.devRef .tc main_arg1)) (X (Proc.devRef .tc main_arg2)) := by
  after_results_simp
  rw [hn]
  rfl

set_option maxRecDepth 8192 in
theorem B_v27 (X : Valuation τ sig (Elt F)) (a : (⟨S10000x10000, .f32⟩ : BufTy).Contents (Elt F))
    (hn : X (Proc.devRef .tc main_v14) = val_main_v14 (F := F) a) :
    after opsB X (Proc.devRef .tc main_v27)
      = val_main_v27 (F := F) a (X (Proc.devRef .tc main_arg1)) (X (Proc.devRef .tc main_arg2)) := by
  after_results_simp
  rw [hn]
  rfl

theorem B_v14 (X : Valuation τ sig (Elt F)) :
    after opsB X (Proc.devRef .tc main_v14) = X (Proc.devRef .tc main_v14) := by
  after_results_simp

theorem B_arg0 (X : Valuation τ sig (Elt F)) :
    after opsB X (Proc.devRef .tc main_arg0) = X (Proc.devRef .tc main_arg0) := by
  after_results_simp

theorem B_arg1 (X : Valuation τ sig (Elt F)) :
    after opsB X (Proc.devRef .tc main_arg1) = X (Proc.devRef .tc main_arg1) := by
  after_results_simp

theorem B_arg2 (X : Valuation τ sig (Elt F)) :
    after opsB X (Proc.devRef .tc main_arg2) = X (Proc.devRef .tc main_arg2) := by
  after_results_simp

theorem catB_v28 (X : Valuation τ sig (Elt F)) :
    after [catB] X (Proc.devRef .tc main_v28)
      = concatenate S10000x128 1 [⟨S10000x32, X (Proc.devRef .tc main_v18)⟩, ⟨S10000x32, X (Proc.devRef .tc main_v21)⟩,
          ⟨S10000x32, X (Proc.devRef .tc main_v24)⟩, ⟨S10000x32, X (Proc.devRef .tc main_v27)⟩] concatenates_S10000x32_S10000x32_S10000x32_S10000x32_S10000x128_d1 := by
  simp only [after_cons, after_nil]
  rw [nary_result]
  rfl

theorem catB_v14 (X : Valuation τ sig (Elt F)) :
    after [catB] X (Proc.devRef .tc main_v14) = X (Proc.devRef .tc main_v14) := by
  after_results_simp

theorem catB_arg0 (X : Valuation τ sig (Elt F)) :
    after [catB] X (Proc.devRef .tc main_arg0) = X (Proc.devRef .tc main_arg0) := by
  after_results_simp

theorem catB_arg1 (X : Valuation τ sig (Elt F)) :
    after [catB] X (Proc.devRef .tc main_arg1) = X (Proc.devRef .tc main_arg1) := by
  after_results_simp

theorem catB_arg2 (X : Valuation τ sig (Elt F)) :
    after [catB] X (Proc.devRef .tc main_arg2) = X (Proc.devRef .tc main_arg2) := by
  after_results_simp

theorem BB_v28 (X : Valuation τ sig (Elt F)) (a : (⟨S10000x10000, .f32⟩ : BufTy).Contents (Elt F))
    (hn : X (Proc.devRef .tc main_v14) = val_main_v14 (F := F) a) :
    after (opsB ++ [catB]) X (Proc.devRef .tc main_v28)
      = val_main_v28 (F := F) a (X (Proc.devRef .tc main_arg1)) (X (Proc.devRef .tc main_arg2)) := by
  rw [after_append, catB_v28, B_v18 X a hn, B_v21 X a hn, B_v24 X a hn, B_v27 X a hn]
  rfl

theorem BB_v14 (X : Valuation τ sig (Elt F)) :
    after (opsB ++ [catB]) X (Proc.devRef .tc main_v14) = X (Proc.devRef .tc main_v14) := by
  rw [after_append, catB_v14, B_v14]

theorem BB_arg0 (X : Valuation τ sig (Elt F)) :
    after (opsB ++ [catB]) X (Proc.devRef .tc main_arg0) = X (Proc.devRef .tc main_arg0) := by
  rw [after_append, catB_arg0, B_arg0]

theorem BB_arg1 (X : Valuation τ sig (Elt F)) :
    after (opsB ++ [catB]) X (Proc.devRef .tc main_arg1) = X (Proc.devRef .tc main_arg1) := by
  rw [after_append, catB_arg1, B_arg1]

theorem BB_arg2 (X : Valuation τ sig (Elt F)) :
    after (opsB ++ [catB]) X (Proc.devRef .tc main_arg2) = X (Proc.devRef .tc main_arg2) := by
  rw [after_append, catB_arg2, B_arg2]

set_option maxRecDepth 8192 in
theorem C_v29 (X : Valuation τ sig (Elt F)) (a : (⟨S10000x10000, .f32⟩ : BufTy).Contents (Elt F)) (x : (⟨S10000x128, .f32⟩ : BufTy).Contents (Elt F)) (w : (⟨S2x4x128x32, .f32⟩ : BufTy).Contents (Elt F))
    (h28 : X (Proc.devRef .tc main_v28) = val_main_v28 (F := F) a x w) :
    after opsC X (Proc.devRef .tc main_v29) = val_main_v29 (F := F) a x w := by
  after_results_simp
  rw [h28]
  rfl

theorem C_v14 (X : Valuation τ sig (Elt F)) :
    after opsC X (Proc.devRef .tc main_v14) = X (Proc.devRef .tc main_v14) := by
  after_results_simp

theorem C_arg0 (X : Valuation τ sig (Elt F)) :
    after opsC X (Proc.devRef .tc main_arg0) = X (Proc.devRef .tc main_arg0) := by
  after_results_simp

theorem C_arg1 (X : Valuation τ sig (Elt F)) :
    after opsC X (Proc.devRef .tc main_arg1) = X (Proc.devRef .tc main_arg1) := by
  after_results_simp

theorem C_arg2 (X : Valuation τ sig (Elt F)) :
    after opsC X (Proc.devRef .tc main_arg2) = X (Proc.devRef .tc main_arg2) := by
  after_results_simp

set_option maxRecDepth 8192 in
theorem D_v33 (X : Valuation τ sig (Elt F)) (a : (⟨S10000x10000, .f32⟩ : BufTy).Contents (Elt F)) (x : (⟨S10000x128, .f32⟩ : BufTy).Contents (Elt F))
    (hn : X (Proc.devRef .tc main_v14) = val_main_v14 (F := F) a)
    (h29 : X (Proc.devRef .tc main_v29) = val_main_v29 (F := F) a x (X (Proc.devRef .tc main_arg2))) :
    after opsD X (Proc.devRef .tc main_v33) = val_main_v33 (F := F) a x (X (Proc.devRef .tc main_arg2)) := by
  after_results_simp
  rw [hn, h29]
  rfl

set_option maxRecDepth 8192 in
theorem D_v36 (X : Valuation τ sig (Elt F)) (a : (⟨S10000x10000, .f32⟩ : BufTy).Contents (Elt F)) (x : (⟨S10000x128, .f32⟩ : BufTy).Contents (Elt F))
    (hn : X (Proc.devRef .tc main_v14) = val_main_v14 (F := F) a)
    (h29 : X (Proc.devRef .tc main_v29) = val_main_v29 (F := F) a x (X (Proc.devRef .tc main_arg2))) :
    after opsD X (Proc.devRef .tc main_v36) = val_main_v36 (F := F) a x (X (Proc.devRef .tc main_arg2)) := by
  after_results_simp
  rw [hn, h29]
  rfl

set_option maxRecDepth 8192 in
theorem D_v39 (X : Valuation τ sig (Elt F)) (a : (⟨S10000x10000, .f32⟩ : BufTy).Contents (Elt F)) (x : (⟨S10000x128, .f32⟩ : BufTy).Contents (Elt F))
    (hn : X (Proc.devRef .tc main_v14) = val_main_v14 (F := F) a)
    (h29 : X (Proc.devRef .tc main_v29) = val_main_v29 (F := F) a x (X (Proc.devRef .tc main_arg2))) :
    after opsD X (Proc.devRef .tc main_v39) = val_main_v39 (F := F) a x (X (Proc.devRef .tc main_arg2)) := by
  after_results_simp
  rw [hn, h29]
  rfl

set_option maxRecDepth 8192 in
theorem D_v42 (X : Valuation τ sig (Elt F)) (a : (⟨S10000x10000, .f32⟩ : BufTy).Contents (Elt F)) (x : (⟨S10000x128, .f32⟩ : BufTy).Contents (Elt F))
    (hn : X (Proc.devRef .tc main_v14) = val_main_v14 (F := F) a)
    (h29 : X (Proc.devRef .tc main_v29) = val_main_v29 (F := F) a x (X (Proc.devRef .tc main_arg2))) :
    after opsD X (Proc.devRef .tc main_v42) = val_main_v42 (F := F) a x (X (Proc.devRef .tc main_arg2)) := by
  after_results_simp
  rw [hn, h29]
  rfl

theorem D_arg0 (X : Valuation τ sig (Elt F)) :
    after opsD X (Proc.devRef .tc main_arg0) = X (Proc.devRef .tc main_arg0) := by
  after_results_simp

theorem D_arg1 (X : Valuation τ sig (Elt F)) :
    after opsD X (Proc.devRef .tc main_arg1) = X (Proc.devRef .tc main_arg1) := by
  after_results_simp

theorem D_arg2 (X : Valuation τ sig (Elt F)) :
    after opsD X (Proc.devRef .tc main_arg2) = X (Proc.devRef .tc main_arg2) := by
  after_results_simp

theorem catD_v43 (X : Valuation τ sig (Elt F)) :
    after [catD] X (Proc.devRef .tc main_v43)
      = concatenate S10000x128 1 [⟨S10000x32, X (Proc.devRef .tc main_v33)⟩, ⟨S10000x32, X (Proc.devRef .tc main_v36)⟩,
          ⟨S10000x32, X (Proc.devRef .tc main_v39)⟩, ⟨S10000x32, X (Proc.devRef .tc main_v42)⟩] concatenates_S10000x32_S10000x32_S10000x32_S10000x32_S10000x128_d1 := by
  simp only [after_cons, after_nil]
  rw [nary_result]
  rfl

theorem catD_arg0 (X : Valuation τ sig (Elt F)) :
    after [catD] X (Proc.devRef .tc main_arg0) = X (Proc.devRef .tc main_arg0) := by
  after_results_simp

theorem catD_arg1 (X : Valuation τ sig (Elt F)) :
    after [catD] X (Proc.devRef .tc main_arg1) = X (Proc.devRef .tc main_arg1) := by
  after_results_simp

theorem catD_arg2 (X : Valuation τ sig (Elt F)) :
    after [catD] X (Proc.devRef .tc main_arg2) = X (Proc.devRef .tc main_arg2) := by
  after_results_simp

theorem DD_v43 (X : Valuation τ sig (Elt F)) (a : (⟨S10000x10000, .f32⟩ : BufTy).Contents (Elt F)) (x : (⟨S10000x128, .f32⟩ : BufTy).Contents (Elt F))
    (hn : X (Proc.devRef .tc main_v14) = val_main_v14 (F := F) a)
    (h29 : X (Proc.devRef .tc main_v29) = val_main_v29 (F := F) a x (X (Proc.devRef .tc main_arg2))) :
    after (opsD ++ [catD]) X (Proc.devRef .tc main_v43) = val_main_v43 (F := F) a x (X (Proc.devRef .tc main_arg2)) := by
  rw [after_append, catD_v43, D_v33 X a x hn h29, D_v36 X a x hn h29, D_v39 X a x hn h29, D_v42 X a x hn h29]
  rfl

theorem DD_arg0 (X : Valuation τ sig (Elt F)) :
    after (opsD ++ [catD]) X (Proc.devRef .tc main_arg0) = X (Proc.devRef .tc main_arg0) := by
  rw [after_append, catD_arg0, D_arg0]

theorem DD_arg1 (X : Valuation τ sig (Elt F)) :
    after (opsD ++ [catD]) X (Proc.devRef .tc main_arg1) = X (Proc.devRef .tc main_arg1) := by
  rw [after_append, catD_arg1, D_arg1]

theorem DD_arg2 (X : Valuation τ sig (Elt F)) :
    after (opsD ++ [catD]) X (Proc.devRef .tc main_arg2) = X (Proc.devRef .tc main_arg2) := by
  rw [after_append, catD_arg2, D_arg2]

/-! ## The whole program read back -/

/-- From any valuation, the program leaves its result buffer at the last stage of the three arguments. -/
theorem after_ops_v43 (V : Valuation τ sig (Elt F)) :
    after ops V (Proc.devRef .tc main_v43)
      = val_main_v43 (F := F) (V (Proc.devRef .tc main_arg0)) (V (Proc.devRef .tc main_arg1)) (V (Proc.devRef .tc main_arg2)) := by
  rw [ops_split, after_append, after_append, after_append]
  have h2 : after opsC (after (opsB ++ [catB]) (after opsA V)) (Proc.devRef .tc main_arg2) = V (Proc.devRef .tc main_arg2) := by
    rw [C_arg2, BB_arg2, A_arg2]
  have h28 := BB_v28 (after opsA V) (V (Proc.devRef .tc main_arg0)) (A_v14 V)
  rw [A_arg1, A_arg2] at h28
  have h29 := C_v29 (after (opsB ++ [catB]) (after opsA V)) _ _ _ h28
  have hn : after opsC (after (opsB ++ [catB]) (after opsA V)) (Proc.devRef .tc main_v14)
      = val_main_v14 (F := F) (V (Proc.devRef .tc main_arg0)) := by
    rw [C_v14, BB_v14, A_v14]
  have := DD_v43 (after opsC (after (opsB ++ [catB]) (after opsA V))) (V (Proc.devRef .tc main_arg0))
    (V (Proc.devRef .tc main_arg1)) hn (by rw [h2]; exact h29)
  rw [h2] at this
  exact this

/-- The program writes none of its three arguments. -/
theorem after_ops_arg0 (V : Valuation τ sig (Elt F)) :
    after ops V (Proc.devRef .tc main_arg0) = V (Proc.devRef .tc main_arg0) := by
  rw [ops_split, after_append, after_append, after_append, DD_arg0, C_arg0, BB_arg0, A_arg0]
theorem after_ops_arg1 (V : Valuation τ sig (Elt F)) :
    after ops V (Proc.devRef .tc main_arg1) = V (Proc.devRef .tc main_arg1) := by
  rw [ops_split, after_append, after_append, after_append, DD_arg1, C_arg1, BB_arg1, A_arg1]
theorem after_ops_arg2 (V : Valuation τ sig (Elt F)) :
    after ops V (Proc.devRef .tc main_arg2) = V (Proc.devRef .tc main_arg2) := by
  rw [ops_split, after_append, after_append, after_append, DD_arg2, C_arg2, BB_arg2, A_arg2]

/-- On every device, from any memory with zero counters: every weakly fair execution of the reference terminates with
    its result buffer at the normalised two-layer network of the three arguments' launch contents, the arguments
    unchanged. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = Cert.Gcn.refOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v43).trans ((after_ops_v43 (launchContents m c)).trans (Cert.ReferenceIdeal.RefValue.ref_value _ _ _)),
       (h c main_arg0).trans (after_ops_arg0 (launchContents m c)),
       (h c main_arg1).trans (after_ops_arg1 (launchContents m c)),
       (h c main_arg2).trans (after_ops_arg2 (launchContents m c))⟩)
    (run_seq scopedRefs_eq scopedSems_eq defs main (fun _ => ops) main_eq (fun _ => ops_sub) m ρ)

end Cert.ReferenceIdeal.RefRun

end
-- ==== Proof.GcnAlgebra.lean ====
/-
  The two ways of writing the two-layer normalised graph convolution agree, for real entries and positive degrees.

  Everything is finite, so the proof moves to the real numbers: every quantity on either side is exhibited as the
  coercion of a real expression (a finite sum of reals is a real, a product of reals is a real, the maximum of a real
  and zero is a real, and the reciprocal square root of a positive real is a real). Over the reals the identity is
  plain algebra: distribute the factor `d i` over the finite sum and split off the diagonal term,

    d i · (Σ_j a i j · (d j · z j) + d i · z i) = Σ_j ((a i j + δ i j) · d i · d j) · z j,

  and apply it once per layer. The degrees agree because `Σ_j (A i j + δ i j) = Σ_j A i j + 1`, which holds in any
  additive commutative monoid and so on the extended reals too.
-/
import proofs.«132648_g48387101557188_cont_8to1_c_480_4_alg».proof.Proof.GcnSpec

noncomputable section

namespace Cert.Gcn

open Idealize.ShloMosaic

variable {N D : ℕ}

/-! ## General lemmas on coercions from the reals to the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- The maximum of a real and zero, taken on the extended reals, is the coercion of the real maximum. -/
theorem max_coe_zero (r : ℝ) : max (r : EReal) 0 = ((max r 0 : ℝ) : EReal) := by
  rw [← EReal.coe_zero, ← Monotone.map_max EReal.coe_strictMono.monotone]

/-- The Kronecker delta on the extended reals is the coercion of the real one. -/
theorem ite_coe {ι : Type*} [DecidableEq ι] (i j : ι) :
    (if i = j then (1 : EReal) else 0) = (((if i = j then 1 else 0) : ℝ) : EReal) := by
  split_ifs <;> simp

/-! ## The two forms over the reals -/

/-- The row-scaled aggregation over the reals. -/
def aggKr (a : Fin N → Fin N → ℝ) (d : Fin N → ℝ) (y : Fin N → Fin D → ℝ) (i : Fin N) (k : Fin D) : ℝ :=
  d i * ((∑ j, a i j * y j k) + y i k)

/-- The weights applied, over the reals. -/
def linr (g : Fin N → Fin D → ℝ) (w : Fin D → Fin D → ℝ) (i : Fin N) (c : Fin D) : ℝ :=
  ∑ k, g i k * w k c

/-- The normalised aggregation over the reals, for a given scaling vector `d`. -/
def aggRr (a : Fin N → Fin N → ℝ) (d : Fin N → ℝ) (x : Fin N → Fin D → ℝ) (i : Fin N) (k : Fin D) : ℝ :=
  ∑ j, ((a i j + if i = j then 1 else 0) * d i * d j) * x j k

/-- THE LAYER IDENTITY over the reals: on features pre-scaled by `d`, the row-scaled aggregation is the normalised
    one. Each summand `((a i j + δ i j) · d i · d j) · z j` is `d i · (a i j · (d j · z j))` plus a term that is
    `d i · (d j · z j)` on the diagonal and zero off it; the sum of the latter is its diagonal value. -/
theorem aggKr_eq_aggRr (a : Fin N → Fin N → ℝ) (d : Fin N → ℝ) (z : Fin N → Fin D → ℝ) :
    aggKr a d (fun i k => d i * z i k) = aggRr a d z := by
  funext i k
  unfold aggKr aggRr
  have h : ∀ j, ((a i j + if i = j then 1 else 0) * d i * d j) * z j k
      = d i * (a i j * (d j * z j k)) + (if i = j then d i * (d j * z j k) else 0) := by
    intro j
    split_ifs <;> ring
  rw [Finset.sum_congr rfl (fun j _ => h j), Finset.sum_add_distrib, Finset.sum_ite_eq,
    if_pos (Finset.mem_univ i), ← Finset.mul_sum]
  ring

/-! ## Each piece of either form is the coercion of its real counterpart -/

theorem aggK_coe {A : Fin N → Fin N → EReal} {d : Fin N → EReal} {y : Fin N → Fin D → EReal}
    {a : Fin N → Fin N → ℝ} {d' : Fin N → ℝ} {y' : Fin N → Fin D → ℝ}
    (hA : ∀ i j, A i j = (a i j : EReal)) (hd : ∀ i, d i = (d' i : EReal))
    (hy : ∀ i k, y i k = (y' i k : EReal)) (i : Fin N) (k : Fin D) :
    aggK A d y i k = ((aggKr a d' y' i k : ℝ) : EReal) := by
  unfold aggK aggKr
  rw [EReal.coe_mul, EReal.coe_add, coe_finset_sum, hd i, hy i k]
  congr 2
  refine Finset.sum_congr rfl fun j _ => ?_
  rw [hA i j, hy j k, EReal.coe_mul]

theorem lin_coe {g : Fin N → Fin D → EReal} {Wl : Fin D → Fin D → EReal}
    {g' : Fin N → Fin D → ℝ} {w : Fin D → Fin D → ℝ}
    (hg : ∀ i k, g i k = (g' i k : EReal)) (hW : ∀ k c, Wl k c = (w k c : EReal)) (i : Fin N) (c : Fin D) :
    lin g Wl i c = ((linr g' w i c : ℝ) : EReal) := by
  unfold lin linr
  rw [coe_finset_sum]
  refine Finset.sum_congr rfl fun k _ => ?_
  rw [hg i k, hW k c, EReal.coe_mul]

theorem hat_coe {A : Fin N → Fin N → EReal} {a : Fin N → Fin N → ℝ}
    (hA : ∀ i j, A i j = (a i j : EReal)) (i j : Fin N) :
    hat A i j = ((a i j + if i = j then 1 else 0 : ℝ) : EReal) := by
  unfold hat
  rw [hA i j, ite_coe, EReal.coe_add]

theorem aggR_coe {A : Fin N → Fin N → EReal} {x : Fin N → Fin D → EReal}
    {a : Fin N → Fin N → ℝ} {d : Fin N → ℝ} {x' : Fin N → Fin D → ℝ}
    (hA : ∀ i j, A i j = (a i j : EReal)) (hd : ∀ i, dR A i = (d i : EReal))
    (hx : ∀ i k, x i k = (x' i k : EReal)) (i : Fin N) (k : Fin D) :
    aggR A x i k = ((aggRr a d x' i k : ℝ) : EReal) := by
  unfold aggR aggRr
  rw [coe_finset_sum]
  refine Finset.sum_congr rfl fun j _ => ?_
  rw [hat_coe hA, hd i, hd j, hx j k, ← EReal.coe_mul, ← EReal.coe_mul, ← EReal.coe_mul]

/-! ## The degrees -/

/-- `Σ_j (A i j + δ i j) = Σ_j A i j + 1`: true in any additive commutative monoid. -/
theorem sum_hat (A : Fin N → Fin N → EReal) (i : Fin N) : ∑ j, hat A i j = (∑ j, A i j) + 1 := by
  unfold hat
  rw [Finset.sum_add_distrib, Finset.sum_ite_eq, if_pos (Finset.mem_univ i)]

/-- The two scaling vectors are the same. -/
theorem dR_eq_dK (A : Fin N → Fin N → EReal) (i : Fin N) : dR A i = dK A i := by
  unfold dR dK
  rw [sum_hat]

/-- The real scaling vector `d i = (√(Σ_j a i j + 1))⁻¹`. -/
def dr (a : Fin N → Fin N → ℝ) (i : Fin N) : ℝ := (Real.sqrt ((∑ j, a i j) + 1))⁻¹

/-- For real entries and a positive degree the scaling factor is the real `(√(Σ_j a i j + 1))⁻¹`: the reciprocal
    square root of a real is an infinity or junk only at a real that is zero or negative. -/
theorem dK_coe {A : Fin N → Fin N → EReal} {a : Fin N → Fin N → ℝ}
    (hA : ∀ i j, A i j = (a i j : EReal)) (i : Fin N) (hpos : 0 < ∑ j, hat A i j) :
    dK A i = ((dr a i : ℝ) : EReal) := by
  have hs : (∑ j, A i j) + 1 = (((∑ j, a i j) + 1 : ℝ) : EReal) := by
    rw [EReal.coe_add, coe_finset_sum, EReal.coe_one]
    congr 1
    exact Finset.sum_congr rfl fun j _ => hA i j
  rw [sum_hat, hs, EReal.coe_pos] at hpos
  unfold dK dr
  rw [hs, Ideal.rsqrt_coe, if_neg (not_lt.2 hpos.le), if_neg hpos.ne']

/-! ## The claim -/

/-- The row-scaled network equals the normalised one, for real entries and positive degrees. Both sides are
    coercions of real expressions, built layer by layer; the two real expressions agree by the layer identity,
    applied once to the input features and once to the clipped output of the first layer. -/
theorem kernelNet_eq_refNet (A : Fin N → Fin N → EReal) (X : Fin N → Fin D → EReal) (W0 W1 : Fin D → Fin D → EReal)
    (hA : ∀ i j, ∃ r : ℝ, A i j = (r : EReal)) (hX : ∀ i k, ∃ r : ℝ, X i k = (r : EReal))
    (hW0 : ∀ k c, ∃ r : ℝ, W0 k c = (r : EReal)) (hW1 : ∀ k c, ∃ r : ℝ, W1 k c = (r : EReal))
    (hdeg : ∀ i, 0 < ∑ j, hat A i j) : kernelNet A X W0 W1 = refNet A X W0 W1 := by
  choose a ha using hA
  choose x hx using hX
  choose w0 hw0 using hW0
  choose w1 hw1 using hW1
  -- the common scaling vector is real
  have hdK : ∀ i, dK A i = ((dr a i : ℝ) : EReal) := fun i => dK_coe ha i (hdeg i)
  have hdR : ∀ i, dR A i = ((dr a i : ℝ) : EReal) := fun i => (dR_eq_dK A i).trans (hdK i)
  -- the row-scaled form, layer by layer
  have h1 : ∀ i k, dK A i * X i k = ((dr a i * x i k : ℝ) : EReal) := fun i k => by
    rw [hdK i, hx i k, EReal.coe_mul]
  have h2 := aggK_coe ha hdK h1
  have h3 := lin_coe h2 hw0
  have h4 : ∀ i c, dK A i * max (lin (aggK A (dK A) (fun i k => dK A i * X i k)) W0 i c) 0
      = ((dr a i * max (linr (aggKr a (dr a) (fun i k => dr a i * x i k)) w0 i c) 0 : ℝ) : EReal) := fun i c => by
    rw [hdK i, h3 i c, max_coe_zero, EReal.coe_mul]
  have h5 := aggK_coe ha hdK h4
  have h6 := lin_coe h5 hw1
  -- the normalised form, layer by layer
  have g2 := aggR_coe ha hdR hx
  have g3 := lin_coe g2 hw0
  have g4 : ∀ i c, max (lin (aggR A X) W0 i c) 0
      = ((max (linr (aggRr a (dr a) x) w0 i c) 0 : ℝ) : EReal) := fun i c => by
    rw [g3 i c, max_coe_zero]
  have g5 := aggR_coe ha hdR g4
  have g6 := lin_coe g5 hw1
  -- the two real expressions agree
  funext i c
  refine (h6 i c).trans (Eq.trans ?_ (g6 i c).symm)
  rw [aggKr_eq_aggRr a (dr a) x, aggKr_eq_aggRr a (dr a) (fun i c => max (linr (aggRr a (dr a) x) w0 i c) 0)]

/-- The same at the level of the programs' arrays: the adjacency, the features and the stacked per-head weights read
    as functions of their coordinates are real entry by entry when the arrays are. -/
theorem kernelOut_eq_refOut (a : (⟨2, ![10000, 10000]⟩ : Shape).Idx → EReal)
    (x : (⟨2, ![10000, 128]⟩ : Shape).Idx → EReal) (w : (⟨4, ![2, 4, 128, 32]⟩ : Shape).Idx → EReal)
    (ha : ∀ i, ∃ r : ℝ, a i = (r : EReal)) (hx : ∀ i, ∃ r : ℝ, x i = (r : EReal))
    (hw : ∀ i, ∃ r : ℝ, w i = (r : EReal))
    (hdeg : ∀ i : Fin 10000, 0 < ∑ j, hat (mat a) i j) : kernelOut a x w = refOut a x w := by
  funext o
  exact congrFun (congrFun (kernelNet_eq_refNet (mat a) (mat x) (stack w 0) (stack w 1)
    (fun _ _ => ha _) (fun _ _ => hx _) (fun _ _ => hw _) (fun _ _ => hw _) hdeg) (o 0)) (o 1)

end Cert.Gcn

end
-- ==== Proof.PreDecode.lean ====
/-
  The precondition of the claim, read back at the ideal values.

  The printed predicate is the conjunction of four `all`s: every entry of each of the three argument arrays has
  absolute value below +∞, and every row sum of `A + I` is positive. Over the extended reals `|v| < +∞` says
  exactly that `v` is a real number (it excludes both infinities), and the row sum of `A + I` is the sum
  `Σ_j (A i j + δ i j)` of the specification, the identity matrix being printed as the comparison of the row and
  the column coordinate (as 32-bit words, which for coordinates below 10000 are equal exactly when the coordinates
  are) converted to 0 or 1.
-/
import proofs.«132648_g48387101557188_cont_8to1_c_480_4_alg».proof.Pre_finite_inputs
import proofs.«132648_g48387101557188_cont_8to1_c_480_4_alg».proof.Proof.Gen.Pre_finite_inputs
import proofs.«132648_g48387101557188_cont_8to1_c_480_4_alg».proof.Proof.GcnSpec
import Idealize.ShloMosaic.Lib.ReduceAll
import Idealize.ShloMosaic.Lib.ValueIdx
import Idealize.ShloMosaic.PureOps.Ideal.Laws

noncomputable section

namespace Cert.PreDecode

open Idealize.ShloMosaic

variable [Cert.Pre_finite_inputs.Facts]

/-- The rank-0 shape has one index. -/
instance : Subsingleton Cert.Pre_finite_inputs.S_.Idx := ⟨fun a b => funext fun d => d.elim0⟩

/-- The f32 pattern `0x7F800000` is +∞. -/
theorem ofBits_inf : Ideal.ofBits .f32 0x7F800000#32 = ⊤ := by simp [Ideal.ofBits, Ideal.ieee]

/-- `|v| < +∞` on the extended reals: `v` is a real (neither infinity has `max v (-v) < ⊤`). -/
theorem real_of_abs_lt (v : EReal)
    (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | coe r => exact ⟨r, rfl⟩
  | top => simp [Ideal.cmp] at h

/-- One `all(|v| < +∞)` of the predicate, at any shape: every entry of `v` is a real. -/
theorem real_of_all {S : Shape} (v : FVec Ideal S .f32) (hb : Cert.Pre_finite_inputs.S_.BroadcastsInDim S ![])
    {axes : List (Fin S.rank)} (hr : S.ReducesTo axes Cert.Pre_finite_inputs.S_) (hu : 0 < Cert.Pre_finite_inputs.S_.numel)
    (h : Host.reduce IntOp.andi
          (cmpf CmpFPredicate.olt (Host.absf v)
            (broadcastInDim S ![] hb (constant Cert.Pre_finite_inputs.S_ FTy.f32 0x7F800000#32)))
          (constantI Cert.Pre_finite_inputs.S_ 1 1#1) hr hu ValueIdx.ix0 = 1#1) (i : S.Idx) :
    ∃ r : ℝ, v i = (r : EReal) :=
  real_of_abs_lt (v i) (Host.reduce_andi_all _ _ hr hu _ h i)

/-- A comparison `x > y` that came out 1 says `y < x`. -/
theorem lt_of_cmp_ogt (x y : EReal) (h : Ideal.cmp .ogt x y = 1#1) : y < x := by
  unfold Ideal.cmp at h
  by_contra hn
  simp [hn] at h

/-- The identity matrix as printed: the row coordinate (plus the zero word) compared, as 32-bit words, with the column
    coordinate, the outcome converted to a real. Coordinates below 10000 are below 2^32, so the words are equal exactly when
    the coordinates are: the entry is 1 on the diagonal and 0 off it. -/
theorem eye_entry (i k : Fin 10000) :
    (((IntOp.cmpi .eq (IntOp.addi (BitVec.ofNat 32 i.val) 0#32) (BitVec.ofNat 32 k.val)).toNat : ℝ) : EReal)
      = if i = k then 1 else 0 := by
  have hw : (IntOp.addi (BitVec.ofNat 32 i.val) 0#32 = BitVec.ofNat 32 k.val) ↔ i = k := by
    simp only [IntOp.addi, BitVec.add_zero]
    constructor
    · intro e
      have e' := congrArg BitVec.toNat e
      simp only [BitVec.toNat_ofNat] at e'
      apply Fin.ext; have := i.isLt; have := k.isLt; omega
    · rintro rfl; rfl
  by_cases hik : i = k
  · rw [IntOp.cmpi_eq.2 (hw.2 hik), if_pos hik]; simp
  · have hne : ¬ (IntOp.addi (BitVec.ofNat 32 i.val) 0#32 = BitVec.ofNat 32 k.val) := fun e => hik (hw.1 e)
    rw [if_neg hik]
    simp [IntOp.cmpi, hne]

/-- Inserting the column coordinate `k` into the rank-1 index `i` on axis 1 gives the index `(i, k)`. -/
theorem lift_eq (hR : Cert.Pre_finite_inputs.S10000x10000.Reduces [1] Cert.Pre_finite_inputs.S10000) (i k : Fin 10000) :
    hR.lift (ValueIdx.ix1 i) k = ValueIdx.ix2 i k := by
  funext d
  match d with
  | ⟨0, _⟩ => exact Fin.ext rfl
  | ⟨1, _⟩ => exact Fin.ext rfl

/-- The printed `A + I` at `(i, k)` is the specification's `Â i k`. -/
theorem row_entry (a : FVec Ideal Cert.Pre_finite_inputs.S10000x10000 .f32)
    (hb : Cert.Pre_finite_inputs.S_.BroadcastsInDim Cert.Pre_finite_inputs.S10000x10000 ![])
    (hR : Cert.Pre_finite_inputs.S10000x10000.Reduces [1] Cert.Pre_finite_inputs.S10000) (i k : Fin 10000) :
    addf a
        (uitofp FTy.f32
          (cmpi CmpIPredicate.eq
            (addi (iotaInDim Cert.Pre_finite_inputs.S10000x10000 32 0)
              (broadcastInDim Cert.Pre_finite_inputs.S10000x10000 ![] hb (constantI Cert.Pre_finite_inputs.S_ 32 0#32)))
            (iotaInDim Cert.Pre_finite_inputs.S10000x10000 32 1))) (hR.lift (ValueIdx.ix1 i) k)
      = Cert.Gcn.hat (Cert.Gcn.mat a) i k := by
  rw [lift_eq hR i k]
  show a (ValueIdx.ix2 i k)
      + (((IntOp.cmpi .eq (IntOp.addi (BitVec.ofNat 32 i.val) 0#32) (BitVec.ofNat 32 k.val)).toNat : ℝ) : EReal)
    = a (ValueIdx.ix2 i k) + (if i = k then 1 else 0)
  rw [eye_entry]

/-- The fourth conjunct at a row: the printed row sum of `A + I` is the specification's `Σ_j Â i j`, and the comparison
    says it is positive. -/
theorem deg_of_elem (a : FVec Ideal Cert.Pre_finite_inputs.S10000x10000 .f32)
    (hb : Cert.Pre_finite_inputs.S_.BroadcastsInDim Cert.Pre_finite_inputs.S10000x10000 ![])
    (hb1 : Cert.Pre_finite_inputs.S_.BroadcastsInDim Cert.Pre_finite_inputs.S10000 ![])
    (hr : Cert.Pre_finite_inputs.S10000x10000.ReducesTo [1] Cert.Pre_finite_inputs.S10000)
    (hu : 0 < Cert.Pre_finite_inputs.S_.numel) (i : Fin 10000)
    (e : cmpf CmpFPredicate.ogt
          (Host.reduceAdd
            (addf a
              (uitofp FTy.f32
                (cmpi CmpIPredicate.eq
                  (addi (iotaInDim Cert.Pre_finite_inputs.S10000x10000 32 0)
                    (broadcastInDim Cert.Pre_finite_inputs.S10000x10000 ![] hb (constantI Cert.Pre_finite_inputs.S_ 32 0#32)))
                  (iotaInDim Cert.Pre_finite_inputs.S10000x10000 32 1))))
            (constant Cert.Pre_finite_inputs.S_ FTy.f32 0x00000000#32) hr hu)
          (broadcastInDim Cert.Pre_finite_inputs.S10000 ![] hb1 (constant Cert.Pre_finite_inputs.S_ FTy.f32 0x00000000#32))
          (ValueIdx.ix1 i) = 1#1) :
    0 < ∑ j, Cert.Gcn.hat (Cert.Gcn.mat a) i j := by
  have hR : Cert.Pre_finite_inputs.S10000x10000.Reduces [1] Cert.Pre_finite_inputs.S10000 := by decide
  change Ideal.cmp .ogt (Ideal.hostReduceAdd hr _ (Ideal.ofBits .f32 0x00000000#32) (ValueIdx.ix1 i))
    (Ideal.ofBits .f32 0x00000000#32) = 1#1 at e
  rw [Ideal.hostReduceAdd_single hr hR, Ideal.ofBits_zero_f32, zero_add] at e
  have hpos := lt_of_cmp_ogt _ _ e
  exact lt_of_lt_of_eq hpos (Finset.sum_congr rfl fun k _ => row_entry a hb hR i k)

/-- The first three conjuncts: every entry of the three argument arrays is a real. -/
theorem finite_of_pre (a : FVec Ideal Cert.Pre_finite_inputs.S10000x10000 .f32) (x : FVec Ideal Cert.Pre_finite_inputs.S10000x128 .f32)
    (w : FVec Ideal Cert.Pre_finite_inputs.S2x4x128x32 .f32)
    (h : Cert.Pre_finite_inputs.fn (F := Ideal) a x w = fun _ => 1#1) :
    (∀ i, ∃ r : ℝ, a i = (r : EReal)) ∧ (∀ i, ∃ r : ℝ, x i = (r : EReal)) ∧ (∀ i, ∃ r : ℝ, w i = (r : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨h1, h2⟩, h3⟩, _⟩ := h0
  exact ⟨real_of_all a _ _ _ h1, real_of_all x _ _ _ h2, real_of_all w _ _ _ h3⟩

/-- The fourth conjunct: every row sum of `A + I` is positive. -/
theorem deg_of_pre (a : FVec Ideal Cert.Pre_finite_inputs.S10000x10000 .f32) (x : FVec Ideal Cert.Pre_finite_inputs.S10000x128 .f32)
    (w : FVec Ideal Cert.Pre_finite_inputs.S2x4x128x32 .f32)
    (h : Cert.Pre_finite_inputs.fn (F := Ideal) a x w = fun _ => 1#1) (i : Fin 10000) :
    0 < ∑ j, Cert.Gcn.hat (Cert.Gcn.mat a) i j := by
  have h0 := congrFun h ValueIdx.ix0
  dsimp only [Cert.Pre_finite_inputs.fn, Cert.Pre_finite_inputs.fn_part1] at h0
  simp only [Idealize.ShloMosaic.andi, IntOp.andi_eq_one] at h0
  obtain ⟨_, h4⟩ := h0
  exact deg_of_elem a _ _ _ _ i (Host.reduce_andi_all _ _ _ _ _ h4 (ValueIdx.ix1 i))

/-- The precondition decoded: the three argument arrays hold reals, and every row sum of `A + I` is positive. -/
theorem of_pre (a : FVec Ideal Cert.Pre_finite_inputs.S10000x10000 .f32) (x : FVec Ideal Cert.Pre_finite_inputs.S10000x128 .f32)
    (w : FVec Ideal Cert.Pre_finite_inputs.S2x4x128x32 .f32)
    (h : Cert.Pre_finite_inputs.fn (F := Ideal) a x w = fun _ => 1#1) :
    (∀ i, ∃ r : ℝ, a i = (r : EReal)) ∧ (∀ i, ∃ r : ℝ, x i = (r : EReal)) ∧ (∀ i, ∃ r : ℝ, w i = (r : EReal))
      ∧ ∀ i : Fin 10000, 0 < ∑ j, Cert.Gcn.hat (Cert.Gcn.mat a) i j :=
  have hf := finite_of_pre a x w h
  ⟨hf.1, hf.2.1, hf.2.2, deg_of_pre a x w h⟩

end Cert.PreDecode

end
-- ==== Proof.lean ====
/-
  The claim: a two-layer dense graph convolution with symmetric normalisation, computed by three streaming passes
  that carry the features pre-scaled by d = (row sums of A + 1)^(-1/2) and never form the normalised matrix,
  against the reference that materialises D^(-1/2) (A + I) D^(-1/2) and multiplies by it twice.

  * The three frames. The kernel's (at both instances, one text instantiated twice: Proof/KB, Proof/KI) come from the run of
    its five items — three passes, two short host stretches — followed buffer by buffer; the reference's from its run as a
    list of host operations.
  * The idealization rewrote nothing, so there is nothing to preserve.
  * The values. At the ideal instance the kernel's result array is the row-scaled network of the argument arrays
    (Proof/KI/KernelValue), the reference's is the normalised network (Proof/RefRun, RefValue), and the two networks agree
    entry by entry when every input is a real number and every degree Σ_j (A + I) i j is positive (Proof/GcnAlgebra) —
    which is what the precondition says (Proof/PreDecode): a real factor d i distributes over the finite row sum, and the
    diagonal term of A + I is the kernel's "+ y i".
-/
import proofs.«132648_g48387101557188_cont_8to1_c_480_4_alg».proof.Defs
import proofs.«132648_g48387101557188_cont_8to1_c_480_4_alg».proof.Proof.Gen.Kernel
import proofs.«132648_g48387101557188_cont_8to1_c_480_4_alg».proof.Proof.Gen.KernelIdeal
import proofs.«132648_g48387101557188_cont_8to1_c_480_4_alg».proof.Proof.Gen.ReferenceIdeal
import proofs.«132648_g48387101557188_cont_8to1_c_480_4_alg».proof.Proof.Gen.Pre_finite_inputs
import proofs.«132648_g48387101557188_cont_8to1_c_480_4_alg».proof.Proof.KB.Run
import proofs.«132648_g48387101557188_cont_8to1_c_480_4_alg».proof.Proof.KI.Run
import proofs.«132648_g48387101557188_cont_8to1_c_480_4_alg».proof.Proof.KI.KernelValue
import proofs.«132648_g48387101557188_cont_8to1_c_480_4_alg».proof.Proof.RefRun
import proofs.«132648_g48387101557188_cont_8to1_c_480_4_alg».proof.Proof.GcnAlgebra
import proofs.«132648_g48387101557188_cont_8to1_c_480_4_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Run.run (F := Bits) m ρ)

theorem frame_ki : Cert.frame_KernelIdeal := fun m ρ _ =>
  (θ_run Cert.KernelIdeal.defs _ _).mono (fun _ h c => (h c).2) (Cert.KernelIdeal.Run.run (F := Ideal) m ρ)

theorem frame_ri : Cert.frame_ReferenceIdeal := fun m ρ _ =>
  (θ_run Cert.ReferenceIdeal.defs _ _).mono (fun _ h c => (h c).2) (Cert.ReferenceIdeal.RefRun.run_refOut m ρ)

theorem preserves : Cert.preserves_Kernel_KernelIdeal := trivial

/-- Both programs run; the kernel's result array is the row-scaled network of its arguments, the reference's the
    normalised network of the same arrays, and under the precondition (real entries, positive degrees) those agree. -/
theorem algebraic : Cert.algebraic_KernelIdeal_ReferenceIdeal := by
  intro m ρ m' ρ' hpre hagree
  refine ⟨fun c => Cert.Gcn.kernelOut (m ((c.tc : Thread _ _).loc Cert.KernelIdeal.main_arg0)) (m ((c.tc : Thread _ _).loc Cert.KernelIdeal.main_arg1))
      (m ((c.tc : Thread _ _).loc Cert.KernelIdeal.main_arg2)), Cert.KernelIdeal.KernelValue.run m ρ, ?_⟩
  refine (θ_run Cert.ReferenceIdeal.defs _ _).mono (fun _ h c => ⟨(h c).1.trans ?_, (h c).2⟩)
    (Cert.ReferenceIdeal.RefRun.run_refOut m' ρ')
  rw [(hagree c).1, (hagree c).2.1, (hagree c).2.2]
  obtain ⟨ha, hx, hw, hdeg⟩ := Cert.PreDecode.of_pre _ _ _ (hpre c)
  exact (Cert.Gcn.kernelOut_eq_refOut _ _ _ ha hx hw hdeg).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
